-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v64)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v64) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v122) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S512x128 : Shape := ⟨2, ![512, 128]⟩
abbrev S512 : Shape := ⟨1, ![512]⟩
abbrev S512x512 : Shape := ⟨2, ![512, 512]⟩
abbrev S3x512 : Shape := ⟨2, ![3, 512]⟩
abbrev S3 : Shape := ⟨1, ![3]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S512x128 : S_.BroadcastsInDim S512x128 (![] : Fin 0 → Fin S512x128.rank)
  reducesTo_S512x128_S_d0_1 : S512x128.ReducesTo [0, 1] S_
  bcast_S_S512 : S_.BroadcastsInDim S512 (![] : Fin 0 → Fin S512.rank)
  reducesTo_S512_S_d0 : S512.ReducesTo [0] S_
  bcast_S_S512x512 : S_.BroadcastsInDim S512x512 (![] : Fin 0 → Fin S512x512.rank)
  reducesTo_S512x512_S_d0_1 : S512x512.ReducesTo [0, 1] S_
  bcast_S_S3x512 : S_.BroadcastsInDim S3x512 (![] : Fin 0 → Fin S3x512.rank)
  reducesTo_S3x512_S_d0_1 : S3x512.ReducesTo [0, 1] S_
  bcast_S_S3 : S_.BroadcastsInDim S3 (![] : Fin 0 → Fin S3.rank)
  reducesTo_S3_S_d0 : S3.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg12 : FVec F S512 .f32) (main_arg13 : FVec F S3x512 .f32) (main_arg14 : FVec F S3 .f32) (main_v48 : IVec S_ 1) (main_v49 : FVec F S512x512 .f32) (main_v50 : FVec F S512x512 .f32) : IVec S_ 1 :=
  let main_v51 : IVec S512x512 1 := cmpf .olt main_v49 main_v50
  let main_c_19 : IVec S_ 1 := constantI S_ 1 1#1
  let main_v52 : IVec S_ 1 := (fun x v => Host.reduce IntOp.andi x v reducesTo_S512x512_S_d0_1 h_S_) main_v51 main_c_19
  let main_v53 : IVec S_ 1 := andi main_v48 main_v52
  let main_v54 : FVec F S512 .f32 := Host.absf main_arg12
  let main_cst_20 : FVec F S_ .f32 := constant S_ .f32 0x7F800000#32
  let main_v55 : FVec F S512 .f32 := broadcastInDim S512 ![] bcast_S_S512 main_cst_20
  let main_v56 : IVec S512 1 := cmpf .olt main_v54 main_v55
  let main_c_21 : IVec S_ 1 := constantI S_ 1 1#1
  let main_v57 : IVec S_ 1 := (fun x v => Host.reduce IntOp.andi x v reducesTo_S512_S_d0 h_S_) main_v56 main_c_21
  let main_v58 : IVec S_ 1 := andi main_v53 main_v57
  let main_v59 : FVec F S3x512 .f32 := Host.absf main_arg13
  let main_cst_22 : FVec F S_ .f32 := constant S_ .f32 0x7F800000#32
  let main_v60 : FVec F S3x512 .f32 := broadcastInDim S3x512 ![] bcast_S_S3x512 main_cst_22
  let main_v61 : IVec S3x512 1 := cmpf .olt main_v59 main_v60
  let main_c_23 : IVec S_ 1 := constantI S_ 1 1#1
  let main_v62 : IVec S_ 1 := (fun x v => Host.reduce IntOp.andi x v reducesTo_S3x512_S_d0_1 h_S_) main_v61 main_c_23
  let main_v63 : IVec S_ 1 := andi main_v58 main_v62
  let main_v64 : FVec F S3 .f32 := Host.absf main_arg14
  let main_cst_24 : FVec F S_ .f32 := constant S_ .f32 0x7F800000#32
  let main_v65 : FVec F S3 .f32 := broadcastInDim S3 ![] bcast_S_S3 main_cst_24
  let main_v66 : IVec S3 1 := cmpf .olt main_v64 main_v65
  let main_c_25 : IVec S_ 1 := constantI S_ 1 1#1
  let main_v67 : IVec S_ 1 := (fun x v => Host.reduce IntOp.andi x v reducesTo_S3_S_d0 h_S_) main_v66 main_c_25
  fn_part4 (F := F) main_v63 main_v67

def fn_part2 {F : FTy → Type} [FloatOps F] (main_arg8 : FVec F S512x128 .f32) (main_arg9 : FVec F S512 .f32) (main_arg10 : FVec F S512x128 .f32) (main_arg11 : FVec F S512x512 .f32) (main_arg12 : FVec F S512 .f32) (main_arg13 : FVec F S3x512 .f32) (main_arg14 : FVec F S3 .f32) (main_v33 : IVec S_ 1) : IVec S_ 1 :=
  let main_v34 : FVec F S512x128 .f32 := Host.absf main_arg8
  let main_cst_12 : FVec F S_ .f32 := constant S_ .f32 0x7F800000#32
  let main_v35 : FVec F S512x128 .f32 := broadcastInDim S512x128 ![] bcast_S_S512x128 main_cst_12
  let main_v36 : IVec S512x128 1 := cmpf .olt main_v34 main_v35
  let main_c_13 : IVec S_ 1 := constantI S_ 1 1#1
  let main_v37 : IVec S_ 1 := (fun x v => Host.reduce IntOp.andi x v reducesTo_S512x128_S_d0_1 h_S_) main_v36 main_c_13
  let main_v38 : IVec S_ 1 := andi main_v33 main_v37
  let main_v39 : FVec F S512 .f32 := Host.absf main_arg9
  let main_cst_14 : FVec F S_ .f32 := constant S_ .f32 0x7F800000#32
  let main_v40 : FVec F S512 .f32 := broadcastInDim S512 ![] bcast_S_S512 main_cst_14
  let main_v41 : IVec S512 1 := cmpf .olt main_v39 main_v40
  let main_c_15 : IVec S_ 1 := constantI S_ 1 1#1
  let main_v42 : IVec S_ 1 := (fun x v => Host.reduce IntOp.andi x v reducesTo_S512_S_d0 h_S_) main_v41 main_c_15
  let main_v43 : IVec S_ 1 := andi main_v38 main_v42
  let main_v44 : FVec F S512x128 .f32 := Host.absf main_arg10
  let main_cst_16 : FVec F S_ .f32 := constant S_ .f32 0x7F800000#32
  let main_v45 : FVec F S512x128 .f32 := broadcastInDim S512x128 ![] bcast_S_S512x128 main_cst_16
  let main_v46 : IVec S512x128 1 := cmpf .olt main_v44 main_v45
  let main_c_17 : IVec S_ 1 := constantI S_ 1 1#1
  let main_v47 : IVec S_ 1 := (fun x v => Host.reduce IntOp.andi x v reducesTo_S512x128_S_d0_1 h_S_) main_v46 main_c_17
  let main_v48 : IVec S_ 1 := andi main_v43 main_v47
  let main_v49 : FVec F S512x512 .f32 := Host.absf main_arg11
  let main_cst_18 : FVec F S_ .f32 := constant S_ .f32 0x7F800000#32
  let main_v50 : FVec F S512x512 .f32 := broadcastInDim S512x512 ![] bcast_S_S512x512 main_cst_18
  fn_part3 (F := F) main_arg12 main_arg13 main_arg14 main_v48 main_v49 main_v50

def fn_part1 {F : FTy → Type} [FloatOps F] (main_arg5 : FVec F S128x128 .f32) (main_arg6 : FVec F S128 .f32) (main_arg7 : FVec F S128x128 .f32) (main_arg8 : FVec F S512x128 .f32) (main_arg9 : FVec F S512 .f32) (main_arg10 : FVec F S512x128 .f32) (main_arg11 : FVec F S512x512 .f32) (main_arg12 : FVec F S512 .f32) (main_arg13 : FVec F S3x512 .f32) (main_arg14 : FVec F S3 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_arg9 main_arg10 main_arg11 main_arg12 main_arg13 main_arg14 main_v33

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) (main_arg5 : FVec F S128x128 .f32) (main_arg6 : FVec F S128 .f32) (main_arg7 : FVec F S128x128 .f32) (main_arg8 : FVec F S512x128 .f32) (main_arg9 : FVec F S512 .f32) (main_arg10 : FVec F S512x128 .f32) (main_arg11 : FVec F S512x512 .f32) (main_arg12 : FVec F S512 .f32) (main_arg13 : FVec F S3x512 .f32) (main_arg14 : FVec F S3 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_arg10 main_arg11 main_arg12 main_arg13 main_arg14 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S512x128 : Shape := ⟨2, ![512, 128]⟩
abbrev S512 : Shape := ⟨1, ![512]⟩
abbrev S512x512 : Shape := ⟨2, ![512, 512]⟩
abbrev S3x512 : Shape := ⟨2, ![3, 512]⟩
abbrev S3 : Shape := ⟨1, ![3]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S128x512 : Shape := ⟨2, ![128, 512]⟩
abbrev S512x3 : Shape := ⟨2, ![512, 3]⟩
abbrev S1600000x128 : Shape := ⟨2, ![1600000, 128]⟩
abbrev S1x128 : Shape := ⟨2, ![1, 128]⟩
abbrev S2000x128 : Shape := ⟨2, ![2000, 128]⟩
abbrev S2000 : Shape := ⟨1, ![2000]⟩
abbrev S2000x1 : Shape := ⟨2, ![2000, 1]⟩
abbrev S1x512 : Shape := ⟨2, ![1, 512]⟩
abbrev S100000x512 : Shape := ⟨2, ![100000, 512]⟩
abbrev S2000x512 : Shape := ⟨2, ![2000, 512]⟩
abbrev S1x3 : Shape := ⟨2, ![1, 3]⟩
abbrev S100000x3 : Shape := ⟨2, ![100000, 3]⟩
abbrev S2000x3 : Shape := ⟨2, ![2000, 3]⟩

abbrev nBuf : Space → Nat
  | .hbm => 92
  | .vmem => 39
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S512x128, .f32⟩
  | .hbm, ⟨9, _⟩ => ⟨S512, .f32⟩
  | .hbm, ⟨10, _⟩ => ⟨S512x128, .f32⟩
  | .hbm, ⟨11, _⟩ => ⟨S512x512, .f32⟩
  | .hbm, ⟨12, _⟩ => ⟨S512, .f32⟩
  | .hbm, ⟨13, _⟩ => ⟨S3x512, .f32⟩
  | .hbm, ⟨14, _⟩ => ⟨S3, .f32⟩
  | .hbm, ⟨15, _⟩ => ⟨S1x1600000, .i32⟩
  | .hbm, ⟨16, _⟩ => ⟨S1600000, .i32⟩
  | .hbm, ⟨17, _⟩ => ⟨S1x1600000, .i32⟩
  | .hbm, ⟨18, _⟩ => ⟨S1600000, .i32⟩
  | .hbm, ⟨19, _⟩ => ⟨S_, .f32⟩
  | .hbm, ⟨20, _⟩ => ⟨S1600000, .f32⟩
  | .hbm, ⟨21, _⟩ => ⟨S_, .f32⟩
  | .hbm, ⟨22, _⟩ => ⟨S100000, .f32⟩
  | .hbm, ⟨23, _⟩ => ⟨S1600000x1, .i32⟩
  | .hbm, ⟨24, _⟩ => ⟨S100000, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S100000x1, .f32⟩
  | .hbm, ⟨29, _⟩ => ⟨S128x128, .f32⟩
  | .hbm, ⟨30, _⟩ => ⟨S128x128, .f32⟩
  | .hbm, ⟨31, _⟩ => ⟨S128x128, .f32⟩
  | .hbm, ⟨32, _⟩ => ⟨S128x128, .f32⟩
  | .hbm, ⟨33, _⟩ => ⟨S128x512, .f32⟩
  | .hbm, ⟨34, _⟩ => ⟨S128x512, .f32⟩
  | .hbm, ⟨35, _⟩ => ⟨S512x512, .f32⟩
  | .hbm, ⟨36, _⟩ => ⟨S512x3, .f32⟩
  | .hbm, ⟨37, _⟩ => ⟨S_, .i32⟩
  | .hbm, ⟨38, _⟩ => ⟨S1600000, .i32⟩
  | .hbm, ⟨39, _⟩ => ⟨S1600000, .i1⟩
  | .hbm, ⟨40, _⟩ => ⟨S_, .i32⟩
  | .hbm, ⟨41, _⟩ => ⟨S1600000, .i32⟩
  | .hbm, ⟨42, _⟩ => ⟨S1600000, .i32⟩
  | .hbm, ⟨43, _⟩ => ⟨S1600000, .i32⟩
  | .hbm, ⟨44, _⟩ => ⟨S1600000x1, .i32⟩
  | .hbm, ⟨45, _⟩ => ⟨S1600000x128, .f32⟩
  | .hbm, ⟨46, _⟩ => ⟨S_, .f32⟩
  | .hbm, ⟨47, _⟩ => ⟨S100000x128, .f32⟩
  | .hbm, ⟨48, _⟩ => ⟨S1600000x1, .i32⟩
  | .hbm, ⟨49, _⟩ => ⟨S100000x128, .f32⟩
  | .hbm, ⟨50, _⟩ => ⟨S100000x128, .f32⟩
  | .hbm, ⟨51, _⟩ => ⟨S100000x128, .f32⟩
  | .hbm, ⟨52, _⟩ => ⟨S1x128, .f32⟩
  | .hbm, ⟨53, _⟩ => ⟨S100000x128, .f32⟩
  | .hbm, ⟨54, _⟩ => ⟨S_, .i32⟩
  | .hbm, ⟨55, _⟩ => ⟨S1600000, .i32⟩
  | .hbm, ⟨56, _⟩ => ⟨S1600000, .i1⟩
  | .hbm, ⟨57, _⟩ => ⟨S_, .i32⟩
  | .hbm, ⟨58, _⟩ => ⟨S1600000, .i32⟩
  | .hbm, ⟨59, _⟩ => ⟨S1600000, .i32⟩
  | .hbm, ⟨60, _⟩ => ⟨S1600000, .i32⟩
  | .hbm, ⟨61, _⟩ => ⟨S1600000x1, .i32⟩
  | .hbm, ⟨62, _⟩ => ⟨S1600000x128, .f32⟩
  | .hbm, ⟨63, _⟩ => ⟨S_, .f32⟩
  | .hbm, ⟨64, _⟩ => ⟨S100000x128, .f32⟩
  | .hbm, ⟨65, _⟩ => ⟨S1600000x1, .i32⟩
  | .hbm, ⟨66, _⟩ => ⟨S100000x128, .f32⟩
  | .hbm, ⟨67, _⟩ => ⟨S100000x128, .f32⟩
  | .hbm, ⟨68, _⟩ => ⟨S100000x128, .f32⟩
  | .hbm, ⟨69, _⟩ => ⟨S1x128, .f32⟩
  | .hbm, ⟨70, _⟩ => ⟨S100000x128, .f32⟩
  | .hbm, ⟨71, _⟩ => ⟨S_, .i32⟩
  | .hbm, ⟨72, _⟩ => ⟨S1600000, .i32⟩
  | .hbm, ⟨73, _⟩ => ⟨S1600000, .i1⟩
  | .hbm, ⟨74, _⟩ => ⟨S_, .i32⟩
  | .hbm, ⟨75, _⟩ => ⟨S1600000, .i32⟩
  | .hbm, ⟨76, _⟩ => ⟨S1600000, .i32⟩
  | .hbm, ⟨77, _⟩ => ⟨S1600000, .i32⟩
  | .hbm, ⟨78, _⟩ => ⟨S1600000x1, .i32⟩
  | .hbm, ⟨79, _⟩ => ⟨S1600000x128, .f32⟩
  | .hbm, ⟨80, _⟩ => ⟨S_, .f32⟩
  | .hbm, ⟨81, _⟩ => ⟨S100000x128, .f32⟩
  | .hbm, ⟨82, _⟩ => ⟨S1600000x1, .i32⟩
  | .hbm, ⟨83, _⟩ => ⟨S100000x128, .f32⟩
  | .hbm, ⟨84, _⟩ => ⟨S100000x128, .f32⟩
  | .hbm, ⟨85, _⟩ => ⟨S100000x128, .f32⟩
  | .hbm, ⟨86, _⟩ => ⟨S1x512, .f32⟩
  | .hbm, ⟨87, _⟩ => ⟨S100000x512, .f32⟩
  | .hbm, ⟨88, _⟩ => ⟨S1x512, .f32⟩
  | .hbm, ⟨89, _⟩ => ⟨S100000x512, .f32⟩
  | .hbm, ⟨90, _⟩ => ⟨S1x3, .f32⟩
  | .hbm, ⟨91, _⟩ => ⟨S100000x3, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S2000x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S128x128, .f32⟩
  | .local _ .vmem, ⟨14, _⟩ => ⟨S1x128, .f32⟩
  | .local _ .vmem, ⟨15, _⟩ => ⟨S128x128, .f32⟩
  | .local _ .vmem, ⟨16, _⟩ => ⟨S2000x128, .f32⟩
  | .local _ .vmem, ⟨17, _⟩ => ⟨S2000x128, .f32⟩
  | .local _ .vmem, ⟨18, _⟩ => ⟨S2000x128, .f32⟩
  | .local _ .vmem, ⟨19, _⟩ => ⟨S2000x128, .f32⟩
  | .local _ .vmem, ⟨20, _⟩ => ⟨S2000x128, .f32⟩
  | .local _ .vmem, ⟨21, _⟩ => ⟨S2000x128, .f32⟩
  | .local _ .vmem, ⟨22, _⟩ => ⟨S128x512, .f32⟩
  | .local _ .vmem, ⟨23, _⟩ => ⟨S1x512, .f32⟩
  | .local _ .vmem, ⟨24, _⟩ => ⟨S128x512, .f32⟩
  | .local _ .vmem, ⟨25, _⟩ => ⟨S2000x512, .f32⟩
  | .local _ .vmem, ⟨26, _⟩ => ⟨S2000x512, .f32⟩
  | .local _ .vmem, ⟨27, _⟩ => ⟨S2000x512, .f32⟩
  | .local _ .vmem, ⟨28, _⟩ => ⟨S2000x512, .f32⟩
  | .local _ .vmem, ⟨29, _⟩ => ⟨S512x512, .f32⟩
  | .local _ .vmem, ⟨30, _⟩ => ⟨S1x512, .f32⟩
  | .local _ .vmem, ⟨31, _⟩ => ⟨S2000x512, .f32⟩
  | .local _ .vmem, ⟨32, _⟩ => ⟨S2000x512, .f32⟩
  | .local _ .vmem, ⟨33, _⟩ => ⟨S2000x512, .f32⟩
  | .local _ .vmem, ⟨34, _⟩ => ⟨S2000x512, .f32⟩
  | .local _ .vmem, ⟨35, _⟩ => ⟨S512x3, .f32⟩
  | .local _ .vmem, ⟨36, _⟩ => ⟨S1x3, .f32⟩
  | .local _ .vmem, ⟨37, _⟩ => ⟨S2000x3, .f32⟩
  | .local _ .vmem, ⟨38, _⟩ => ⟨S2000x3, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_cst : Ref sig .tc := ⟨.hbm, 19, rfl⟩
abbrev main_v4 : Ref sig .tc := ⟨.hbm, 20, rfl⟩
abbrev main_cst_0 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_cst_1 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_c : Ref sig .tc := ⟨.hbm, 37, rfl⟩
abbrev main_v19 : Ref sig .tc := ⟨.hbm, 38, rfl⟩
abbrev main_v20 : Ref sig .tc := ⟨.hbm, 39, rfl⟩
abbrev main_c_2 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_cst_3 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_c_4 : Ref sig .tc := ⟨.hbm, 54, rfl⟩
abbrev main_v33 : Ref sig .tc := ⟨.hbm, 55, rfl⟩
abbrev main_v34 : Ref sig .tc := ⟨.hbm, 56, rfl⟩
abbrev main_c_5 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_cst_6 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_c_7 : Ref sig .tc := ⟨.hbm, 71, rfl⟩
abbrev main_v47 : Ref sig .tc := ⟨.hbm, 72, rfl⟩
abbrev main_v48 : Ref sig .tc := ⟨.hbm, 73, rfl⟩
abbrev main_c_8 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_cst_9 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg2_0 : Ref sig .tc := ⟨.vmem, 30, rfl⟩
abbrev cc3_stg3_0 : Ref sig .tc := ⟨.vmem, 31, rfl⟩
abbrev cc3_stg3_1 : Ref sig .tc := ⟨.vmem, 32, rfl⟩
abbrev cc4_stg0_0 : Ref sig .tc := ⟨.vmem, 33, rfl⟩
abbrev cc4_stg0_1 : Ref sig .tc := ⟨.vmem, 34, rfl⟩
abbrev cc4_stg1_0 : Ref sig .tc := ⟨.vmem, 35, rfl⟩
abbrev cc4_stg2_0 : Ref sig .tc := ⟨.vmem, 36, rfl⟩
abbrev cc4_stg3_0 : Ref sig .tc := ⟨.vmem, 37, rfl⟩
abbrev cc4_stg3_1 : Ref sig .tc := ⟨.vmem, 38, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26
abbrev cc3_sem0_0 : DmaSem sig := 27
abbrev cc3_sem0_1 : DmaSem sig := 28
abbrev cc3_sem1_0 : DmaSem sig := 29
abbrev cc3_sem2_0 : DmaSem sig := 30
abbrev cc3_sem3_0 : DmaSem sig := 31
abbrev cc3_sem3_1 : DmaSem sig := 32
abbrev cc4_sem0_0 : DmaSem sig := 33
abbrev cc4_sem0_1 : DmaSem sig := 34
abbrev cc4_sem1_0 : DmaSem sig := 35
abbrev cc4_sem2_0 : DmaSem sig := 36
abbrev cc4_sem3_0 : DmaSem sig := 37
abbrev cc4_sem3_1 : DmaSem sig := 38

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x512 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x512 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x512 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2000x512 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x512 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S512x512 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x512 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S2000x512 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![50], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x512 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S512x3 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x3 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S2000x3 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  transposes_S128x128_S128x128_1_0 : S128x128.Transposes [1, 0] S128x128
  transposes_S512x128_S128x512_1_0 : S512x128.Transposes [1, 0] S128x512
  transposes_S512x512_S512x512_1_0 : S512x512.Transposes [1, 0] S512x512
  transposes_S3x512_S512x3_1_0 : S3x512.Transposes [1, 0] S512x3
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  reduces_S2000x128_S2000 : S2000x128.Reduces [1] S2000
  shapeCasts_S2000_S2000x1 : S2000.ShapeCasts S2000x1
  broadcasts_S2000x1_S2000x128 : S2000x1.Broadcasts S2000x128
  shapeCasts_S512_S1x512 : S512.ShapeCasts S1x512
  inb_S128x512_S128x512_0_0 : ∀ a, (![0, 0] : Fin 2 → Nat) a + S128x512.size a ≤ S128x512.size a
  h_S128x512 : 0 < S128x512.numel
  shapeCasts_S128x512_S128x512 : S128x512.ShapeCasts S128x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2000x512 : S1x512.Broadcasts S2000x512
  reduces_S2000x512_S2000 : S2000x512.Reduces [1] S2000
  broadcasts_S2000x1_S2000x512 : S2000x1.Broadcasts S2000x512
  inb_S2000x512_S2000x512_0_0 : ∀ a, (![0, 0] : Fin 2 → Nat) a + S2000x512.size a ≤ S2000x512.size a
  h_S2000x512 : 0 < S2000x512.numel
  shapeCasts_S2000x512_S2000x512 : S2000x512.ShapeCasts S2000x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  shapeCasts_S3_S1x3 : S3.ShapeCasts S1x3
  inb_S512x3_S512x3_0_0 : ∀ a, (![0, 0] : Fin 2 → Nat) a + S512x3.size a ≤ S512x3.size a
  h_S512x3 : 0 < S512x3.numel
  shapeCasts_S512x3_S512x3 : S512x3.ShapeCasts S512x3
  inb_S1x3_S1x3_0_0 : ∀ a, (![0, 0] : Fin 2 → Nat) a + S1x3.size a ≤ S1x3.size a
  h_S1x3 : 0 < S1x3.numel
  shapeCasts_S1x3_S1x3 : S1x3.ShapeCasts S1x3
  broadcasts_S1x3_S2000x3 : S1x3.Broadcasts S2000x3
  inb_S2000x3_S2000x3_0_0 : ∀ a, (![0, 0] : Fin 2 → Nat) a + S2000x3.size a ≤ S2000x3.size a
  h_S2000x3 : 0 < S2000x3.numel
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S2000x128_S128x128_S2000x128_1_0_0_1_n_n_wf : DotDims.WF S2000x128 S128x128 S2000x128 [1] [0] [0] [1] [] []
  dot_S2000x128_S128x512_S2000x512_1_0_0_1_n_n_wf : DotDims.WF S2000x128 S128x512 S2000x512 [1] [0] [0] [1] [] []
  dot_S2000x512_S512x512_S2000x512_1_0_0_1_n_n_wf : DotDims.WF S2000x512 S512x512 S2000x512 [1] [0] [0] [1] [] []
  dot_S2000x512_S512x3_S2000x3_1_0_0_1_n_n_wf : DotDims.WF S2000x512 S512x3 S2000x3 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S100000x128.size a
  hwx0_1 : ∀ i : grid0.Coords, EltTy.bits .f32 = 32 ∨ (Rect.block (s := S100000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x128.size a ≤ S100000x128.size a
  hwx0_5 : ∀ i : grid0.Coords, EltTy.bits .f32 = 32 ∨ (Rect.block (s := S100000x128) S2000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S100000x128.size a
  hwx1_1 : ∀ i : grid1.Coords, EltTy.bits .f32 = 32 ∨ (Rect.block (s := S100000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x128.size a ≤ S100000x128.size a
  hwx1_5 : ∀ i : grid1.Coords, EltTy.bits .f32 = 32 ∨ (Rect.block (s := S100000x128) S2000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S100000x128.size a
  hwx2_0 : ∀ i : grid2.Coords, EltTy.bits .f32 = 32 ∨ (Rect.block (s := S100000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S100000x128.size a
  hwx2_1 : ∀ i : grid2.Coords, EltTy.bits .f32 = 32 ∨ (Rect.block (s := S100000x128) S2000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x512.size a ≤ S128x512.size a
  hwx2_2 : ∀ i : grid2.Coords, EltTy.bits .f32 = 32 ∨ (Rect.block (s := S128x512) S128x512.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x512.size a ≤ S1x512.size a
  hwx2_3 : ∀ i : grid2.Coords, EltTy.bits .f32 = 32 ∨ (Rect.block (s := S1x512) S1x512.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x512.size a ≤ S128x512.size a
  hwx2_4 : ∀ i : grid2.Coords, EltTy.bits .f32 = 32 ∨ (Rect.block (s := S128x512) S128x512.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x512.size a ≤ S100000x512.size a
  hwx2_5 : ∀ i : grid2.Coords, EltTy.bits .f32 = 32 ∨ (Rect.block (s := S100000x512) S2000x512.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x512.size a ≤ S100000x512.size a
  hwx3_0 : ∀ i : grid3.Coords, EltTy.bits .f32 = 32 ∨ (Rect.block (s := S100000x512) S2000x512.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S512x512.size a ≤ S512x512.size a
  hwx3_1 : ∀ i : grid3.Coords, EltTy.bits .f32 = 32 ∨ (Rect.block (s := S512x512) S512x512.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x512.size a ≤ S1x512.size a
  hwx3_2 : ∀ i : grid3.Coords, EltTy.bits .f32 = 32 ∨ (Rect.block (s := S1x512) S1x512.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2000x512.size a ≤ S100000x512.size a
  hwx3_3 : ∀ i : grid3.Coords, EltTy.bits .f32 = 32 ∨ (Rect.block (s := S100000x512) S2000x512.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x512.size a ≤ S100000x512.size a
  hwx4_0 : ∀ i : grid4.Coords, EltTy.bits .f32 = 32 ∨ (Rect.block (s := S100000x512) S2000x512.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S512x3.size a ≤ S512x3.size a
  hwx4_1 : ∀ i : grid4.Coords, EltTy.bits .f32 = 32 ∨ (Rect.block (s := S512x3) S512x3.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x3.size a ≤ S1x3.size a
  hwx4_2 : ∀ i : grid4.Coords, EltTy.bits .f32 = 32 ∨ (Rect.block (s := S1x3) S1x3.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S2000x3.size a ≤ S100000x3.size a
  hwx4_3 : ∀ i : grid4.Coords, EltTy.bits .f32 = 32 ∨ (Rect.block (s := S100000x3) S2000x3.size (cc4_transform_3 i) (hinb4_3 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x128_S128x512_S2000x512_1_0_0_1_n_n : DotDims S2000x128 S128x512 S2000x512 where
  lhsContracting := [1]
  rhsContracting := [0]
  lhsNonContracting := [0]
  rhsNonContracting := [1]
  lhsBatch := []
  rhsBatch := []
  wf := dot_S2000x128_S128x512_S2000x512_1_0_0_1_n_n_wf
def dot_S2000x512_S512x512_S2000x512_1_0_0_1_n_n : DotDims S2000x512 S512x512 S2000x512 where
  lhsContracting := [1]
  rhsContracting := [0]
  lhsNonContracting := [0]
  rhsNonContracting := [1]
  lhsBatch := []
  rhsBatch := []
  wf := dot_S2000x512_S512x512_S2000x512_1_0_0_1_n_n_wf
def dot_S2000x512_S512x3_S2000x3_1_0_0_1_n_n : DotDims S2000x512 S512x3 S2000x3 where
  lhsContracting := [1]
  rhsContracting := [0]
  lhsNonContracting := [0]
  rhsNonContracting := [1]
  lhsBatch := []
  rhsBatch := []
  wf := dot_S2000x512_S512x3_S2000x3_1_0_0_1_n_n_wf

abbrev win0_0 : Pipeline.Window sig grid0 :=
  Pipeline.Window.ofSpec (Memref.whole main_v30) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v11) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v31) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v12) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v32) S2000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v44) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v32) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v13) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v45) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v14) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v46) S2000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v58) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v46) S2000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v15) S128x512.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v59) S1x512.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v16) S128x512.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v60) S2000x512.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v60) S2000x512.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v17) S512x512.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v61) S1x512.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v62) S2000x512.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v62) S2000x512.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v18) S512x3.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v63) S1x3.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v64) S2000x3.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S512x128 : Shape := ⟨2, ![512, 128]⟩
abbrev S512 : Shape := ⟨1, ![512]⟩
abbrev S512x512 : Shape := ⟨2, ![512, 512]⟩
abbrev S3x512 : Shape := ⟨2, ![3, 512]⟩
abbrev S3 : Shape := ⟨1, ![3]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S1x128 : Shape := ⟨2, ![1, 128]⟩
abbrev S128x512 : Shape := ⟨2, ![128, 512]⟩
abbrev S100000x512 : Shape := ⟨2, ![100000, 512]⟩
abbrev S1x512 : Shape := ⟨2, ![1, 512]⟩
abbrev S512x3 : Shape := ⟨2, ![512, 3]⟩
abbrev S100000x3 : Shape := ⟨2, ![100000, 3]⟩
abbrev S1x3 : Shape := ⟨2, ![1, 3]⟩

abbrev nBuf : Space → Nat
  | .hbm => 170
  | .vmem => 0
  | .smem => 0
  | _ => 0

abbrev hbmTy0_0 (i : Nat) : BufTy := match i % 128 with
  | 0 => ⟨S100000x128, .f32⟩
  | 1 => ⟨S2x1600000, .i32⟩
  | 2 => ⟨S128x128, .f32⟩
  | 3 => ⟨S128, .f32⟩
  | 4 => ⟨S128x128, .f32⟩
  | 5 => ⟨S128x128, .f32⟩
  | 6 => ⟨S128, .f32⟩
  | 7 => ⟨S128x128, .f32⟩
  | 8 => ⟨S512x128, .f32⟩
  | 9 => ⟨S512, .f32⟩
  | 10 => ⟨S512x128, .f32⟩
  | 11 => ⟨S512x512, .f32⟩
  | 12 => ⟨S512, .f32⟩
  | 13 => ⟨S3x512, .f32⟩
  | 14 => ⟨S3, .f32⟩
  | 15 => ⟨S1x1600000, .i32⟩
  | 16 => ⟨S1600000, .i32⟩
  | 17 => ⟨S1x1600000, .i32⟩
  | 18 => ⟨S1600000, .i32⟩
  | 19 => ⟨S_, .i32⟩
  | 20 => ⟨S1600000, .i32⟩
  | 21 => ⟨S1600000, .i1⟩
  | 22 => ⟨S_, .i32⟩
  | 23 => ⟨S1600000, .i32⟩
  | 24 => ⟨S1600000, .i32⟩
  | 25 => ⟨S1600000, .i32⟩
  | 26 => ⟨S1600000x1, .i32⟩
  | 27 => ⟨S1600000x128, .f32⟩
  | 28 => ⟨S_, .f32⟩
  | 29 => ⟨S100000x128, .f32⟩
  | 30 => ⟨S1600000x1, .i32⟩
  | 31 => ⟨S100000x128, .f32⟩
  | 32 => ⟨S_, .f32⟩
  | 33 => ⟨S1600000, .f32⟩
  | 34 => ⟨S_, .f32⟩
  | 35 => ⟨S100000, .f32⟩
  | 36 => ⟨S1600000x1, .i32⟩
  | 37 => ⟨S100000, .f32⟩
  | 38 => ⟨S_, .f32⟩
  | 39 => ⟨S100000, .f32⟩
  | 40 => ⟨S100000, .f32⟩
  | 41 => ⟨S100000x1, .f32⟩
  | 42 => ⟨S100000x128, .f32⟩
  | 43 => ⟨S100000x128, .f32⟩
  | 44 => ⟨S128x128, .f32⟩
  | 45 => ⟨S100000x128, .f32⟩
  | 46 => ⟨S1x128, .f32⟩
  | 47 => ⟨S100000x128, .f32⟩
  | 48 => ⟨S100000x128, .f32⟩
  | 49 => ⟨S128x128, .f32⟩
  | 50 => ⟨S100000x128, .f32⟩
  | 51 => ⟨S100000x128, .f32⟩
  | 52 => ⟨S100000x128, .f32⟩
  | 53 => ⟨S_, .f32⟩
  | 54 => ⟨S100000, .f32⟩
  | 55 => ⟨S100000x1, .f32⟩
  | 56 => ⟨S100000x1, .f32⟩
  | 57 => ⟨S_, .f32⟩
  | 58 => ⟨S100000x1, .f32⟩
  | 59 => ⟨S100000x1, .f32⟩
  | 60 => ⟨S100000x128, .f32⟩
  | 61 => ⟨S100000x128, .f32⟩
  | 62 => ⟨S_, .f32⟩
  | 63 => ⟨S100000x128, .f32⟩
  | 64 => ⟨S100000x128, .f32⟩
  | 65 => ⟨S_, .i32⟩
  | 66 => ⟨S1600000, .i32⟩
  | 67 => ⟨S1600000, .i1⟩
  | 68 => ⟨S_, .i32⟩
  | 69 => ⟨S1600000, .i32⟩
  | 70 => ⟨S1600000, .i32⟩
  | 71 => ⟨S1600000, .i32⟩
  | 72 => ⟨S1600000x1, .i32⟩
  | 73 => ⟨S1600000x128, .f32⟩
  | 74 => ⟨S_, .f32⟩
  | 75 => ⟨S100000x128, .f32⟩
  | 76 => ⟨S1600000x1, .i32⟩
  | 77 => ⟨S100000x128, .f32⟩
  | 78 => ⟨S_, .f32⟩
  | 79 => ⟨S1600000, .f32⟩
  | 80 => ⟨S_, .f32⟩
  | 81 => ⟨S100000, .f32⟩
  | 82 => ⟨S1600000x1, .i32⟩
  | 83 => ⟨S100000, .f32⟩
  | 84 => ⟨S_, .f32⟩
  | 85 => ⟨S100000, .f32⟩
  | 86 => ⟨S100000, .f32⟩
  | 87 => ⟨S100000x1, .f32⟩
  | 88 => ⟨S100000x128, .f32⟩
  | 89 => ⟨S100000x128, .f32⟩
  | 90 => ⟨S128x128, .f32⟩
  | 91 => ⟨S100000x128, .f32⟩
  | 92 => ⟨S1x128, .f32⟩
  | 93 => ⟨S100000x128, .f32⟩
  | 94 => ⟨S100000x128, .f32⟩
  | 95 => ⟨S128x128, .f32⟩
  | 96 => ⟨S100000x128, .f32⟩
  | 97 => ⟨S100000x128, .f32⟩
  | 98 => ⟨S100000x128, .f32⟩
  | 99 => ⟨S_, .f32⟩
  | 100 => ⟨S100000, .f32⟩
  | 101 => ⟨S100000x1, .f32⟩
  | 102 => ⟨S100000x1, .f32⟩
  | 103 => ⟨S_, .f32⟩
  | 104 => ⟨S100000x1, .f32⟩
  | 105 => ⟨S100000x1, .f32⟩
  | 106 => ⟨S100000x128, .f32⟩
  | 107 => ⟨S100000x128, .f32⟩
  | 108 => ⟨S_, .f32⟩
  | 109 => ⟨S100000x128, .f32⟩
  | 110 => ⟨S100000x128, .f32⟩
  | 111 => ⟨S_, .i32⟩
  | 112 => ⟨S1600000, .i32⟩
  | 113 => ⟨S1600000, .i1⟩
  | 114 => ⟨S_, .i32⟩
  | 115 => ⟨S1600000, .i32⟩
  | 116 => ⟨S1600000, .i32⟩
  | 117 => ⟨S1600000, .i32⟩
  | 118 => ⟨S1600000x1, .i32⟩
  | 119 => ⟨S1600000x128, .f32⟩
  | 120 => ⟨S_, .f32⟩
  | 121 => ⟨S100000x128, .f32⟩
  | 122 => ⟨S1600000x1, .i32⟩
  | 123 => ⟨S100000x128, .f32⟩
  | 124 => ⟨S_, .f32⟩
  | 125 => ⟨S1600000, .f32⟩
  | 126 => ⟨S_, .f32⟩
  | 127 => ⟨S100000, .f32⟩
  | _ => ⟨S100000x128, .f32⟩

abbrev hbmTy0_1 (i : Nat) : BufTy := match i % 128 with
  | 0 => ⟨S1600000x1, .i32⟩
  | 1 => ⟨S100000, .f32⟩
  | 2 => ⟨S_, .f32⟩
  | 3 => ⟨S100000, .f32⟩
  | 4 => ⟨S100000, .f32⟩
  | 5 => ⟨S100000x1, .f32⟩
  | 6 => ⟨S100000x128, .f32⟩
  | 7 => ⟨S100000x128, .f32⟩
  | 8 => ⟨S128x512, .f32⟩
  | 9 => ⟨S100000x512, .f32⟩
  | 10 => ⟨S1x512, .f32⟩
  | 11 => ⟨S100000x512, .f32⟩
  | 12 => ⟨S100000x512, .f32⟩
  | 13 => ⟨S128x512, .f32⟩
  | 14 => ⟨S100000x512, .f32⟩
  | 15 => ⟨S100000x512, .f32⟩
  | 16 => ⟨S100000x512, .f32⟩
  | 17 => ⟨S_, .f32⟩
  | 18 => ⟨S100000, .f32⟩
  | 19 => ⟨S100000x1, .f32⟩
  | 20 => ⟨S100000x1, .f32⟩
  | 21 => ⟨S_, .f32⟩
  | 22 => ⟨S100000x1, .f32⟩
  | 23 => ⟨S100000x1, .f32⟩
  | 24 => ⟨S100000x512, .f32⟩
  | 25 => ⟨S100000x512, .f32⟩
  | 26 => ⟨S_, .f32⟩
  | 27 => ⟨S100000x512, .f32⟩
  | 28 => ⟨S100000x512, .f32⟩
  | 29 => ⟨S512x512, .f32⟩
  | 30 => ⟨S100000x512, .f32⟩
  | 31 => ⟨S1x512, .f32⟩
  | 32 => ⟨S100000x512, .f32⟩
  | 33 => ⟨S100000x512, .f32⟩
  | 34 => ⟨S_, .f32⟩
  | 35 => ⟨S100000x512, .f32⟩
  | 36 => ⟨S100000x512, .f32⟩
  | 37 => ⟨S512x3, .f32⟩
  | 38 => ⟨S100000x3, .f32⟩
  | 39 => ⟨S1x3, .f32⟩
  | 40 => ⟨S100000x3, .f32⟩
  | 41 => ⟨S100000x3, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_c : Ref sig .tc := ⟨.hbm, 19, rfl⟩
abbrev main_v4 : Ref sig .tc := ⟨.hbm, 20, rfl⟩
abbrev main_v5 : Ref sig .tc := ⟨.hbm, 21, rfl⟩
abbrev main_c_0 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_cst : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_cst_1 : Ref sig .tc := ⟨.hbm, 32, rfl⟩
abbrev main_v14 : Ref sig .tc := ⟨.hbm, 33, rfl⟩
abbrev main_cst_2 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_cst_3 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_cst_4 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_cst_5 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_call0_cst : Ref sig .tc := ⟨.hbm, 62, rfl⟩
abbrev main_call0_v0 : Ref sig .tc := ⟨.hbm, 63, rfl⟩
abbrev main_v39 : Ref sig .tc := ⟨.hbm, 64, rfl⟩
abbrev main_c_6 : Ref sig .tc := ⟨.hbm, 65, rfl⟩
abbrev main_v40 : Ref sig .tc := ⟨.hbm, 66, rfl⟩
abbrev main_v41 : Ref sig .tc := ⟨.hbm, 67, rfl⟩
abbrev main_c_7 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_cst_8 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_cst_9 : Ref sig .tc := ⟨.hbm, 78, rfl⟩
abbrev main_v50 : Ref sig .tc := ⟨.hbm, 79, rfl⟩
abbrev main_cst_10 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_cst_11 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_cst_12 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_cst_13 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_call1_cst : Ref sig .tc := ⟨.hbm, 108, rfl⟩
abbrev main_call1_v0 : Ref sig .tc := ⟨.hbm, 109, rfl⟩
abbrev main_v75 : Ref sig .tc := ⟨.hbm, 110, rfl⟩
abbrev main_c_14 : Ref sig .tc := ⟨.hbm, 111, rfl⟩
abbrev main_v76 : Ref sig .tc := ⟨.hbm, 112, rfl⟩
abbrev main_v77 : Ref sig .tc := ⟨.hbm, 113, rfl⟩
abbrev main_c_15 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_cst_16 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_cst_17 : Ref sig .tc := ⟨.hbm, 124, rfl⟩
abbrev main_v86 : Ref sig .tc := ⟨.hbm, 125, rfl⟩
abbrev main_cst_18 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_cst_19 : Ref sig .tc := ⟨.hbm, 130, rfl⟩
abbrev main_v90 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_v102 : Ref sig .tc := ⟨.hbm, 143, rfl⟩
abbrev main_v103 : Ref sig .tc := ⟨.hbm, 144, rfl⟩
abbrev main_cst_20 : Ref sig .tc := ⟨.hbm, 145, rfl⟩
abbrev main_v104 : Ref sig .tc := ⟨.hbm, 146, rfl⟩
abbrev main_v105 : Ref sig .tc := ⟨.hbm, 147, rfl⟩
abbrev main_v106 : Ref sig .tc := ⟨.hbm, 148, rfl⟩
abbrev main_cst_21 : Ref sig .tc := ⟨.hbm, 149, rfl⟩
abbrev main_v107 : Ref sig .tc := ⟨.hbm, 150, rfl⟩
abbrev main_v108 : Ref sig .tc := ⟨.hbm, 151, rfl⟩
abbrev main_v109 : Ref sig .tc := ⟨.hbm, 152, rfl⟩
abbrev main_v110 : Ref sig .tc := ⟨.hbm, 153, rfl⟩
abbrev main_call2_cst : Ref sig .tc := ⟨.hbm, 154, rfl⟩
abbrev main_call2_v0 : Ref sig .tc := ⟨.hbm, 155, rfl⟩
abbrev main_v111 : Ref sig .tc := ⟨.hbm, 156, rfl⟩
abbrev main_v112 : Ref sig .tc := ⟨.hbm, 157, rfl⟩
abbrev main_v113 : Ref sig .tc := ⟨.hbm, 158, rfl⟩
abbrev main_v114 : Ref sig .tc := ⟨.hbm, 159, rfl⟩
abbrev main_v115 : Ref sig .tc := ⟨.hbm, 160, rfl⟩
abbrev main_v116 : Ref sig .tc := ⟨.hbm, 161, rfl⟩
abbrev main_call3_cst : Ref sig .tc := ⟨.hbm, 162, rfl⟩
abbrev main_call3_v0 : Ref sig .tc := ⟨.hbm, 163, rfl⟩
abbrev main_v117 : Ref sig .tc := ⟨.hbm, 164, rfl⟩
abbrev main_v118 : Ref sig .tc := ⟨.hbm, 165, rfl⟩
abbrev main_v119 : Ref sig .tc := ⟨.hbm, 166, rfl⟩
abbrev main_v120 : Ref sig .tc := ⟨.hbm, 167, rfl⟩
abbrev main_v121 : Ref sig .tc := ⟨.hbm, 168, rfl⟩
abbrev main_v122 : Ref sig .tc := ⟨.hbm, 169, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S100000_d1 : S100000x128.ReducesTo [1] S100000
  h_S_ : 0 < S_.numel
  bcast_S_S100000x1 : S_.BroadcastsInDim S100000x1 (![] : Fin 0 → Fin S100000x1.rank)
  transposes_S512x128_S128x512_1_0 : S512x128.Transposes [1, 0] S128x512
  bcast_S512_S1x512_1 : S512.BroadcastsInDim S1x512 (![1] : Fin 1 → Fin S1x512.rank)
  bcast_S1x512_S100000x512_0_1 : S1x512.BroadcastsInDim S100000x512 (![0, 1] : Fin 2 → Fin S100000x512.rank)
  reducesTo_S100000x512_S100000_d1 : S100000x512.ReducesTo [1] S100000
  bcast_S100000x1_S100000x512_0_1 : S100000x1.BroadcastsInDim S100000x512 (![0, 1] : Fin 2 → Fin S100000x512.rank)
  bcast_S_S100000x512 : S_.BroadcastsInDim S100000x512 (![] : Fin 0 → Fin S100000x512.rank)
  transposes_S512x512_S512x512_1_0 : S512x512.Transposes [1, 0] S512x512
  transposes_S3x512_S512x3_1_0 : S3x512.Transposes [1, 0] S512x3
  bcast_S3_S1x3_1 : S3.BroadcastsInDim S1x3 (![1] : Fin 1 → Fin S1x3.rank)
  bcast_S1x3_S100000x3_0_1 : S1x3.BroadcastsInDim S100000x3 (![0, 1] : Fin 2 → Fin S100000x3.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []
  dot_S100000x128_S128x512_S100000x512_1_0_0_1_n_n_wf : DotDims.WF S100000x128 S128x512 S100000x512 [1] [0] [0] [1] [] []
  dot_S100000x512_S512x512_S100000x512_1_0_0_1_n_n_wf : DotDims.WF S100000x512 S512x512 S100000x512 [1] [0] [0] [1] [] []
  dot_S100000x512_S512x3_S100000x3_1_0_0_1_n_n_wf : DotDims.WF S100000x512 S512x3 S100000x3 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x512_S100000x512_1_0_0_1_n_n : DotDims S100000x128 S128x512 S100000x512 where
  lhsContracting := [1]
  rhsContracting := [0]
  lhsNonContracting := [0]
  rhsNonContracting := [1]
  lhsBatch := []
  rhsBatch := []
  wf := dot_S100000x128_S128x512_S100000x512_1_0_0_1_n_n_wf
def dot_S100000x512_S512x512_S100000x512_1_0_0_1_n_n : DotDims S100000x512 S512x512 S100000x512 where
  lhsContracting := [1]
  rhsContracting := [0]
  lhsNonContracting := [0]
  rhsNonContracting := [1]
  lhsBatch := []
  rhsBatch := []
  wf := dot_S100000x512_S512x512_S100000x512_1_0_0_1_n_n_wf
def dot_S100000x512_S512x3_S100000x3_1_0_0_1_n_n : DotDims S100000x512 S512x3 S100000x3 where
  lhsContracting := [1]
  rhsContracting := [0]
  lhsNonContracting := [0]
  rhsNonContracting := [1]
  lhsBatch := []
  rhsBatch := []
  wf := dot_S100000x512_S512x3_S100000x3_1_0_0_1_n_n_wf

class Facts : Prop extends Facts₀ where

variable [Facts]
-- ==== Proof.KernelRun.lean ====
/-
  The idealized kernel program's run with its result named.

  The program is five grid launches among five stretches of host operations. Its buffers' contents at the ten
  boundaries are a fold from the launch memory (`W0 … W10` of the generated frame module): a stretch applies its
  operations, a launch replaces its output array by what its grid points wrote back and keeps every other buffer.
  Every weakly fair execution terminates with every buffer that outlives a launch at the last boundary's contents;
  the generated frame keeps of this only that the arguments are unchanged, and here the same run is re-posted with
  the result buffer kept as well: it ends holding `W10` at that buffer.
-/
import proofs.«102160_j85564338471312_1_alg».proof.Proof.Gen.KernelIdeal.Frame

set_option maxRecDepth 16384

noncomputable section

namespace Cert.KernelIdeal.ValueRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result buffer at the last
    boundary's contents and the argument arrays as launched. -/
theorem run : θ_run defs (onTc (τ := τ) (main (F := F))) ⟨m, fun _ => 0, ρ⟩ (fun r => ∀ c : Dev nD,
      r.2.mem ((c.tc : Thread nD τ).loc main_v64) = W10 m ρ c (Proc.devRef .tc main_v64)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v64 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c),
       (h c _ (mem_uc main_arg8 (by decide))).trans (W10_main_arg8 m ρ c),
       (h c _ (mem_uc main_arg9 (by decide))).trans (W10_main_arg9 m ρ c),
       (h c _ (mem_uc main_arg10 (by decide))).trans (W10_main_arg10 m ρ c),
       (h c _ (mem_uc main_arg11 (by decide))).trans (W10_main_arg11 m ρ c),
       (h c _ (mem_uc main_arg12 (by decide))).trans (W10_main_arg12 m ρ c),
       (h c _ (mem_uc main_arg13 (by decide))).trans (W10_main_arg13 m ρ c),
       (h c _ (mem_uc main_arg14 (by decide))).trans (W10_main_arg14 m ρ c)⟩)

end Cert.KernelIdeal.ValueRun

end
-- ==== Proof.LibRowsTimes.lean ====
/-
  The product of two arrays, entry by entry, on the extended reals — general in the extents M, K, N.

  For `a` of shape [M, K] and `w` of shape [K, N] the product `rowsTimes a w` has, at (r, j), the sum over `k` of
  `a (r, k) · w (k, j)`. Three facts:

  * `rowsTimes_of_rows` — rows of a product are products of rows: if a block `a'` of shape [R, K] holds, at its row
    `j 0`, what `a` holds at row `i 0` (and `w'` at column `j 1` what `w` holds at column `i 1`), then `a' · w'`
    at `j` is `a · w` at `i`. This is why a product computed one block of rows at a time is the whole product.
  * `contraction_eq` — a contraction over ONE axis of extent K (how a matrix unit's product into a zero
    accumulator, and the host's `dot_general`, read on the extended reals: a sum over the contraction index of
    left-operand × right-operand entries) is `rowsTimes`, once the contraction index is renamed by its one
    coordinate and the two operand indices are shown to be (row, k) and (k, column).
  * `relu` — the maximum with zero, entry by entry, the zero spelt as the f32 word 0x00000000.

  No finiteness is needed anywhere: both sides of every equation are the same sum of the same products in the
  same order.
-/
import Idealize.ShloMosaic.PureOps.Ideal.Laws
import Idealize.ShloMosaic.Lib.ValueIdx

noncomputable section

namespace Cert.Dense

open Idealize.ShloMosaic Idealize.ShloMosaic.ValueIdx

/-- `(a · w) (r, j) = ∑ k, a (r, k) · w (k, j)`. -/
def rowsTimes {M K N : Nat} (a : (⟨2, ![M, K]⟩ : Shape).Idx → EReal) (w : (⟨2, ![K, N]⟩ : Shape).Idx → EReal) :
    (⟨2, ![M, N]⟩ : Shape).Idx → EReal :=
  fun i => ∑ k : Fin K, a (ix2 (i 0 : Fin M) k) * w (ix2 k (i 1 : Fin N))

/-- The rectifier `x ↦ max x 0`, entry by entry (the zero spelt as the f32 word both programs print it as: the
    same word on both sides, never evaluated). -/
def relu {S : Shape} (x : S.Idx → EReal) : S.Idx → EReal :=
  fun i => max (x i) (Ideal.ofBits .f32 0x00000000#32)

/-- Rows of a product are the products of rows: where `a'` at row `j 0` is `a` at row `i 0`, and `w'` at column
    `j 1` is `w` at column `i 1`, the two products agree at `j` and `i`. -/
theorem rowsTimes_of_rows {M R K N N' : Nat} (a : (⟨2, ![M, K]⟩ : Shape).Idx → EReal) (w : (⟨2, ![K, N]⟩ : Shape).Idx → EReal)
    (a' : (⟨2, ![R, K]⟩ : Shape).Idx → EReal) (w' : (⟨2, ![K, N']⟩ : Shape).Idx → EReal)
    (j : (⟨2, ![R, N']⟩ : Shape).Idx) (i : (⟨2, ![M, N]⟩ : Shape).Idx)
    (ha : ∀ k : Fin K, a' (ix2 (j 0 : Fin R) k) = a (ix2 (i 0 : Fin M) k))
    (hw : ∀ k : Fin K, w' (ix2 k (j 1 : Fin N')) = w (ix2 k (i 1 : Fin N))) :
    rowsTimes a' w' j = rowsTimes a w i :=
  Finset.sum_congr rfl fun k _ => by rw [ha k, hw k]

/-- A contraction over one axis of extent `K` whose left index at (i, q) is (i 0, q) and whose right index is
    (q, i 1) is the product above: the contraction index renamed by its one coordinate. -/
theorem contraction_eq {M K N : Nat} {sl sr so : Shape} (d : DotDims sl sr so) (hr : d.contr.rank = 1)
    (hs : d.contr.size ⟨0, by omega⟩ = K)
    (a : (⟨2, ![M, K]⟩ : Shape).Idx → EReal) (w : (⟨2, ![K, N]⟩ : Shape).Idx → EReal)
    (l : sl.Idx → EReal) (r : sr.Idx → EReal) (i : so.Idx) (i' : (⟨2, ![M, N]⟩ : Shape).Idx)
    (hl : ∀ k : Fin K, l (d.lhsIdx i ((contrEquiv1 d K hr hs).symm k)) = a (ix2 (i' 0 : Fin M) k))
    (hw : ∀ k : Fin K, r (d.rhsIdx i ((contrEquiv1 d K hr hs).symm k)) = w (ix2 k (i' 1 : Fin N))) :
    ∑ q : d.contr.Idx, l (d.lhsIdx i q) * r (d.rhsIdx i q) = rowsTimes a w i' := by
  rw [← Equiv.sum_comp (contrEquiv1 d K hr hs).symm]
  exact Finset.sum_congr rfl fun k _ => by rw [hl k, hw k]

end Cert.Dense

end
-- ==== Proof.LibRowsCols.lean ====
/-
  A contraction of a [R, K] array with a [K, N] array over their one shared axis, read at an entry.

  Both the matrix unit's product into a zero accumulator (the kernel's `tpu.matmul`) and the host's
  `dot_general` are, on the extended reals, the sum over the contraction index of left entry × right entry.
  When the record's left operand index at output (r, j) and contraction position k is (r, k), and the right one
  is (k, j), that sum is `rowsTimes a w (r, j) = ∑ k, a (r, k) · w (k, j)`. A change of float format is the
  identity on the extended reals, so the kernel's casts of its operands to bf16 do not appear.

  Only commutative-monoid facts about the sum are used: nothing here needs the entries to be finite.
-/
import Idealize.ShloMosaic.PureOps.Ideal.Laws
import Idealize.ShloMosaic.Lib.ValueIdx
import proofs.«102160_j85564338471312_1_alg».proof.Proof.LibRowsTimes

noncomputable section

namespace Cert.Dense

open Idealize.ShloMosaic Idealize.ShloMosaic.ValueIdx

variable {R K N : Nat} (d : DotDims ⟨2, ![R, K]⟩ ⟨2, ![K, N]⟩ ⟨2, ![R, N]⟩)

/-- The record contracts ONE axis, of extent `K`, and its operand indices at output index `j` and contraction
    position `k` are (j 0, k) on the left and (k, j 1) on the right: "rows times columns". -/
structure RowsCols : Prop where
  rank : d.contr.rank = 1
  size : d.contr.size ⟨0, by omega⟩ = K
  l0 : ∀ (j : (⟨2, ![R, N]⟩ : Shape).Idx) (k : d.contr.Idx), (d.lhsIdx j k 0).val = (j 0).val
  l1 : ∀ (j : (⟨2, ![R, N]⟩ : Shape).Idx) (k : d.contr.Idx), (d.lhsIdx j k 1).val = (k ⟨0, by omega⟩).val
  r0 : ∀ (j : (⟨2, ![R, N]⟩ : Shape).Idx) (k : d.contr.Idx), (d.rhsIdx j k 0).val = (k ⟨0, by omega⟩).val
  r1 : ∀ (j : (⟨2, ![R, N]⟩ : Shape).Idx) (k : d.contr.Idx), (d.rhsIdx j k 1).val = (j 1).val

variable {d}

/-- The left operand index, with the contraction position named by its one coordinate `k`, is (j 0, k). -/
theorem RowsCols.lhs (h : RowsCols d) (j : (⟨2, ![R, N]⟩ : Shape).Idx) (k : Fin K) :
    d.lhsIdx j ((contrEquiv1 d K h.rank h.size).symm k) = ix2 (j 0 : Fin R) k := by
  funext x; apply Fin.ext
  match x with
  | ⟨0, _⟩ => exact h.l0 j _
  | ⟨1, _⟩ => exact (h.l1 j _).trans (contrEquiv1_symm_val d K h.rank h.size k)

/-- The right operand index, likewise, is (k, j 1). -/
theorem RowsCols.rhs (h : RowsCols d) (j : (⟨2, ![R, N]⟩ : Shape).Idx) (k : Fin K) :
    d.rhsIdx j ((contrEquiv1 d K h.rank h.size).symm k) = ix2 k (j 1 : Fin N) := by
  funext x; apply Fin.ext
  match x with
  | ⟨0, _⟩ => exact (h.r0 j _).trans (contrEquiv1_symm_val d K h.rank h.size k)
  | ⟨1, _⟩ => exact h.r1 j _

/-- The matrix unit's product of `a` and `w` into the zero accumulator, at (r, j), is `∑ k, a (r, k) · w (k, j)`;
    the operands' float formats are whatever they are (a format is not seen on the extended reals). -/
theorem matmul_zero_apply (h : RowsCols d) (prec : Option ContractPrecision) {φ₁ φ₂ : FTy}
    (a : FVec Ideal ⟨2, ![R, K]⟩ φ₁) (w : FVec Ideal ⟨2, ![K, N]⟩ φ₂) (j : (⟨2, ![R, N]⟩ : Shape).Idx) :
    FloatOps.matmul d prec a w (constant (F := Ideal) ⟨2, ![R, N]⟩ .f32 0x00000000#32) j = rowsTimes a w j := by
  rw [Ideal.matmul_constant_zero_apply]
  exact contraction_eq d h.rank h.size a w a w j j (fun k => congrArg a (h.lhs j k)) (fun k => congrArg w (h.rhs j k))

/-- The host's `dot_general` of `a` and `w`, at (r, j), is the same sum. -/
theorem dotGeneral_apply (h : RowsCols d) (prec : Option ContractPrecision) {φ₁ φ₂ : FTy}
    (a : FVec Ideal ⟨2, ![R, K]⟩ φ₁) (w : FVec Ideal ⟨2, ![K, N]⟩ φ₂) (j : (⟨2, ![R, N]⟩ : Shape).Idx) :
    Host.dotGeneral d prec a w j = rowsTimes a w j := by
  show FloatOps.dotGeneral d prec .single a w j = _
  rw [Ideal.dotGeneral_apply]
  exact contraction_eq d h.rank h.size a w a w j j (fun k => congrArg a (h.lhs j k)) (fun k => congrArg w (h.rhs j k))

/-- So the host's `dot_general` of two whole arrays IS their product, as one function. -/
theorem dotGeneral_eq (h : RowsCols d) (prec : Option ContractPrecision) {φ₁ φ₂ : FTy}
    (a : FVec Ideal ⟨2, ![R, K]⟩ φ₁) (w : FVec Ideal ⟨2, ![K, N]⟩ φ₂) :
    Host.dotGeneral d prec a w = rowsTimes a w := funext (dotGeneral_apply h prec a w)

end Cert.Dense

end
-- ==== Proof.LibColumnLayout.lean ====
/-
  A vector kept as a one-column matrix, and that column repeated along the rows' other axis.

  The library reads a leading unit axis added to a vector ([a] as [1, a]) and one row broadcast down many
  ([1, b] to [a, b]). A reduction along the last axis that keeps its dimension produces the other arrangement:
  the [a] results become the single column of an [a, 1] matrix, and that column is then repeated b times to [a, b].
  Both read the vector at the row's coordinate.
-/
import Idealize.ShloMosaic.Lib.Pipeline.Value
import Idealize.ShloMosaic.Lib.ValueIdx
import Idealize.ShloMosaic.Lib.ValueLayout

namespace Idealize.ShloMosaic.ColumnLayout

open Idealize.ShloMosaic Idealize.ShloMosaic.ValueIdx

variable {α : Type}

/-- An `[a]` vector cast to the one column of an `[a, 1]` matrix reads, at `(i, u)`, the vector at `i`,
    whatever the unit coordinate `u`: the row-major position of `(i, u)` in `[a, 1]` is `i * 1 + 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` matrix broadcast to `[a, b]` reads, at `(p, c)`, its one column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The two together: a vector kept as a column and repeated along the rows reads the vector at the row. -/
theorem column_broadcast_apply {a b : ℕ} (x : (⟨1, ![a]⟩ : Shape).Idx → α) (h₁ : (⟨1, ![a]⟩ : Shape).ShapeCasts ⟨2, ![a, 1]⟩)
    (h₂ : (⟨2, ![a, 1]⟩ : Shape).Broadcasts ⟨2, ![a, b]⟩) (p : Fin a) (c : Fin b) :
    broadcastTo ⟨2, ![a, b]⟩ (shapeCast ⟨2, ![a, 1]⟩ x h₁) h₂ (ix2 p c) = x (ix1 p) :=
  (broadcastTo_a1_ab_apply _ h₂ p c).trans (shapeCast_a_a1_apply x h₁ p 0)

/-- The row counterpart from the library's two lemmas: a vector given a leading unit axis and broadcast down the rows
    reads the vector at the column. -/
theorem row_broadcast_apply {a b : ℕ} (x : (⟨1, ![b]⟩ : Shape).Idx → α) (h₁ : (⟨1, ![b]⟩ : Shape).ShapeCasts ⟨2, ![1, b]⟩)
    (h₂ : (⟨2, ![1, b]⟩ : Shape).Broadcasts ⟨2, ![a, b]⟩) (p : Fin a) (c : Fin b) :
    broadcastTo ⟨2, ![a, b]⟩ (shapeCast ⟨2, ![1, b]⟩ x h₁) h₂ (ix2 p c) = x (ix1 c) :=
  (broadcastTo_1b_ab_apply _ h₂ p c).trans (shapeCast_a_1a_apply x h₁ 0 c)

end Idealize.ShloMosaic.ColumnLayout
-- ==== Proof.LibRowLayers.lean ====
/-
  The layers of a small perceptron applied to a block of `R` rows at once, read at one row `p`.

  Each lemma takes what the layer's input holds in row `p` (`ha : ∀ k, a (p, k) = row k`) and says what the
  layer's output holds at `(p, j)`, as a function of `row` alone — so a stack of layers is read by stacking the
  lemmas, one row at a time, whatever the number of rows in the block:

  * `product_apply` — the matrix unit's product with a `[K, N]` weight block into a zero accumulator:
    `∑ k, row k · w (k, j)`;
  * `bias_apply` — a `[1, N]` row repeated down the rows: its entry in column `j`;
  * `dense_apply`, `denseWith_apply` — product plus bias, and product plus an outer product `u (p) · wu (j)` of a
    one-column array with a one-row array plus bias (a layer whose last input coordinate is kept apart);
  * `unit_apply` — the rows divided by their Euclidean lengths (sum of squares along the row, kept as a column,
    square root, maximum with a floor, column repeated along the row, quotient):
    `row j / max (√(∑ k, row k²)) floor`.

  Only the definitions of the operations on the extended reals are used; nothing needs the entries to be finite.
-/
import Idealize.ShloMosaic.PureOps.Ideal.Laws
import Idealize.ShloMosaic.Lib.ValueIdx
import Idealize.ShloMosaic.Lib.ValueLayout
import Idealize.ShloMosaic.Lib.Pipeline.Value
import proofs.«102160_j85564338471312_1_alg».proof.Proof.LibRowsTimes
import proofs.«102160_j85564338471312_1_alg».proof.Proof.LibRowsCols
import proofs.«102160_j85564338471312_1_alg».proof.Proof.LibColumnLayout

noncomputable section

namespace Cert.RowLayers

open Idealize.ShloMosaic Idealize.ShloMosaic.ValueIdx Cert.Dense

variable {R K N : Nat}

/-- A `[1, N]` row (cast to its own shape) repeated down `R` rows reads, at `(p, j)`, the row at `j`. -/
theorem bias_apply {α : Type} (b : (⟨2, ![1, N]⟩ : Shape).Idx → α) (h₁ : (⟨2, ![1, N]⟩ : Shape).ShapeCasts ⟨2, ![1, N]⟩)
    (h₂ : (⟨2, ![1, N]⟩ : Shape).Broadcasts ⟨2, ![R, N]⟩) (p : Fin R) (j : Fin N) :
    broadcastTo ⟨2, ![R, N]⟩ (shapeCast ⟨2, ![1, N]⟩ b h₁) h₂ (ix2 p j) = b (ix2 (0 : Fin 1) j) := by
  rw [shapeCast_self]; exact broadcastTo_1b_ab_apply b h₂ p j

/-- The matrix unit's product of a block whose row `p` is `row` with a weight block, into the zero accumulator,
    at `(p, j)`: `∑ k, row k · w (k, j)`. -/
theorem product_apply (d : DotDims ⟨2, ![R, K]⟩ ⟨2, ![K, N]⟩ ⟨2, ![R, N]⟩) (hd : RowsCols d)
    (prec : Option ContractPrecision) {φ₁ φ₂ : FTy}
    (a : FVec Ideal ⟨2, ![R, K]⟩ φ₁) (w : FVec Ideal ⟨2, ![K, N]⟩ φ₂)
    (hc : (⟨2, ![K, N]⟩ : Shape).ShapeCasts ⟨2, ![K, N]⟩) (p : Fin R) (j : Fin N)
    (row : Fin K → EReal) (ha : ∀ k, a (ix2 p k) = row k) :
    matmul d prec a (shapeCast ⟨2, ![K, N]⟩ w hc) (constant (F := Ideal) ⟨2, ![R, N]⟩ .f32 0x00000000#32) (ix2 p j)
      = ∑ k : Fin K, row k * w (ix2 k j) := by
  rw [shapeCast_self]
  refine (matmul_zero_apply hd prec a w (ix2 p j)).trans ?_
  exact Finset.sum_congr rfl fun k _ => congrArg (· * w (ix2 k j)) (ha k)

/-- Product plus bias at `(p, j)`. -/
theorem dense_apply (d : DotDims ⟨2, ![R, K]⟩ ⟨2, ![K, N]⟩ ⟨2, ![R, N]⟩) (hd : RowsCols d)
    (prec : Option ContractPrecision) {φ₁ φ₂ : FTy}
    (a : FVec Ideal ⟨2, ![R, K]⟩ φ₁) (w : FVec Ideal ⟨2, ![K, N]⟩ φ₂)
    (hc : (⟨2, ![K, N]⟩ : Shape).ShapeCasts ⟨2, ![K, N]⟩)
    (b : FVec Ideal ⟨2, ![1, N]⟩ .f32) (hb₁ : (⟨2, ![1, N]⟩ : Shape).ShapeCasts ⟨2, ![1, N]⟩)
    (hb₂ : (⟨2, ![1, N]⟩ : Shape).Broadcasts ⟨2, ![R, N]⟩) (p : Fin R) (j : Fin N)
    (row : Fin K → EReal) (ha : ∀ k, a (ix2 p k) = row k) :
    addf (matmul d prec a (shapeCast ⟨2, ![K, N]⟩ w hc) (constant (F := Ideal) ⟨2, ![R, N]⟩ .f32 0x00000000#32))
        (broadcastTo ⟨2, ![R, N]⟩ (shapeCast ⟨2, ![1, N]⟩ b hb₁) hb₂) (ix2 p j)
      = (∑ k : Fin K, row k * w (ix2 k j)) + b (ix2 (0 : Fin 1) j) :=
  (addf_apply _ _ _).trans (congrArg₂ (· + ·) (product_apply d hd prec a w hc p j row ha) (bias_apply b hb₁ hb₂ p j))

/-- Product, plus the outer product of a one-column array `u` with a one-row array `wu`, plus bias, at `(p, j)`. -/
theorem denseWith_apply (d : DotDims ⟨2, ![R, K]⟩ ⟨2, ![K, N]⟩ ⟨2, ![R, N]⟩) (hd : RowsCols d)
    (prec : Option ContractPrecision) {φ₁ φ₂ : FTy}
    (a : FVec Ideal ⟨2, ![R, K]⟩ φ₁) (w : FVec Ideal ⟨2, ![K, N]⟩ φ₂)
    (hc : (⟨2, ![K, N]⟩ : Shape).ShapeCasts ⟨2, ![K, N]⟩)
    (u : FVec Ideal ⟨2, ![R, 1]⟩ .f32) (hu : (⟨2, ![R, 1]⟩ : Shape).Broadcasts ⟨2, ![R, N]⟩)
    (wu : FVec Ideal ⟨2, ![1, N]⟩ .f32) (hw₁ : (⟨2, ![1, N]⟩ : Shape).ShapeCasts ⟨2, ![1, N]⟩)
    (hw₂ : (⟨2, ![1, N]⟩ : Shape).Broadcasts ⟨2, ![R, N]⟩)
    (b : FVec Ideal ⟨2, ![1, N]⟩ .f32) (hb₁ : (⟨2, ![1, N]⟩ : Shape).ShapeCasts ⟨2, ![1, N]⟩)
    (hb₂ : (⟨2, ![1, N]⟩ : Shape).Broadcasts ⟨2, ![R, N]⟩) (p : Fin R) (j : Fin N)
    (row : Fin K → EReal) (ha : ∀ k, a (ix2 p k) = row k) :
    addf (addf (matmul d prec a (shapeCast ⟨2, ![K, N]⟩ w hc) (constant (F := Ideal) ⟨2, ![R, N]⟩ .f32 0x00000000#32))
          (mulf (broadcastTo ⟨2, ![R, N]⟩ u hu) (broadcastTo ⟨2, ![R, N]⟩ (shapeCast ⟨2, ![1, N]⟩ wu hw₁) hw₂)))
        (broadcastTo ⟨2, ![R, N]⟩ (shapeCast ⟨2, ![1, N]⟩ b hb₁) hb₂) (ix2 p j)
      = (∑ k : Fin K, row k * w (ix2 k j)) + u (ix2 p (0 : Fin 1)) * wu (ix2 (0 : Fin 1) j) + b (ix2 (0 : Fin 1) j) :=
  (addf_apply _ _ _).trans (congrArg₂ (· + ·)
    ((addf_apply _ _ _).trans (congrArg₂ (· + ·) (product_apply d hd prec a w hc p j row ha)
      ((mulf_apply _ _ _).trans (congrArg₂ (· * ·) (ColumnLayout.broadcastTo_a1_ab_apply u hu p j) (bias_apply wu hw₁ hw₂ p j)))))
    (bias_apply b hb₁ hb₂ p j))

/-- The index a sum along the row inserts: `(p, k)`. -/
theorem lift_row (hred : (⟨2, ![R, N]⟩ : Shape).Reduces [1] ⟨1, ![R]⟩) (p : Fin R) (k : Fin N) :
    hred.lift (ix1 p) k = ix2 p k := by
  funext x; apply Fin.ext
  match x with
  | ⟨0, _⟩ => rfl
  | ⟨1, _⟩ => rfl

/-- The rows divided by their Euclidean lengths kept above a floor, at `(p, j)`. -/
theorem unit_apply (a : FVec Ideal ⟨2, ![R, N]⟩ .f32) (fl : BitVec 32)
    (hred : (⟨2, ![R, N]⟩ : Shape).Reduces [1] ⟨1, ![R]⟩) (hφ : FKind.Formats .f32)
    (hacc : (0x00000000#32 : BitVec 32) = FKind.add.neutral .f32 hφ)
    (hc : (⟨1, ![R]⟩ : Shape).ShapeCasts ⟨2, ![R, 1]⟩) (hb : (⟨2, ![R, 1]⟩ : Shape).Broadcasts ⟨2, ![R, N]⟩)
    (p : Fin R) (j : Fin N) (row : Fin N → EReal) (ha : ∀ k, a (ix2 p k) = row k) :
    divf a (broadcastTo ⟨2, ![R, N]⟩
        (maximumf (sqrt (shapeCast ⟨2, ![R, 1]⟩ (multiReduction .add [1] ⟨1, ![R]⟩ (mulf a a) 0x00000000#32 hred hφ hacc) hc))
          (broadcast ⟨2, ![R, 1]⟩ (Scalar.ofBits .f32 fl))) hb) (ix2 p j)
      = Ideal.div (row j) (max (Ideal.sqrt (∑ k : Fin N, row k * row k)) (Ideal.ofBits .f32 fl)) := by
  refine (divf_apply _ _ _).trans ?_
  rw [ColumnLayout.broadcastTo_a1_ab_apply _ hb p j, ha j]
  refine congrArg (fun s => Ideal.div (row j) (max (Ideal.sqrt s) (Ideal.ofBits .f32 fl))) ?_
  refine (ColumnLayout.shapeCast_a_a1_apply _ hc p 0).trans ?_
  refine (Ideal.multiReduction_add_single (mulf a a) 0x00000000#32 hred hφ hacc (ix1 p)).trans ?_
  exact Finset.sum_congr rfl fun k _ => by
    rw [lift_row hred p k]
    exact (mulf_apply a a _).trans (by rw [ha k])

end Cert.RowLayers

end
-- ==== Proof.LibHostRowReduce.lean ====
/-
  The host's reductions along the columns of a matrix, and the host's row-wise log-softmax, read at an entry — general
  in the extents m and n, in the two initial words, and with every shape fact taken as a hypothesis, so that nothing
  is ever evaluated at the extents.

  A `stablehlo.reduce` over axis 1 of an [m, n] array folds, for each row, over the row's n entries:
    * `lift_row`: the reduced index `p` with column `k` put back is (p, k);
    * `reduce_max_row`: from the f32 word `w`, the reduce with a maximum body at row `p` is the fold of `max` from that
      word's value over the row (the word is carried, never evaluated);
    * `reduce_add_row`: the sum-reduction from an initial value at row `p` is that value plus the row's sum.
  A scalar constant repeated into an array reads the constant (`splat_apply`); a vector kept as a one-column array,
  and a one-column array repeated along the rows, read the vector at the row (`column_keep`, `column_repeat`).

  The host's log-softmax of an [m, n] array `z` (jax.nn.log_softmax along axis 1): each row's maximum reduced from the
  word `w` and taken once more against `w`'s value (which changes nothing: a maximum taken from a value is already at
  least that value), kept as a column and repeated along the rows; the shifted entries' exponentials summed from the
  word `w0`, whose value is 0; the sum's logarithm, kept and repeated likewise, subtracted from the shifted entries.
  At (p, q) it is `z(p,q) − M − log Σ_k exp (z(p,k) − M)` with `M` the fold of `max` from `w`'s value over row p
  (`logSoftmax_apply`). No entry needs to be finite.
-/
import Idealize.ShloMosaic.PureOps.Ideal.Laws
import Idealize.ShloMosaic.PureOps.Reduce
import Idealize.ShloMosaic.Lib.Pipeline.Value
import Idealize.ShloMosaic.Lib.ValueIdx

noncomputable section

namespace Cert.HostRows

open Idealize.ShloMosaic Idealize.ShloMosaic.ValueIdx

variable {m n : Nat}

/-! ## Reductions along the columns -/

/-- The reduced index `p` with column `k` put back is (p, k). -/
theorem lift_row (h : (⟨2, ![m, n]⟩ : Shape).Reduces [1] (⟨1, ![m]⟩ : Shape)) (p : Fin m)
    (k : Fin ((⟨2, ![m, n]⟩ : Shape).size 1)) : h.lift (ix1 p) k = ix2 p (⟨k.val, k.isLt⟩ : Fin n) := by
  funext c; apply Fin.ext
  fin_cases c <;> rfl

/-- From the word `w` the host's reduce with a maximum body along the columns, at row `p`, is the fold of `max` from
    `w`'s value over the row. -/
theorem reduce_max_row (x : FVec Ideal (⟨2, ![m, n]⟩ : Shape) .f32) (h' : (⟨2, ![m, n]⟩ : Shape).ReducesTo [1] (⟨1, ![m]⟩ : Shape))
    (h : (⟨2, ![m, n]⟩ : Shape).Reduces [1] (⟨1, ![m]⟩ : Shape)) (hu : 0 < (⟨0, ![]⟩ : Shape).numel) (w : BitVec 32) (p : Fin m) :
    Host.reduce FloatOps.maximumf x (constant (⟨0, ![]⟩ : Shape) .f32 w) h' hu (ix1 p)
      = (Finset.univ : Finset (Fin n)).fold max (Ideal.ofBits .f32 w) fun k : Fin n => x (ix2 p k) := by
  rw [Host.reduce_eq_fold_single FloatOps.maximumf x _ h' h hu]
  have hf : (x ∘ h.lift (ix1 p)) = fun k : Fin n => x (ix2 p k) := funext fun k => congrArg x (lift_row h p k)
  exact congrArg (fun f => Finset.fold max (Ideal.ofBits .f32 w) f (Finset.univ : Finset (Fin n))) hf

/-- The host's sum-reduction along the columns from an initial value, at row `p`, is that value plus the row's sum. -/
theorem reduce_add_row (x : (⟨2, ![m, n]⟩ : Shape).Idx → EReal) (h' : (⟨2, ![m, n]⟩ : Shape).ReducesTo [1] (⟨1, ![m]⟩ : Shape))
    (h : (⟨2, ![m, n]⟩ : Shape).Reduces [1] (⟨1, ![m]⟩ : Shape)) (init : EReal) (p : Fin m) :
    Ideal.hostReduceAdd h' x init (ix1 p) = init + ∑ k : Fin n, x (ix2 p k) := by
  rw [Ideal.hostReduceAdd_single h' h]
  exact congrArg (init + ·) (Finset.sum_congr rfl fun k _ => congrArg x (lift_row h p k))

/-! ## Constants and columns laid out by the host -/

/-- A scalar constant repeated into an array reads the constant's value. -/
theorem splat_apply {t : Shape} (dims : Fin (⟨0, ![]⟩ : Shape).rank → Fin t.rank) (h : (⟨0, ![]⟩ : Shape).BroadcastsInDim t dims)
    (w : BitVec 32) (i : t.Idx) :
    broadcastInDim t dims h (constant (F := Ideal) (⟨0, ![]⟩ : Shape) .f32 w) i = Ideal.ofBits .f32 w := rfl

/-- A one-column array repeated along the rows reads its column at the row. -/
theorem column_repeat {α : Type} {b : Nat} (v : (⟨2, ![m, 1]⟩ : Shape).Idx → α)
    (h : (⟨2, ![m, 1]⟩ : Shape).BroadcastsInDim (⟨2, ![m, b]⟩ : Shape) ![0, 1]) (p : Fin m) (k : Fin b) :
    broadcastInDim (⟨2, ![m, b]⟩ : Shape) ![0, 1] h v (ix2 p k) = v (ix2 p (0 : Fin 1)) := by
  refine broadcastInDim_apply _ h v (ix2 p k) (ix2 p (0 : Fin 1)) fun a => ?_
  match a with
  | ⟨0, _⟩ =>
    show p.val = if m = 1 then 0 else p.val
    split
    · have := p.isLt; omega
    · rfl
  | ⟨1, _⟩ => rfl

/-- A vector kept as a one-column array reads the vector at the row. -/
theorem column_keep {α : Type} (x : (⟨1, ![m]⟩ : Shape).Idx → α)
    (h : (⟨1, ![m]⟩ : Shape).BroadcastsInDim (⟨2, ![m, 1]⟩ : Shape) ![0]) (p : Fin m) :
    broadcastInDim (⟨2, ![m, 1]⟩ : Shape) ![0] h x (ix2 p (0 : Fin 1)) = x (ix1 p) := by
  refine broadcastInDim_apply _ h x (ix2 p (0 : Fin 1)) (ix1 p) fun a => ?_
  match a with
  | ⟨0, _⟩ =>
    show p.val = if m = 1 then 0 else p.val
    split
    · have := p.isLt; omega
    · rfl

/-! ## The host's row-wise log-softmax -/

section LogSoftmax

variable (h' : (⟨2, ![m, n]⟩ : Shape).ReducesTo [1] (⟨1, ![m]⟩ : Shape)) (h : (⟨2, ![m, n]⟩ : Shape).Reduces [1] (⟨1, ![m]⟩ : Shape)) (hu : 0 < (⟨0, ![]⟩ : Shape).numel)
  (b0 : (⟨0, ![]⟩ : Shape).BroadcastsInDim (⟨1, ![m]⟩ : Shape) ![]) (b1 : (⟨1, ![m]⟩ : Shape).BroadcastsInDim (⟨2, ![m, 1]⟩ : Shape) ![0])
  (b2 : (⟨2, ![m, 1]⟩ : Shape).BroadcastsInDim (⟨2, ![m, n]⟩ : Shape) ![0, 1]) (w w0 : BitVec 32)

/-- Each row's maximum, reduced from `w` and taken once more against `w`'s value. -/
def rowMaxima (z : FVec Ideal (⟨2, ![m, n]⟩ : Shape) .f32) : FVec Ideal (⟨1, ![m]⟩ : Shape) .f32 :=
  maximumf (broadcastInDim (⟨1, ![m]⟩ : Shape) ![] b0 (constant (F := Ideal) (⟨0, ![]⟩ : Shape) .f32 w))
    (Host.reduce FloatOps.maximumf z (constant (F := Ideal) (⟨0, ![]⟩ : Shape) .f32 w) h' hu)

/-- Each entry's distance to its row's maximum. -/
def shifted (z : FVec Ideal (⟨2, ![m, n]⟩ : Shape) .f32) : FVec Ideal (⟨2, ![m, n]⟩ : Shape) .f32 :=
  subf z (broadcastInDim (⟨2, ![m, n]⟩ : Shape) ![0, 1] b2 (broadcastInDim (⟨2, ![m, 1]⟩ : Shape) ![0] b1 (rowMaxima h' hu b0 w z)))

/-- The shifted entries minus the logarithm of the row's sum of shifted exponentials. -/
def logSoftmax (z : FVec Ideal (⟨2, ![m, n]⟩ : Shape) .f32) : FVec Ideal (⟨2, ![m, n]⟩ : Shape) .f32 :=
  subf (shifted h' hu b0 b1 b2 w z) (broadcastInDim (⟨2, ![m, n]⟩ : Shape) ![0, 1] b2 (Host.log (broadcastInDim (⟨2, ![m, 1]⟩ : Shape) ![0] b1
    (Host.reduceAdd (Host.exp (shifted h' hu b0 b1 b2 w z)) (constant (F := Ideal) (⟨0, ![]⟩ : Shape) .f32 w0) h' hu))))

include h in
theorem rowMaxima_apply (z : FVec Ideal (⟨2, ![m, n]⟩ : Shape) .f32) (p : Fin m) :
    rowMaxima h' hu b0 w z (ix1 p) = (Finset.univ : Finset (Fin n)).fold max (Ideal.ofBits .f32 w) fun k : Fin n => z (ix2 p k) := by
  unfold rowMaxima
  show FloatOps.maximumf (broadcastInDim (⟨1, ![m]⟩ : Shape) ![] b0 (constant (F := Ideal) (⟨0, ![]⟩ : Shape) .f32 w) (ix1 p))
    (Host.reduce FloatOps.maximumf z (constant (F := Ideal) (⟨0, ![]⟩ : Shape) .f32 w) h' hu (ix1 p)) = _
  rw [splat_apply, reduce_max_row z h' h hu w p]
  exact max_eq_right (by rw [Finset.le_fold_max]; exact Or.inl le_rfl)

include h in
theorem shifted_apply (z : FVec Ideal (⟨2, ![m, n]⟩ : Shape) .f32) (p : Fin m) (q : Fin n) :
    shifted h' hu b0 b1 b2 w z (ix2 p q)
      = z (ix2 p q) - (Finset.univ : Finset (Fin n)).fold max (Ideal.ofBits .f32 w) fun k : Fin n => z (ix2 p k) := by
  unfold shifted
  show FloatOps.subf (z (ix2 p q)) (broadcastInDim (⟨2, ![m, n]⟩ : Shape) ![0, 1] b2 (broadcastInDim (⟨2, ![m, 1]⟩ : Shape) ![0] b1 (rowMaxima h' hu b0 w z)) (ix2 p q)) = _
  rw [column_repeat, column_keep, rowMaxima_apply h' h hu b0 w z p]
  rfl

include h in
/-- The host's log-softmax at (p, q), given that the sum's initial word `w0` is worth 0. -/
theorem logSoftmax_apply (hw0 : Ideal.ofBits .f32 w0 = 0) (z : FVec Ideal (⟨2, ![m, n]⟩ : Shape) .f32) (p : Fin m) (q : Fin n) :
    logSoftmax h' hu b0 b1 b2 w w0 z (ix2 p q)
      = (z (ix2 p q) - (Finset.univ : Finset (Fin n)).fold max (Ideal.ofBits .f32 w) fun k : Fin n => z (ix2 p k))
        - Ideal.log (∑ k' : Fin n, Ideal.exp (z (ix2 p k')
            - (Finset.univ : Finset (Fin n)).fold max (Ideal.ofBits .f32 w) fun k : Fin n => z (ix2 p k))) := by
  unfold logSoftmax
  show FloatOps.subf (shifted h' hu b0 b1 b2 w z (ix2 p q)) (broadcastInDim (⟨2, ![m, n]⟩ : Shape) ![0, 1] b2 (Host.log (broadcastInDim (⟨2, ![m, 1]⟩ : Shape) ![0] b1
      (Host.reduceAdd (Host.exp (shifted h' hu b0 b1 b2 w z)) (constant (F := Ideal) (⟨0, ![]⟩ : Shape) .f32 w0) h' hu))) (ix2 p q)) = _
  rw [shifted_apply h' h hu b0 b1 b2 w z p q, column_repeat]
  show FloatOps.subf (F := Ideal) (φ := .f32) _ (Ideal.log (broadcastInDim (⟨2, ![m, 1]⟩ : Shape) ![0] b1
      (Ideal.hostReduceAdd h' (Host.exp (shifted h' hu b0 b1 b2 w z)) (Ideal.ofBits .f32 w0)) (ix2 p (0 : Fin 1)))) = _
  rw [column_keep, reduce_add_row _ h' h, hw0, zero_add]
  refine congrArg (fun s => (z (ix2 p q) - (Finset.univ : Finset (Fin n)).fold max (Ideal.ofBits .f32 w) fun k : Fin n => z (ix2 p k)) - Ideal.log s)
    (Finset.sum_congr rfl fun k' _ => ?_)
  show Ideal.exp (shifted h' hu b0 b1 b2 w z (ix2 p k')) = _
  rw [shifted_apply h' h hu b0 b1 b2 w z p k']

end LogSoftmax

end Cert.HostRows

end
-- ==== Proof.LibHostColumn.lean ====
/-
  A vector repeated into a matrix by the host's two broadcasts.

  The host repeats a vector along a new axis in two steps: it first gives the vector a unit axis (`broadcast_in_dim`
  of [n] into [n, 1] along dimension 0, or of [b] into [1, b] along dimension 1), then repeats the unit axis
  (`broadcast_in_dim` of [n, 1] or [1, b] into [n, b] along dimensions 0 and 1). Read at (p, k) the result is the
  vector at the coordinate it was laid along: the row `p` for a column, the column `k` for a row. A size-one axis
  of the operand is read at 0 whatever the result's coordinate, which is why the case of a vector of one entry needs
  no separate statement.
-/
import Idealize.ShloMosaic.Lib.Pipeline.Value
import Idealize.ShloMosaic.Lib.ValueIdx

namespace Idealize.ShloMosaic.HostColumn

open Idealize.ShloMosaic Idealize.ShloMosaic.ValueIdx

variable {α : Type}

/-- A vector of `n` entries kept as an [n, 1] column and that column repeated to [n, b], both by the host's
    `broadcast_in_dim`, reads the vector at the row. -/
theorem column_apply {n b : Nat} (x : (⟨1, ![n]⟩ : Shape).Idx → α)
    (b1 : (⟨1, ![n]⟩ : Shape).BroadcastsInDim ⟨2, ![n, 1]⟩ ![0])
    (b2 : (⟨2, ![n, 1]⟩ : Shape).BroadcastsInDim ⟨2, ![n, b]⟩ ![0, 1]) (p : Fin n) (k : Fin b) :
    broadcastInDim ⟨2, ![n, b]⟩ ![0, 1] b2 (broadcastInDim ⟨2, ![n, 1]⟩ ![0] b1 x) (ix2 p k) = x (ix1 p) := by
  refine (broadcastInDim_apply _ b2 _ (ix2 p k) (ix2 p (0 : Fin 1)) fun a => ?_).trans
    (broadcastInDim_apply _ b1 x (ix2 p (0 : Fin 1)) (ix1 p) fun a => ?_)
  · match a with
    | ⟨0, _⟩ =>
      show p.val = if n = 1 then 0 else p.val
      split
      · have := p.isLt; omega
      · rfl
    | ⟨1, _⟩ => rfl
  · match a with
    | ⟨0, _⟩ =>
      show p.val = if n = 1 then 0 else p.val
      split
      · have := p.isLt; omega
      · rfl

/-- A vector of `b` entries given a leading unit axis and repeated down `n` rows, both by the host's
    `broadcast_in_dim`, reads the vector at the column. -/
theorem row_apply {n b : Nat} (x : (⟨1, ![b]⟩ : Shape).Idx → α)
    (b3 : (⟨1, ![b]⟩ : Shape).BroadcastsInDim ⟨2, ![1, b]⟩ ![1])
    (b4 : (⟨2, ![1, b]⟩ : Shape).BroadcastsInDim ⟨2, ![n, b]⟩ ![0, 1]) (p : Fin n) (j : Fin b) :
    broadcastInDim ⟨2, ![n, b]⟩ ![0, 1] b4 (broadcastInDim ⟨2, ![1, b]⟩ ![1] b3 x) (ix2 p j) = x (ix1 j) := by
  refine (broadcastInDim_apply _ b4 _ (ix2 p j) (ix2 (0 : Fin 1) j) fun a => ?_).trans
    (broadcastInDim_apply _ b3 x (ix2 (0 : Fin 1) j) (ix1 j) fun a => ?_)
  · match a with
    | ⟨0, _⟩ => rfl
    | ⟨1, _⟩ =>
      show j.val = if b = 1 then 0 else j.val
      split
      · have := j.isLt; omega
      · rfl
  · match a with
    | ⟨0, _⟩ =>
      show j.val = if b = 1 then 0 else j.val
      split
      · have := j.isLt; omega
      · rfl

end Idealize.ShloMosaic.HostColumn
-- ==== Proof.LibSageLayers.lean ====
/-
  A mean-aggregating graph layer ("SAGE" layer), a linear layer with a rectifier and a plain linear layer, each as a
  function of whole arrays on the extended reals, read one entry at a time — general in the extents.

  For a row of aggregated features `ra`, a row of the node's own features `rx`, two weight arrays `wl`, `wr` of
  shape [K, N] and a bias `bj`:

    pre j   = (∑ k, ra k · wl (k, j)) + (∑ k, rx k · wr (k, j)) + bj j           (`preRow`)
    out j   = max (pre j / max (√(∑ k, pre k²)) floor) 0                          (`unitReluRow`)

  and `sage` applies this to every row of an [M, K] pair of arrays. `linear` is `(∑ k, h (r, k) · w (k, j)) + bj j`,
  `linearRelu` its maximum with 0. The zero is spelt as the f32 word 0x00000000 and the floor as an f32 word, the
  same words on every side, never evaluated.

  Two spellings of each layer are shown to be these functions:

  * the BLOCK form — a block of R rows through the matrix unit: two products into zero accumulators added, then the
    bias kept as a [1, N] row repeated down the rows, the sum of squares along each row kept as an [R, 1] column,
    square root, maximum with the floor, the column repeated along the row, quotient, maximum with zero
    (`sage_block`, `linearRelu_block`, `linear_block`: at (p, j), given what the block's row p holds);
  * the HOST form on whole arrays — `dot_general`, the bias laid out by two `broadcast_in_dim`, the host's
    sum-reduction from the word of zero, and the products and the bias added in the other order,
    (mean·wl + b) + x·wr (`host_sage_apply`, `host_linearRelu_apply`, `host_linear_apply`).

  The one law used between the two orders is (A + B) + b = (A + b) + B, which holds for all extended reals; a change of
  float format is the identity on the extended reals, so the block form's casts of its operands do not appear. No
  entry needs to be finite.
-/
import Idealize.ShloMosaic.PureOps.Ideal.Laws
import Idealize.ShloMosaic.Lib.ValueIdx
import Idealize.ShloMosaic.Lib.ValueLayout
import Idealize.ShloMosaic.Lib.Pipeline.Value
import Idealize.ShloMosaic.Lib.IdealHost
import proofs.«102160_j85564338471312_1_alg».proof.Proof.LibRowsTimes
import proofs.«102160_j85564338471312_1_alg».proof.Proof.LibRowsCols
import proofs.«102160_j85564338471312_1_alg».proof.Proof.LibColumnLayout
import proofs.«102160_j85564338471312_1_alg».proof.Proof.LibRowLayers
import proofs.«102160_j85564338471312_1_alg».proof.Proof.LibHostRowReduce
import proofs.«102160_j85564338471312_1_alg».proof.Proof.LibHostColumn

noncomputable section

namespace Cert.SageLayers

open Idealize.ShloMosaic Idealize.ShloMosaic.ValueIdx Cert.Dense

variable {M R K N : Nat}

/-! ## The layers as functions -/

/-- A row before normalisation: both products' entries and the bias, added left to right. -/
def preRow (ra rx : Fin K → EReal) (wl wr : (⟨2, ![K, N]⟩ : Shape).Idx → EReal) (bj : Fin N → EReal) : Fin N → EReal :=
  fun j => (∑ k : Fin K, ra k * wl (ix2 k j)) + (∑ k : Fin K, rx k * wr (ix2 k j)) + bj j

/-- A row divided by its Euclidean length kept above a floor, then the maximum with zero. -/
def unitReluRow (fl : BitVec 32) (v : Fin N → EReal) : Fin N → EReal :=
  fun j => max (Ideal.div (v j) (max (Ideal.sqrt (∑ k : Fin N, v k * v k)) (Ideal.ofBits .f32 fl))) (Ideal.ofBits .f32 0x00000000#32)

/-- The graph layer on whole arrays: row r of the result is `unitReluRow` of `preRow` of rows r of `mean` and `x`. -/
def sage (fl : BitVec 32) (mean x : (⟨2, ![M, K]⟩ : Shape).Idx → EReal) (wl wr : (⟨2, ![K, N]⟩ : Shape).Idx → EReal)
    (bj : Fin N → EReal) : (⟨2, ![M, N]⟩ : Shape).Idx → EReal :=
  fun i => unitReluRow fl (preRow (fun k => mean (ix2 (i 0 : Fin M) k)) (fun k => x (ix2 (i 0 : Fin M) k)) wl wr bj) (i 1 : Fin N)

/-- A row times a weight array plus a bias. -/
def linRow (rh : Fin K → EReal) (w : (⟨2, ![K, N]⟩ : Shape).Idx → EReal) (bj : Fin N → EReal) : Fin N → EReal :=
  fun j => (∑ k : Fin K, rh k * w (ix2 k j)) + bj j

/-- The linear layer on whole arrays. -/
def linear (h : (⟨2, ![M, K]⟩ : Shape).Idx → EReal) (w : (⟨2, ![K, N]⟩ : Shape).Idx → EReal) (bj : Fin N → EReal) :
    (⟨2, ![M, N]⟩ : Shape).Idx → EReal :=
  fun i => linRow (fun k => h (ix2 (i 0 : Fin M) k)) w bj (i 1 : Fin N)

/-- The linear layer followed by the maximum with zero. -/
def linearRelu (h : (⟨2, ![M, K]⟩ : Shape).Idx → EReal) (w : (⟨2, ![K, N]⟩ : Shape).Idx → EReal) (bj : Fin N → EReal) :
    (⟨2, ![M, N]⟩ : Shape).Idx → EReal :=
  fun i => max (linear h w bj i) (Ideal.ofBits .f32 0x00000000#32)

/-! ## The block form: R rows through the matrix unit -/

section Block

variable (d : DotDims ⟨2, ![R, K]⟩ ⟨2, ![K, N]⟩ ⟨2, ![R, N]⟩) (hd : RowsCols d) (prec : Option ContractPrecision)
include hd

/-- A product into the zero accumulator at (p, j), given the left operand's row p and the right operand's entries. -/
theorem product_entry {φ₁ φ₂ : FTy} (a : FVec Ideal ⟨2, ![R, K]⟩ φ₁) (w : FVec Ideal ⟨2, ![K, N]⟩ φ₂) (p : Fin R) (j : Fin N)
    (ra : Fin K → EReal) (ha : ∀ k, a (ix2 p k) = ra k)
    (W : (⟨2, ![K, N]⟩ : Shape).Idx → EReal) (hw : ∀ k, w (ix2 k j) = W (ix2 k j)) :
    matmul d prec a w (constant (F := Ideal) ⟨2, ![R, N]⟩ .f32 0x00000000#32) (ix2 p j) = ∑ k : Fin K, ra k * W (ix2 k j) := by
  refine (matmul_zero_apply hd prec a w (ix2 p j)).trans ?_
  exact Finset.sum_congr rfl fun k _ => congrArg₂ (· * ·) (ha k) (hw k)

/-- The graph layer's block form at (p, j). -/
theorem sage_block {φ₁ φ₂ φ₃ φ₄ : FTy} (a : FVec Ideal ⟨2, ![R, K]⟩ φ₁) (x : FVec Ideal ⟨2, ![R, K]⟩ φ₂)
    (wl : FVec Ideal ⟨2, ![K, N]⟩ φ₃) (wr : FVec Ideal ⟨2, ![K, N]⟩ φ₄)
    (b : FVec Ideal ⟨2, ![1, N]⟩ .f32) (hb₁ : (⟨2, ![1, N]⟩ : Shape).ShapeCasts ⟨2, ![1, N]⟩)
    (hb₂ : (⟨2, ![1, N]⟩ : Shape).Broadcasts ⟨2, ![R, N]⟩) (fl : BitVec 32)
    (hred : (⟨2, ![R, N]⟩ : Shape).Reduces [1] ⟨1, ![R]⟩) (hφ : FKind.Formats .f32)
    (hacc : (0x00000000#32 : BitVec 32) = FKind.add.neutral .f32 hφ)
    (hc : (⟨1, ![R]⟩ : Shape).ShapeCasts ⟨2, ![R, 1]⟩) (hbc : (⟨2, ![R, 1]⟩ : Shape).Broadcasts ⟨2, ![R, N]⟩)
    (p : Fin R) (j : Fin N)
    (ra rx : Fin K → EReal) (ha : ∀ k, a (ix2 p k) = ra k) (hx : ∀ k, x (ix2 p k) = rx k)
    (WL WR : (⟨2, ![K, N]⟩ : Shape).Idx → EReal) (hwl : ∀ k j', wl (ix2 k j') = WL (ix2 k j')) (hwr : ∀ k j', wr (ix2 k j') = WR (ix2 k j'))
    (bj : Fin N → EReal) (hbj : ∀ j', b (ix2 (0 : Fin 1) j') = bj j') :
    maximumf
        (divf (addf (addf (matmul d prec a wl (constant (F := Ideal) ⟨2, ![R, N]⟩ .f32 0x00000000#32))
                (matmul d prec x wr (constant (F := Ideal) ⟨2, ![R, N]⟩ .f32 0x00000000#32)))
              (broadcastTo ⟨2, ![R, N]⟩ (shapeCast ⟨2, ![1, N]⟩ b hb₁) hb₂))
          (broadcastTo ⟨2, ![R, N]⟩
            (maximumf (sqrt (shapeCast ⟨2, ![R, 1]⟩ (multiReduction .add [1] ⟨1, ![R]⟩
                (mulf (addf (addf (matmul d prec a wl (constant (F := Ideal) ⟨2, ![R, N]⟩ .f32 0x00000000#32))
                          (matmul d prec x wr (constant (F := Ideal) ⟨2, ![R, N]⟩ .f32 0x00000000#32)))
                        (broadcastTo ⟨2, ![R, N]⟩ (shapeCast ⟨2, ![1, N]⟩ b hb₁) hb₂))
                      (addf (addf (matmul d prec a wl (constant (F := Ideal) ⟨2, ![R, N]⟩ .f32 0x00000000#32))
                          (matmul d prec x wr (constant (F := Ideal) ⟨2, ![R, N]⟩ .f32 0x00000000#32)))
                        (broadcastTo ⟨2, ![R, N]⟩ (shapeCast ⟨2, ![1, N]⟩ b hb₁) hb₂)))
                0x00000000#32 hred hφ hacc) hc))
              (broadcast ⟨2, ![R, 1]⟩ (Scalar.ofBits .f32 fl))) hbc))
        (broadcast ⟨2, ![R, N]⟩ (Scalar.ofBits .f32 0x00000000#32)) (ix2 p j)
      = unitReluRow fl (preRow ra rx WL WR bj) j := by
  have hrow : ∀ j' : Fin N,
      addf (addf (matmul d prec a wl (constant (F := Ideal) ⟨2, ![R, N]⟩ .f32 0x00000000#32))
            (matmul d prec x wr (constant (F := Ideal) ⟨2, ![R, N]⟩ .f32 0x00000000#32)))
          (broadcastTo ⟨2, ![R, N]⟩ (shapeCast ⟨2, ![1, N]⟩ b hb₁) hb₂) (ix2 p j') = preRow ra rx WL WR bj j' := fun j' =>
    (addf_apply _ _ _).trans (congrArg₂ (· + ·)
      ((addf_apply _ _ _).trans (congrArg₂ (· + ·)
        (product_entry d hd prec a wl p j' ra ha WL (fun k => hwl k j'))
        (product_entry d hd prec x wr p j' rx hx WR (fun k => hwr k j'))))
      ((RowLayers.bias_apply b hb₁ hb₂ p j').trans (hbj j')))
  refine (maximumf_apply _ _ _).trans ?_
  exact congrArg (fun z => max z (Ideal.ofBits .f32 0x00000000#32))
    (RowLayers.unit_apply _ fl hred hφ hacc hc hbc p j (preRow ra rx WL WR bj) hrow)

/-- The linear layer's block form at (p, j). -/
theorem linear_block {φ₁ φ₂ : FTy} (a : FVec Ideal ⟨2, ![R, K]⟩ φ₁) (w : FVec Ideal ⟨2, ![K, N]⟩ φ₂)
    (b : FVec Ideal ⟨2, ![1, N]⟩ .f32) (hb₁ : (⟨2, ![1, N]⟩ : Shape).ShapeCasts ⟨2, ![1, N]⟩)
    (hb₂ : (⟨2, ![1, N]⟩ : Shape).Broadcasts ⟨2, ![R, N]⟩) (p : Fin R) (j : Fin N)
    (rh : Fin K → EReal) (ha : ∀ k, a (ix2 p k) = rh k)
    (W : (⟨2, ![K, N]⟩ : Shape).Idx → EReal) (hw : ∀ k j', w (ix2 k j') = W (ix2 k j'))
    (bj : Fin N → EReal) (hbj : ∀ j', b (ix2 (0 : Fin 1) j') = bj j') :
    addf (matmul d prec a w (constant (F := Ideal) ⟨2, ![R, N]⟩ .f32 0x00000000#32))
        (broadcastTo ⟨2, ![R, N]⟩ (shapeCast ⟨2, ![1, N]⟩ b hb₁) hb₂) (ix2 p j) = linRow rh W bj j :=
  (addf_apply _ _ _).trans (congrArg₂ (· + ·) (product_entry d hd prec a w p j rh ha W (fun k => hw k j))
    ((RowLayers.bias_apply b hb₁ hb₂ p j).trans (hbj j)))

/-- The linear layer with the rectifier, block form, at (p, j). -/
theorem linearRelu_block {φ₁ φ₂ : FTy} (a : FVec Ideal ⟨2, ![R, K]⟩ φ₁) (w : FVec Ideal ⟨2, ![K, N]⟩ φ₂)
    (b : FVec Ideal ⟨2, ![1, N]⟩ .f32) (hb₁ : (⟨2, ![1, N]⟩ : Shape).ShapeCasts ⟨2, ![1, N]⟩)
    (hb₂ : (⟨2, ![1, N]⟩ : Shape).Broadcasts ⟨2, ![R, N]⟩) (p : Fin R) (j : Fin N)
    (rh : Fin K → EReal) (ha : ∀ k, a (ix2 p k) = rh k)
    (W : (⟨2, ![K, N]⟩ : Shape).Idx → EReal) (hw : ∀ k j', w (ix2 k j') = W (ix2 k j'))
    (bj : Fin N → EReal) (hbj : ∀ j', b (ix2 (0 : Fin 1) j') = bj j') :
    maximumf (addf (matmul d prec a w (constant (F := Ideal) ⟨2, ![R, N]⟩ .f32 0x00000000#32))
          (broadcastTo ⟨2, ![R, N]⟩ (shapeCast ⟨2, ![1, N]⟩ b hb₁) hb₂))
        (broadcast ⟨2, ![R, N]⟩ (Scalar.ofBits .f32 0x00000000#32)) (ix2 p j)
      = max (linRow rh W bj j) (Ideal.ofBits .f32 0x00000000#32) :=
  (maximumf_apply _ _ _).trans (congrArg (fun z => max z (Ideal.ofBits .f32 0x00000000#32))
    (linear_block d hd prec a w b hb₁ hb₂ p j rh ha W hw bj hbj))

end Block

/-! ## The host form on whole arrays -/

section HostForms

variable (d : DotDims ⟨2, ![M, K]⟩ ⟨2, ![K, N]⟩ ⟨2, ![M, N]⟩) (prec : Option ContractPrecision)
  (b3 : (⟨1, ![N]⟩ : Shape).BroadcastsInDim ⟨2, ![1, N]⟩ ![1]) (b4 : (⟨2, ![1, N]⟩ : Shape).BroadcastsInDim ⟨2, ![M, N]⟩ ![0, 1])

/-- The host's linear layer: the product plus the bias laid along the rows. -/
def hostLinear (h : FVec Ideal ⟨2, ![M, K]⟩ .f32) (w : FVec Ideal ⟨2, ![K, N]⟩ .f32) (b : FVec Ideal ⟨1, ![N]⟩ .f32) : FVec Ideal ⟨2, ![M, N]⟩ .f32 :=
  addf (Host.dotGeneral d prec h w) (broadcastInDim ⟨2, ![M, N]⟩ ![0, 1] b4 (broadcastInDim ⟨2, ![1, N]⟩ ![1] b3 b))

/-- The host's linear layer followed by the maximum with a zero array. -/
def hostLinearRelu (z0 : (⟨0, ![]⟩ : Shape).BroadcastsInDim ⟨2, ![M, N]⟩ ![])
    (h : FVec Ideal ⟨2, ![M, K]⟩ .f32) (w : FVec Ideal ⟨2, ![K, N]⟩ .f32) (b : FVec Ideal ⟨1, ![N]⟩ .f32) : FVec Ideal ⟨2, ![M, N]⟩ .f32 :=
  maximumf (hostLinear d prec b3 b4 h w b) (broadcastInDim ⟨2, ![M, N]⟩ ![] z0 (constant (F := Ideal) ⟨0, ![]⟩ .f32 0x00000000#32))

/-- The host's pre-activation of the graph layer: (mean·wl + b) + x·wr. -/
def hostPre (mean x : FVec Ideal ⟨2, ![M, K]⟩ .f32) (wl wr : FVec Ideal ⟨2, ![K, N]⟩ .f32) (b : FVec Ideal ⟨1, ![N]⟩ .f32) : FVec Ideal ⟨2, ![M, N]⟩ .f32 :=
  addf (hostLinear d prec b3 b4 mean wl b) (Host.dotGeneral d prec x wr)

/-- The host's normalisation of an array's rows and the maximum with a zero array. -/
def hostUnitRelu (a : FVec Ideal ⟨2, ![M, N]⟩ .f32)
    (h' : (⟨2, ![M, N]⟩ : Shape).ReducesTo [1] (⟨1, ![M]⟩ : Shape)) (hu : 0 < (⟨0, ![]⟩ : Shape).numel)
    (c1 : (⟨1, ![M]⟩ : Shape).BroadcastsInDim (⟨2, ![M, 1]⟩ : Shape) ![0])
    (c2 : (⟨2, ![M, 1]⟩ : Shape).BroadcastsInDim (⟨2, ![M, N]⟩ : Shape) ![0, 1])
    (e0 : (⟨0, ![]⟩ : Shape).BroadcastsInDim (⟨2, ![M, 1]⟩ : Shape) ![])
    (z0 : (⟨0, ![]⟩ : Shape).BroadcastsInDim ⟨2, ![M, N]⟩ ![]) (fl : BitVec 32) : FVec Ideal ⟨2, ![M, N]⟩ .f32 :=
  maximumf (Host.divf a (broadcastInDim ⟨2, ![M, N]⟩ ![0, 1] c2
        (maximumf (Host.sqrt (broadcastInDim ⟨2, ![M, 1]⟩ ![0] c1
            (Host.reduceAdd (mulf a a) (constant (F := Ideal) ⟨0, ![]⟩ .f32 0x00000000#32) h' hu)))
          (broadcastInDim ⟨2, ![M, 1]⟩ ![] e0 (constant (F := Ideal) ⟨0, ![]⟩ .f32 fl)))))
      (broadcastInDim ⟨2, ![M, N]⟩ ![] z0 (constant (F := Ideal) ⟨0, ![]⟩ .f32 0x00000000#32))

/-- The host's graph layer. -/
def hostSage (mean x : FVec Ideal ⟨2, ![M, K]⟩ .f32) (wl wr : FVec Ideal ⟨2, ![K, N]⟩ .f32) (b : FVec Ideal ⟨1, ![N]⟩ .f32)
    (h' : (⟨2, ![M, N]⟩ : Shape).ReducesTo [1] (⟨1, ![M]⟩ : Shape)) (hu : 0 < (⟨0, ![]⟩ : Shape).numel)
    (c1 : (⟨1, ![M]⟩ : Shape).BroadcastsInDim (⟨2, ![M, 1]⟩ : Shape) ![0])
    (c2 : (⟨2, ![M, 1]⟩ : Shape).BroadcastsInDim (⟨2, ![M, N]⟩ : Shape) ![0, 1])
    (e0 : (⟨0, ![]⟩ : Shape).BroadcastsInDim (⟨2, ![M, 1]⟩ : Shape) ![])
    (z0 : (⟨0, ![]⟩ : Shape).BroadcastsInDim ⟨2, ![M, N]⟩ ![]) (fl : BitVec 32) : FVec Ideal ⟨2, ![M, N]⟩ .f32 :=
  hostUnitRelu (hostPre d prec b3 b4 mean x wl wr b) h' hu c1 c2 e0 z0 fl

end HostForms

section Host

variable (d : DotDims ⟨2, ![M, K]⟩ ⟨2, ![K, N]⟩ ⟨2, ![M, N]⟩) (hd : RowsCols d) (prec : Option ContractPrecision)
  (b3 : (⟨1, ![N]⟩ : Shape).BroadcastsInDim ⟨2, ![1, N]⟩ ![1]) (b4 : (⟨2, ![1, N]⟩ : Shape).BroadcastsInDim ⟨2, ![M, N]⟩ ![0, 1])
include hd

/-- The host's product plus the bias laid along the rows, at (p, j). -/
theorem host_linear_entry (h : FVec Ideal ⟨2, ![M, K]⟩ .f32) (w : FVec Ideal ⟨2, ![K, N]⟩ .f32) (b : FVec Ideal ⟨1, ![N]⟩ .f32)
    (p : Fin M) (j : Fin N) :
    addf (Host.dotGeneral d prec h w) (broadcastInDim ⟨2, ![M, N]⟩ ![0, 1] b4 (broadcastInDim ⟨2, ![1, N]⟩ ![1] b3 b)) (ix2 p j)
      = linRow (fun k => h (ix2 p k)) w (fun j' => b (ix1 j')) j :=
  (addf_apply _ _ _).trans (congrArg₂ (· + ·) (dotGeneral_apply hd prec h w (ix2 p j)) (HostColumn.row_apply b b3 b4 p j))

theorem host_linear_apply (h : FVec Ideal ⟨2, ![M, K]⟩ .f32) (w : FVec Ideal ⟨2, ![K, N]⟩ .f32) (b : FVec Ideal ⟨1, ![N]⟩ .f32)
    (i : (⟨2, ![M, N]⟩ : Shape).Idx) :
    addf (Host.dotGeneral d prec h w) (broadcastInDim ⟨2, ![M, N]⟩ ![0, 1] b4 (broadcastInDim ⟨2, ![1, N]⟩ ![1] b3 b)) i
      = linear h w (fun j' => b (ix1 j')) i := by
  obtain ⟨p, j, rfl⟩ : ∃ (p : Fin M) (j : Fin N), i = ix2 p j := ⟨i 0, i 1, eq_ix2 i⟩
  exact host_linear_entry d hd prec b3 b4 h w b p j

theorem host_linearRelu_apply (z0 : (⟨0, ![]⟩ : Shape).BroadcastsInDim ⟨2, ![M, N]⟩ ![])
    (h : FVec Ideal ⟨2, ![M, K]⟩ .f32) (w : FVec Ideal ⟨2, ![K, N]⟩ .f32) (b : FVec Ideal ⟨1, ![N]⟩ .f32)
    (i : (⟨2, ![M, N]⟩ : Shape).Idx) :
    maximumf (addf (Host.dotGeneral d prec h w) (broadcastInDim ⟨2, ![M, N]⟩ ![0, 1] b4 (broadcastInDim ⟨2, ![1, N]⟩ ![1] b3 b)))
        (broadcastInDim ⟨2, ![M, N]⟩ ![] z0 (constant (F := Ideal) ⟨0, ![]⟩ .f32 0x00000000#32)) i
      = linearRelu h w (fun j' => b (ix1 j')) i :=
  (maximumf_apply _ _ _).trans (congrArg (fun z => max z (Ideal.ofBits .f32 0x00000000#32)) (host_linear_apply d hd prec b3 b4 h w b i))

/-- The host's pre-activation (mean·wl + b) + x·wr at (p, j) is `preRow`: the bias moved to the end. -/
theorem host_pre_entry (mean x : FVec Ideal ⟨2, ![M, K]⟩ .f32) (wl wr : FVec Ideal ⟨2, ![K, N]⟩ .f32) (b : FVec Ideal ⟨1, ![N]⟩ .f32)
    (p : Fin M) (j : Fin N) :
    addf (addf (Host.dotGeneral d prec mean wl) (broadcastInDim ⟨2, ![M, N]⟩ ![0, 1] b4 (broadcastInDim ⟨2, ![1, N]⟩ ![1] b3 b)))
        (Host.dotGeneral d prec x wr) (ix2 p j)
      = preRow (fun k => mean (ix2 p k)) (fun k => x (ix2 p k)) wl wr (fun j' => b (ix1 j')) j := by
  refine (addf_apply _ _ _).trans ?_
  rw [host_linear_entry d hd prec b3 b4 mean wl b p j, dotGeneral_apply hd prec x wr (ix2 p j)]
  exact add_right_comm _ _ _

/-- The host's normalisation and rectifier of an array `a`, at an index, given the array's row there. -/
theorem host_unitRelu (a : FVec Ideal ⟨2, ![M, N]⟩ .f32)
    (h' : (⟨2, ![M, N]⟩ : Shape).ReducesTo [1] (⟨1, ![M]⟩ : Shape)) (h : (⟨2, ![M, N]⟩ : Shape).Reduces [1] (⟨1, ![M]⟩ : Shape))
    (hu : 0 < (⟨0, ![]⟩ : Shape).numel)
    (c1 : (⟨1, ![M]⟩ : Shape).BroadcastsInDim (⟨2, ![M, 1]⟩ : Shape) ![0])
    (c2 : (⟨2, ![M, 1]⟩ : Shape).BroadcastsInDim (⟨2, ![M, N]⟩ : Shape) ![0, 1])
    (e0 : (⟨0, ![]⟩ : Shape).BroadcastsInDim (⟨2, ![M, 1]⟩ : Shape) ![])
    (z0 : (⟨0, ![]⟩ : Shape).BroadcastsInDim ⟨2, ![M, N]⟩ ![]) (fl : BitVec 32)
    (p : Fin M) (j : Fin N) (v : Fin N → EReal) (hv : ∀ k, a (ix2 p k) = v k) :
    maximumf (Host.divf a (broadcastInDim ⟨2, ![M, N]⟩ ![0, 1] c2
          (maximumf (Host.sqrt (broadcastInDim ⟨2, ![M, 1]⟩ ![0] c1
              (Host.reduceAdd (mulf a a) (constant (F := Ideal) ⟨0, ![]⟩ .f32 0x00000000#32) h' hu)))
            (broadcastInDim ⟨2, ![M, 1]⟩ ![] e0 (constant (F := Ideal) ⟨0, ![]⟩ .f32 fl)))))
        (broadcastInDim ⟨2, ![M, N]⟩ ![] z0 (constant (F := Ideal) ⟨0, ![]⟩ .f32 0x00000000#32)) (ix2 p j)
      = unitReluRow fl v j := by
  have hs : Ideal.hostReduceAdd h' (mulf a a) (Ideal.ofBits .f32 0x00000000#32) (ix1 p) = ∑ k : Fin N, v k * v k := by
    rw [HostRows.reduce_add_row _ h' h, Ideal.ofBits_zero_f32, zero_add]
    exact Finset.sum_congr rfl fun k _ => (mulf_apply a a _).trans (by rw [hv k])
  refine (maximumf_apply _ _ _).trans (congrArg (fun z => max z (Ideal.ofBits .f32 0x00000000#32)) ?_)
  refine (hostDivf_apply _ _ _).trans ?_
  rw [HostRows.column_repeat, hv j]
  refine congrArg (fun s => Ideal.div (v j) (max (Ideal.sqrt s) (Ideal.ofBits .f32 fl))) ?_
  exact (HostRows.column_keep _ c1 p).trans hs

/-- The host form of the graph layer IS `sage`, at every index. -/
theorem host_sage_apply (mean x : FVec Ideal ⟨2, ![M, K]⟩ .f32) (wl wr : FVec Ideal ⟨2, ![K, N]⟩ .f32) (b : FVec Ideal ⟨1, ![N]⟩ .f32)
    (h' : (⟨2, ![M, N]⟩ : Shape).ReducesTo [1] (⟨1, ![M]⟩ : Shape)) (h : (⟨2, ![M, N]⟩ : Shape).Reduces [1] (⟨1, ![M]⟩ : Shape))
    (hu : 0 < (⟨0, ![]⟩ : Shape).numel)
    (c1 : (⟨1, ![M]⟩ : Shape).BroadcastsInDim (⟨2, ![M, 1]⟩ : Shape) ![0])
    (c2 : (⟨2, ![M, 1]⟩ : Shape).BroadcastsInDim (⟨2, ![M, N]⟩ : Shape) ![0, 1])
    (e0 : (⟨0, ![]⟩ : Shape).BroadcastsInDim (⟨2, ![M, 1]⟩ : Shape) ![])
    (z0 : (⟨0, ![]⟩ : Shape).BroadcastsInDim ⟨2, ![M, N]⟩ ![]) (fl : BitVec 32) (i : (⟨2, ![M, N]⟩ : Shape).Idx) :
    maximumf (Host.divf
          (addf (addf (Host.dotGeneral d prec mean wl) (broadcastInDim ⟨2, ![M, N]⟩ ![0, 1] b4 (broadcastInDim ⟨2, ![1, N]⟩ ![1] b3 b)))
            (Host.dotGeneral d prec x wr))
          (broadcastInDim ⟨2, ![M, N]⟩ ![0, 1] c2
            (maximumf (Host.sqrt (broadcastInDim ⟨2, ![M, 1]⟩ ![0] c1
                (Host.reduceAdd
                  (mulf (addf (addf (Host.dotGeneral d prec mean wl) (broadcastInDim ⟨2, ![M, N]⟩ ![0, 1] b4 (broadcastInDim ⟨2, ![1, N]⟩ ![1] b3 b)))
                          (Host.dotGeneral d prec x wr))
                        (addf (addf (Host.dotGeneral d prec mean wl) (broadcastInDim ⟨2, ![M, N]⟩ ![0, 1] b4 (broadcastInDim ⟨2, ![1, N]⟩ ![1] b3 b)))
                          (Host.dotGeneral d prec x wr)))
                  (constant (F := Ideal) ⟨0, ![]⟩ .f32 0x00000000#32) h' hu)))
              (broadcastInDim ⟨2, ![M, 1]⟩ ![] e0 (constant (F := Ideal) ⟨0, ![]⟩ .f32 fl)))))
        (broadcastInDim ⟨2, ![M, N]⟩ ![] z0 (constant (F := Ideal) ⟨0, ![]⟩ .f32 0x00000000#32)) i
      = sage fl mean x wl wr (fun j' => b (ix1 j')) i := by
  obtain ⟨p, j, rfl⟩ : ∃ (p : Fin M) (j : Fin N), i = ix2 p j := ⟨i 0, i 1, eq_ix2 i⟩
  exact host_unitRelu d hd _ h' h hu c1 c2 e0 z0 fl p j _ (fun k => host_pre_entry d hd prec b3 b4 mean x wl wr b p k)

/-- The host forms are the layers, as whole arrays. -/
theorem hostLinear_eq (h : FVec Ideal ⟨2, ![M, K]⟩ .f32) (w : FVec Ideal ⟨2, ![K, N]⟩ .f32) (b : FVec Ideal ⟨1, ![N]⟩ .f32) :
    hostLinear d prec b3 b4 h w b = linear h w (fun j' => b (ix1 j')) :=
  funext (host_linear_apply d hd prec b3 b4 h w b)

theorem hostLinearRelu_eq (z0 : (⟨0, ![]⟩ : Shape).BroadcastsInDim ⟨2, ![M, N]⟩ ![])
    (h : FVec Ideal ⟨2, ![M, K]⟩ .f32) (w : FVec Ideal ⟨2, ![K, N]⟩ .f32) (b : FVec Ideal ⟨1, ![N]⟩ .f32) :
    hostLinearRelu d prec b3 b4 z0 h w b = linearRelu h w (fun j' => b (ix1 j')) :=
  funext (host_linearRelu_apply d hd prec b3 b4 z0 h w b)

theorem hostSage_eq (mean x : FVec Ideal ⟨2, ![M, K]⟩ .f32) (wl wr : FVec Ideal ⟨2, ![K, N]⟩ .f32) (b : FVec Ideal ⟨1, ![N]⟩ .f32)
    (h' : (⟨2, ![M, N]⟩ : Shape).ReducesTo [1] (⟨1, ![M]⟩ : Shape)) (h : (⟨2, ![M, N]⟩ : Shape).Reduces [1] (⟨1, ![M]⟩ : Shape))
    (hu : 0 < (⟨0, ![]⟩ : Shape).numel)
    (c1 : (⟨1, ![M]⟩ : Shape).BroadcastsInDim (⟨2, ![M, 1]⟩ : Shape) ![0])
    (c2 : (⟨2, ![M, 1]⟩ : Shape).BroadcastsInDim (⟨2, ![M, N]⟩ : Shape) ![0, 1])
    (e0 : (⟨0, ![]⟩ : Shape).BroadcastsInDim (⟨2, ![M, 1]⟩ : Shape) ![])
    (z0 : (⟨0, ![]⟩ : Shape).BroadcastsInDim ⟨2, ![M, N]⟩ ![]) (fl : BitVec 32) :
    hostSage d prec b3 b4 mean x wl wr b h' hu c1 c2 e0 z0 fl = sage fl mean x wl wr (fun j' => b (ix1 j')) :=
  funext (host_sage_apply d hd prec b3 b4 mean x wl wr b h' h hu c1 c2 e0 z0 fl)

end Host

end Cert.SageLayers

end
-- ==== Proof.Model.lean ====
/-
  The network both programs compute, as one function of the fifteen argument arrays on the extended reals.

  The aggregation `agg h e` — for every node the sum of the rows of `h` at the sources of its incoming edges (a gather
  of rows, then a scatter-add at the edges' targets), divided by the node's number of incoming edges kept at least
  one — is spelt with the host operations both programs apply, one for one, and is never opened: both sides apply the
  same function to arrays shown equal. The dense part is three graph layers, a linear layer with a rectifier and a
  linear layer (the general file's `sage`, `linearRelu`, `linear`), each on the transposed weight arrays.
-/
import proofs.«102160_j85564338471312_1_alg».proof.KernelIdeal
import proofs.«102160_j85564338471312_1_alg».proof.Proof.Gen.KernelIdeal
import proofs.«102160_j85564338471312_1_alg».proof.Proof.LibSageLayers

noncomputable section

namespace Cert.Model

open Cert.KernelIdeal Cert.KernelIdeal.Gen Idealize.ShloMosaic Idealize.ShloMosaic.ValueIdx Cert.SageLayers

/-- The edge list: row 0 the sources, row 1 the targets. -/
abbrev Edges := IVec S2x1600000 32
/-- Node features, 128 per node. -/
abbrev Feat := FVec Ideal S100000x128 .f32

/-- The sources of the edges. -/
def srcOf (e : Edges) : IVec S1600000 32 :=
  shapeCast S1600000 (extractStridedSlice S1x1600000 ![0, 0] e slices_S2x1600000_S1x1600000_0_0) shapeCasts_S1x1600000_S1600000

/-- The targets of the edges. -/
def dstOf (e : Edges) : IVec S1600000 32 :=
  shapeCast S1600000 (extractStridedSlice S1x1600000 ![1, 0] e slices_S2x1600000_S1x1600000_1_0) shapeCasts_S1x1600000_S1600000

/-- Every node's number of incoming edges (ones scattered and added at the targets), kept at least one, as a column. -/
def degCol (e : Edges) : FVec Ideal S100000x1 .f32 :=
  broadcastInDim S100000x1 ![0] bcast_S100000_S100000x1_0
    (maximumf (F := Ideal)
      (Host.scatterAdd (F := Ideal) scatter_S100000_S1600000x1_S1600000_n_0_0_1
        (broadcastInDim S100000 ![] bcast_S_S100000 (constant (F := Ideal) S_ .f32 0x00000000#32))
        (broadcastInDim S1600000x1 ![0] bcast_S1600000_S1600000x1_0 (dstOf e))
        (broadcastInDim S1600000 ![] bcast_S_S1600000 (constant (F := Ideal) S_ .f32 0x3F800000#32)))
      (broadcastInDim S100000 ![] bcast_S_S100000 (constant (F := Ideal) S_ .f32 0x3F800000#32)))

/-- The sources as gather positions: a negative one counted from the end. -/
def srcPos (e : Edges) : IVec S1600000x1 32 :=
  broadcastInDim S1600000x1 ![0] bcast_S1600000_S1600000x1_0
    (select (cmpi .slt (srcOf e) (broadcastInDim S1600000 ![] bcast_S_S1600000 (constantI S_ 32 0#32)))
      (addi (srcOf e) (broadcastInDim S1600000 ![] bcast_S_S1600000 (constantI S_ 32 100000#32)))
      (srcOf e))

/-- The mean of `h` over each node's incoming edges' sources. -/
def agg (h : Feat) (e : Edges) : Feat :=
  Host.divf (F := Ideal)
    (Host.scatterAdd (F := Ideal) scatter_S100000x128_S1600000x1_S1600000x128_1_0_0_1
      (broadcastInDim S100000x128 ![] bcast_S_S100000x128 (constant (F := Ideal) S_ .f32 0x00000000#32))
      (broadcastInDim S1600000x1 ![0] bcast_S1600000_S1600000x1_0 (dstOf e))
      (Host.gather gather_S100000x128_S1600000x1_S1600000x128_1_0_n_n_0_1_1128 h (srcPos e)))
    (broadcastInDim S100000x128 ![0, 1] bcast_S100000x1_S100000x128_0_1 (degCol e))

/-- The floor under a row's length: the f32 word of 1e-12. -/
abbrev floorWord : BitVec 32 := 0x2B8CBCCC#32

/-- The first graph layer's output. -/
def layer1 (x : Feat) (e : Edges) (W1l W1r : FVec Ideal S128x128 .f32) (b1 : FVec Ideal S128 .f32) : Feat :=
  sage floorWord (agg x e) x (transpose S128x128 [1, 0] W1l transposes_S128x128_S128x128_1_0)
    (transpose S128x128 [1, 0] W1r transposes_S128x128_S128x128_1_0) (fun j => b1 (ix1 j))

/-- The third graph layer's output, 512 features per node, from the second layer's. -/
def layer3 (h : Feat) (e : Edges) (W3l W3r : FVec Ideal S512x128 .f32) (b3 : FVec Ideal S512 .f32) :
    FVec Ideal S100000x512 .f32 :=
  sage floorWord (agg h e) h (transpose S128x512 [1, 0] W3l transposes_S512x128_S128x512_1_0)
    (transpose S128x512 [1, 0] W3r transposes_S512x128_S128x512_1_0) (fun j => b3 (ix1 j))

/-- The whole network. -/
def net (x : Feat) (e : Edges)
    (W1l : FVec Ideal S128x128 .f32) (b1 : FVec Ideal S128 .f32) (W1r : FVec Ideal S128x128 .f32)
    (W2l : FVec Ideal S128x128 .f32) (b2 : FVec Ideal S128 .f32) (W2r : FVec Ideal S128x128 .f32)
    (W3l : FVec Ideal S512x128 .f32) (b3 : FVec Ideal S512 .f32) (W3r : FVec Ideal S512x128 .f32)
    (Wi : FVec Ideal S512x512 .f32) (bi : FVec Ideal S512 .f32)
    (Wc : FVec Ideal S3x512 .f32) (bc : FVec Ideal S3 .f32) :
    FVec Ideal S100000x3 .f32 :=
  linear
    (linearRelu (layer3 (layer1 (layer1 x e W1l W1r b1) e W2l W2r b2) e W3l W3r b3)
      (transpose S512x512 [1, 0] Wi transposes_S512x512_S512x512_1_0) (fun j => bi (ix1 j)))
    (transpose S512x3 [1, 0] Wc transposes_S3x512_S512x3_1_0) (fun j => bc (ix1 j))

end Cert.Model

end
-- ==== Proof.KernelRegionCommon.lean ====
/-
  Two small facts every launch's module uses: the zero offset spelt two ways, and that a block cast to its own shape and
  then to a narrower float format holds, on the extended reals, what it held.
-/
import proofs.«102160_j85564338471312_1_alg».proof.Proof.Gen.KernelIdeal.Frame
import proofs.«102160_j85564338471312_1_alg».proof.Proof.LibSageLayers

noncomputable section

namespace Cert.KernelIdeal.Regions

open Idealize.ShloMosaic Idealize.ShloMosaic.ValueIdx

theorem hz : (![0, 0] : Fin 2 → Nat) = fun _ => 0 := funext fun a => by fin_cases a <;> rfl

/-- A block cast to its own shape and then to a narrower float format holds, on the extended reals, what it held. -/
theorem cast_entry {S : Shape} (v : Vec Ideal S .f32) (h₁ : S.ShapeCasts S) (h₂ : (FTy.bf16).bits < (FTy.f32).bits) (i : S.Idx) :
    (truncf .bf16 (shapeCast S v h₁) h₂ : FVec Ideal S .bf16) i = v i := by
  rw [truncf_apply, shapeCast_self]

end Cert.KernelIdeal.Regions

end
-- ==== Proof.KernelRegion0.lean ====
/-
  Launch 0 (the first graph layer) at any contents V of the buffers when it starts: what one grid point writes back is
  its block of 2000 rows of `sage` of the arrays the launch reads, the fifty blocks cover the array, so the launch's
  output array ends holding `sage` of them (`final0`).
-/
import proofs.«102160_j85564338471312_1_alg».proof.Proof.Gen.KernelIdeal.Frame
import proofs.«102160_j85564338471312_1_alg».proof.Proof.LibSageLayers
import proofs.«102160_j85564338471312_1_alg».proof.Proof.KernelRegionCommon

set_option maxRecDepth 16384

noncomputable section

namespace Cert.KernelIdeal.Regions

open Cert.KernelIdeal Cert.KernelIdeal.Gen
open Idealize.ShloMosaic Idealize.ShloMosaic.TcCoe Idealize.ShloMosaic.ValueIdx Idealize.SL.Sem
open Idealize.ShloMosaic.Pipeline (Dat Cfg Window)
open Cert.SageLayers Cert.Dense

variable (V : (c : Dev nD) → (b : Ref sig .tc) → Buf (Elt Ideal) ((c : Thread nD τ).loc b))

/-! ## Launch 0: a graph layer on blocks of 2000 rows -/

theorem rowsCols0 : RowsCols dot_S2000x128_S128x128_S2000x128_1_0_0_1_n_n := ⟨rfl, rfl, fun _ _ => rfl, fun _ _ => rfl, fun _ _ => rfl, fun _ _ => rfl⟩

/-- The body's value at entry (p, j) of its block, from what its loaded blocks hold in row p. -/
theorem body0_entry (x0 x1 : Vec Ideal S2000x128 .f32) (x2 x4 : Vec Ideal S128x128 .f32) (x3 : Vec Ideal S1x128 .f32)
    (p : Fin 2000) (j : Fin 128) (ra rx : Fin 128 → EReal) (ha : ∀ k, x0 (ix2 p k) = ra k) (hx : ∀ k, x1 (ix2 p k) = rx k)
    (WL WR : S128x128.Idx → EReal) (hwl : ∀ k j', x2 (ix2 k j') = WL (ix2 k j')) (hwr : ∀ k j', x4 (ix2 k j') = WR (ix2 k j'))
    (bj : Fin 128 → EReal) (hbj : ∀ j', x3 (ix2 (0 : Fin 1) j') = bj j') :
    k0_pay1 (F := Ideal) x0 x1 x2 x4 x3 (ix2 p j) = unitReluRow 0x2B8CBCCC#32 (preRow ra rx WL WR bj) j := by
  unfold k0_pay1
  exact sage_block _ rowsCols0 none _ (truncf .bf16 x1 bitsLt_bf16_f32) _ _ x3 _ _ 0x2B8CBCCC#32 _ _ _ _ _ p j ra rx
    (fun k => (cast_entry _ _ _ _).trans (ha k)) (fun k => (truncf_apply x1 bitsLt_bf16_f32 (ix2 p k)).trans (hx k))
    WL WR (fun k j' => (cast_entry _ _ _ _).trans (hwl k j')) (fun k j' => (cast_entry _ _ _ _).trans (hwr k j')) bj hbj

/-- How the windows' block indices move with the grid point: the two row-blocked inputs follow the output, the
    weights and the bias stay at block (0, 0). -/
theorem idx0 : ∀ t : Fin cfg0.N,
    win0_0.index t (0 : Fin 2) = win0_5.index t (0 : Fin 2) ∧ win0_0.index t (1 : Fin 2) = 0
    ∧ win0_1.index t (0 : Fin 2) = win0_5.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (1 : Fin 2) = 0 ∧ win0_5.index t (0 : Fin 2) ≤ 49 :=
  (by decide +kernel : ∀ t : Fin grid0.N, _)

/-- Every block of rows is some grid point's. -/
theorem onto0 : ∀ q : Fin 50, ∃ t : Fin cfg0.N, win0_5.index t = ![q.val, 0] :=
  (by decide +kernel : ∀ q : Fin 50, ∃ t : Fin grid0.N, win0_5.index t = ![q.val, 0])

/-- The output array after the launch, as a function of the arrays the launch finds. -/
abbrev G0 (c : Dev nD) : S100000x128.Idx → EReal :=
  sage 0x2B8CBCCC#32 (V c main_v30) (V c main_arg0) (V c main_v11) (V c main_v12) (fun j => V c main_v31 (ix2 (0 : Fin 1) j))

/-- What grid point t writes back is block t of that function. -/
theorem flushed0 (c : Dev nD) (t : Fin cfg0.N) :
    (dat0 V c).flushed 5 t = ((cfg0.win 5).blk t).view.read (Elt Ideal) (G0 V c) := by
  show (cfg0.win 5).cut (grid0.coords t) ((dat0 V c).after 5 t) = _
  rw [after0_5]
  unfold out0_5
  rw [View.canon_unit_zero hz]
  simp only [View.ld_unit_zero (S := S2000x128) hz, View.ld_unit_zero (S := S128x128) hz, View.ld_unit_zero (S := S1x128) hz]
  obtain ⟨e00, e01, e10, e11, e20, e21, e30, e31, e40, e41, e51, -⟩ := idx0 t
  funext y
  obtain ⟨p, j, rfl⟩ : ∃ (p : Fin 2000) (j : Fin 128), y = ix2 p j := ⟨y 0, y 1, eq_ix2 y⟩
  have hj : j = (((cfg0.win 5).blk t).view.emb (ix2 p j)) 1 := Fin.ext (by
    show j.val = win0_5.index t (1 : Fin 2) * 128 + 1 * j.val
    omega)
  refine (body0_entry (iblk0 V c 0 t) (iblk0 V c 1 t) (iblk0 V c 2 t) (iblk0 V c 4 t) (iblk0 V c 3 t) p j
    (fun k => V c main_v30 (ix2 ((((cfg0.win 5).blk t).view.emb (ix2 p j)) 0) k))
    (fun k => V c main_arg0 (ix2 ((((cfg0.win 5).blk t).view.emb (ix2 p j)) 0) k))
    (fun k => ?_) (fun k => ?_) (V c main_v11) (V c main_v12) (fun k j' => ?_) (fun k j' => ?_)
    (fun j' => V c main_v31 (ix2 (0 : Fin 1) j')) (fun j' => ?_)).trans ?_
  · show V c main_v30 (((cfg0.win 0).blk t).view.emb (ix2 p k)) = _
    refine congrArg (V c main_v30) (funext fun a => Fin.ext ?_)
    match a with
    | ⟨0, _⟩ => show win0_0.index t (0 : Fin 2) * 2000 + 1 * p.val = win0_5.index t (0 : Fin 2) * 2000 + 1 * p.val; omega
    | ⟨1, _⟩ => show win0_0.index t (1 : Fin 2) * 128 + 1 * k.val = k.val; omega
  · show V c main_arg0 (((cfg0.win 1).blk t).view.emb (ix2 p k)) = _
    refine congrArg (V c main_arg0) (funext fun a => Fin.ext ?_)
    match a with
    | ⟨0, _⟩ => show win0_1.index t (0 : Fin 2) * 2000 + 1 * p.val = win0_5.index t (0 : Fin 2) * 2000 + 1 * p.val; omega
    | ⟨1, _⟩ => show win0_1.index t (1 : Fin 2) * 128 + 1 * k.val = k.val; omega
  · show V c main_v11 (((cfg0.win 2).blk t).view.emb (ix2 k j')) = _
    refine congrArg (V c main_v11) (funext fun a => Fin.ext ?_)
    match a with
    | ⟨0, _⟩ => show win0_2.index t (0 : Fin 2) * 128 + 1 * k.val = k.val; omega
    | ⟨1, _⟩ => show win0_2.index t (1 : Fin 2) * 128 + 1 * j'.val = j'.val; omega
  · show V c main_v12 (((cfg0.win 4).blk t).view.emb (ix2 k j')) = _
    refine congrArg (V c main_v12) (funext fun a => Fin.ext ?_)
    match a with
    | ⟨0, _⟩ => show win0_4.index t (0 : Fin 2) * 128 + 1 * k.val = k.val; omega
    | ⟨1, _⟩ => show win0_4.index t (1 : Fin 2) * 128 + 1 * j'.val = j'.val; omega
  · show V c main_v31 (((cfg0.win 3).blk t).view.emb (ix2 (0 : Fin 1) j')) = _
    refine congrArg (V c main_v31) (funext fun a => Fin.ext ?_)
    match a with
    | ⟨0, _⟩ => show win0_3.index t (0 : Fin 2) * 1 + 1 * 0 = 0; omega
    | ⟨1, _⟩ => show win0_3.index t (1 : Fin 2) * 128 + 1 * j'.val = j'.val; omega
  · exact congrArg (unitReluRow 0x2B8CBCCC#32 (preRow _ _ _ _ _)) hj

/-- An index lies in grid point t's output block iff each coordinate lies in the block's range. -/
theorem mem_blk0 (t : Fin cfg0.N) (i : S100000x128.Idx) :
    i ∈ ((cfg0.win 5).blk t).view.set ↔ ∀ a : Fin 2, win0_5.index t a * S2000x128.size a ≤ (i a).val ∧ (i a).val < win0_5.index t a * S2000x128.size a + S2000x128.size a := by
  show i ∈ ((View.whole main_v32).slice (win0_5.rect t)).set ↔ _
  rw [View.set_slice_whole, Rect.mem_set_unit]
  exact Iff.rfl

/-- The fifty blocks of 2000 rows cover the 100000 rows: row r lies in block r / 2000. -/
theorem cover0 (i : S100000x128.Idx) : ∃ t : Fin cfg0.N, (cfg0.win 5).flush t = true ∧ i ∈ ((cfg0.win 5).blk t).view.set := by
  have hi0 : (i 0).val < 100000 := (i 0).isLt
  have hi1 : (i 1).val < 128 := (i 1).isLt
  obtain ⟨t, ht⟩ := onto0 ⟨(i 0).val / 2000, by omega⟩
  have q0 : win0_5.index t (0 : Fin 2) = (i 0).val / 2000 := congrFun ht 0
  have q1 : win0_5.index t (1 : Fin 2) = 0 := congrFun ht 1
  refine ⟨t, flush0_5 t, ?_⟩
  rw [mem_blk0]
  intro a
  match a with
  | ⟨0, _⟩ => show win0_5.index t (0 : Fin 2) * 2000 ≤ (i 0).val ∧ (i 0).val < win0_5.index t (0 : Fin 2) * 2000 + 2000; omega
  | ⟨1, _⟩ => show win0_5.index t (1 : Fin 2) * 128 ≤ (i 1).val ∧ (i 1).val < win0_5.index t (1 : Fin 2) * 128 + 128; omega

/-- The whole output array after the launch. -/
theorem final0 (c : Dev nD) : (dat0 V c).arrAt 5 cfg0.N = G0 V c :=
  (dat0 V c).arrAt_eq_of_cover 5 (G0 V c) (fun t _ => flushed0 V c t) (cover0)

end Cert.KernelIdeal.Regions

end
-- ==== Proof.KernelRegion1.lean ====
/-
  Launch 1 (the second graph layer) at any contents V of the buffers when it starts: its output array ends holding
  `sage` of the arrays it reads (`final1`). The argument is launch 0's, for this launch's windows.
-/
import proofs.«102160_j85564338471312_1_alg».proof.Proof.Gen.KernelIdeal.Frame
import proofs.«102160_j85564338471312_1_alg».proof.Proof.LibSageLayers
import proofs.«102160_j85564338471312_1_alg».proof.Proof.KernelRegionCommon

set_option maxRecDepth 16384

noncomputable section

namespace Cert.KernelIdeal.Regions

open Cert.KernelIdeal Cert.KernelIdeal.Gen
open Idealize.ShloMosaic Idealize.ShloMosaic.TcCoe Idealize.ShloMosaic.ValueIdx Idealize.SL.Sem
open Idealize.ShloMosaic.Pipeline (Dat Cfg Window)
open Cert.SageLayers Cert.Dense

variable (V : (c : Dev nD) → (b : Ref sig .tc) → Buf (Elt Ideal) ((c : Thread nD τ).loc b))

/-! ## Launch 1: a graph layer on blocks of 2000 rows -/

theorem rowsCols1 : RowsCols dot_S2000x128_S128x128_S2000x128_1_0_0_1_n_n := ⟨rfl, rfl, fun _ _ => rfl, fun _ _ => rfl, fun _ _ => rfl, fun _ _ => rfl⟩

/-- The body's value at entry (p, j) of its block, from what its loaded blocks hold in row p. -/
theorem body1_entry (x0 x1 : Vec Ideal S2000x128 .f32) (x2 x4 : Vec Ideal S128x128 .f32) (x3 : Vec Ideal S1x128 .f32)
    (p : Fin 2000) (j : Fin 128) (ra rx : Fin 128 → EReal) (ha : ∀ k, x0 (ix2 p k) = ra k) (hx : ∀ k, x1 (ix2 p k) = rx k)
    (WL WR : S128x128.Idx → EReal) (hwl : ∀ k j', x2 (ix2 k j') = WL (ix2 k j')) (hwr : ∀ k j', x4 (ix2 k j') = WR (ix2 k j'))
    (bj : Fin 128 → EReal) (hbj : ∀ j', x3 (ix2 (0 : Fin 1) j') = bj j') :
    k1_pay1 (F := Ideal) x0 x1 x2 x4 x3 (ix2 p j) = unitReluRow 0x2B8CBCCC#32 (preRow ra rx WL WR bj) j := by
  unfold k1_pay1
  exact sage_block _ rowsCols1 none _ _ _ _ x3 _ _ 0x2B8CBCCC#32 _ _ _ _ _ p j ra rx
    (fun k => (cast_entry _ _ _ _).trans (ha k)) (fun k => (cast_entry _ _ _ _).trans (hx k))
    WL WR (fun k j' => (cast_entry _ _ _ _).trans (hwl k j')) (fun k j' => (cast_entry _ _ _ _).trans (hwr k j')) bj hbj

/-- How the windows' block indices move with the grid point: the two row-blocked inputs follow the output, the
    weights and the bias stay at block (0, 0). -/
theorem idx1 : ∀ t : Fin cfg1.N,
    win1_0.index t (0 : Fin 2) = win1_5.index t (0 : Fin 2) ∧ win1_0.index t (1 : Fin 2) = 0
    ∧ win1_1.index t (0 : Fin 2) = win1_5.index t (0 : Fin 2) ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (1 : Fin 2) = 0 ∧ win1_5.index t (0 : Fin 2) ≤ 49 :=
  (by decide +kernel : ∀ t : Fin grid1.N, _)

/-- Every block of rows is some grid point's. -/
theorem onto1 : ∀ q : Fin 50, ∃ t : Fin cfg1.N, win1_5.index t = ![q.val, 0] :=
  (by decide +kernel : ∀ q : Fin 50, ∃ t : Fin grid1.N, win1_5.index t = ![q.val, 0])

/-- The output array after the launch, as a function of the arrays the launch finds. -/
abbrev G1 (c : Dev nD) : S100000x128.Idx → EReal :=
  sage 0x2B8CBCCC#32 (V c main_v44) (V c main_v32) (V c main_v13) (V c main_v14) (fun j => V c main_v45 (ix2 (0 : Fin 1) j))

/-- What grid point t writes back is block t of that function. -/
theorem flushed1 (c : Dev nD) (t : Fin cfg1.N) :
    (dat1 V c).flushed 5 t = ((cfg1.win 5).blk t).view.read (Elt Ideal) (G1 V c) := by
  show (cfg1.win 5).cut (grid1.coords t) ((dat1 V c).after 5 t) = _
  rw [after1_5]
  unfold out1_5
  rw [View.canon_unit_zero hz]
  simp only [View.ld_unit_zero (S := S2000x128) hz, View.ld_unit_zero (S := S128x128) hz, View.ld_unit_zero (S := S1x128) hz]
  obtain ⟨e00, e01, e10, e11, e20, e21, e30, e31, e40, e41, e51, -⟩ := idx1 t
  funext y
  obtain ⟨p, j, rfl⟩ : ∃ (p : Fin 2000) (j : Fin 128), y = ix2 p j := ⟨y 0, y 1, eq_ix2 y⟩
  have hj : j = (((cfg1.win 5).blk t).view.emb (ix2 p j)) 1 := Fin.ext (by
    show j.val = win1_5.index t (1 : Fin 2) * 128 + 1 * j.val
    omega)
  refine (body1_entry (iblk1 V c 0 t) (iblk1 V c 1 t) (iblk1 V c 2 t) (iblk1 V c 4 t) (iblk1 V c 3 t) p j
    (fun k => V c main_v44 (ix2 ((((cfg1.win 5).blk t).view.emb (ix2 p j)) 0) k))
    (fun k => V c main_v32 (ix2 ((((cfg1.win 5).blk t).view.emb (ix2 p j)) 0) k))
    (fun k => ?_) (fun k => ?_) (V c main_v13) (V c main_v14) (fun k j' => ?_) (fun k j' => ?_)
    (fun j' => V c main_v45 (ix2 (0 : Fin 1) j')) (fun j' => ?_)).trans ?_
  · show V c main_v44 (((cfg1.win 0).blk t).view.emb (ix2 p k)) = _
    refine congrArg (V c main_v44) (funext fun a => Fin.ext ?_)
    match a with
    | ⟨0, _⟩ => show win1_0.index t (0 : Fin 2) * 2000 + 1 * p.val = win1_5.index t (0 : Fin 2) * 2000 + 1 * p.val; omega
    | ⟨1, _⟩ => show win1_0.index t (1 : Fin 2) * 128 + 1 * k.val = k.val; omega
  · show V c main_v32 (((cfg1.win 1).blk t).view.emb (ix2 p k)) = _
    refine congrArg (V c main_v32) (funext fun a => Fin.ext ?_)
    match a with
    | ⟨0, _⟩ => show win1_1.index t (0 : Fin 2) * 2000 + 1 * p.val = win1_5.index t (0 : Fin 2) * 2000 + 1 * p.val; omega
    | ⟨1, _⟩ => show win1_1.index t (1 : Fin 2) * 128 + 1 * k.val = k.val; omega
  · show V c main_v13 (((cfg1.win 2).blk t).view.emb (ix2 k j')) = _
    refine congrArg (V c main_v13) (funext fun a => Fin.ext ?_)
    match a with
    | ⟨0, _⟩ => show win1_2.index t (0 : Fin 2) * 128 + 1 * k.val = k.val; omega
    | ⟨1, _⟩ => show win1_2.index t (1 : Fin 2) * 128 + 1 * j'.val = j'.val; omega
  · show V c main_v14 (((cfg1.win 4).blk t).view.emb (ix2 k j')) = _
    refine congrArg (V c main_v14) (funext fun a => Fin.ext ?_)
    match a with
    | ⟨0, _⟩ => show win1_4.index t (0 : Fin 2) * 128 + 1 * k.val = k.val; omega
    | ⟨1, _⟩ => show win1_4.index t (1 : Fin 2) * 128 + 1 * j'.val = j'.val; omega
  · show V c main_v45 (((cfg1.win 3).blk t).view.emb (ix2 (0 : Fin 1) j')) = _
    refine congrArg (V c main_v45) (funext fun a => Fin.ext ?_)
    match a with
    | ⟨0, _⟩ => show win1_3.index t (0 : Fin 2) * 1 + 1 * 0 = 0; omega
    | ⟨1, _⟩ => show win1_3.index t (1 : Fin 2) * 128 + 1 * j'.val = j'.val; omega
  · exact congrArg (unitReluRow 0x2B8CBCCC#32 (preRow _ _ _ _ _)) hj

/-- An index lies in grid point t's output block iff each coordinate lies in the block's range. -/
theorem mem_blk1 (t : Fin cfg1.N) (i : S100000x128.Idx) :
    i ∈ ((cfg1.win 5).blk t).view.set ↔ ∀ a : Fin 2, win1_5.index t a * S2000x128.size a ≤ (i a).val ∧ (i a).val < win1_5.index t a * S2000x128.size a + S2000x128.size a := by
  show i ∈ ((View.whole main_v46).slice (win1_5.rect t)).set ↔ _
  rw [View.set_slice_whole, Rect.mem_set_unit]
  exact Iff.rfl

/-- The fifty blocks of 2000 rows cover the 100000 rows: row r lies in block r / 2000. -/
theorem cover1 (i : S100000x128.Idx) : ∃ t : Fin cfg1.N, (cfg1.win 5).flush t = true ∧ i ∈ ((cfg1.win 5).blk t).view.set := by
  have hi0 : (i 0).val < 100000 := (i 0).isLt
  have hi1 : (i 1).val < 128 := (i 1).isLt
  obtain ⟨t, ht⟩ := onto1 ⟨(i 0).val / 2000, by omega⟩
  have q0 : win1_5.index t (0 : Fin 2) = (i 0).val / 2000 := congrFun ht 0
  have q1 : win1_5.index t (1 : Fin 2) = 0 := congrFun ht 1
  refine ⟨t, flush1_5 t, ?_⟩
  rw [mem_blk1]
  intro a
  match a with
  | ⟨0, _⟩ => show win1_5.index t (0 : Fin 2) * 2000 ≤ (i 0).val ∧ (i 0).val < win1_5.index t (0 : Fin 2) * 2000 + 2000; omega
  | ⟨1, _⟩ => show win1_5.index t (1 : Fin 2) * 128 ≤ (i 1).val ∧ (i 1).val < win1_5.index t (1 : Fin 2) * 128 + 128; omega

/-- The whole output array after the launch. -/
theorem final1 (c : Dev nD) : (dat1 V c).arrAt 5 cfg1.N = G1 V c :=
  (dat1 V c).arrAt_eq_of_cover 5 (G1 V c) (fun t _ => flushed1 V c t) (cover1)

end Cert.KernelIdeal.Regions

end
-- ==== Proof.KernelRegion2.lean ====
/-
  Launch 2 (the third graph layer, 128 features in, 512 out) at any contents V of the buffers when it starts: its
  output array ends holding `sage` of the arrays it reads (`final2`). The argument is launch 0's, for this launch's windows.
-/
import proofs.«102160_j85564338471312_1_alg».proof.Proof.Gen.KernelIdeal.Frame
import proofs.«102160_j85564338471312_1_alg».proof.Proof.LibSageLayers
import proofs.«102160_j85564338471312_1_alg».proof.Proof.KernelRegionCommon

set_option maxRecDepth 16384

noncomputable section

namespace Cert.KernelIdeal.Regions

open Cert.KernelIdeal Cert.KernelIdeal.Gen
open Idealize.ShloMosaic Idealize.ShloMosaic.TcCoe Idealize.ShloMosaic.ValueIdx Idealize.SL.Sem
open Idealize.ShloMosaic.Pipeline (Dat Cfg Window)
open Cert.SageLayers Cert.Dense

variable (V : (c : Dev nD) → (b : Ref sig .tc) → Buf (Elt Ideal) ((c : Thread nD τ).loc b))

/-! ## Launch 2: a graph layer on blocks of 2000 rows -/

theorem rowsCols2 : RowsCols dot_S2000x128_S128x512_S2000x512_1_0_0_1_n_n := ⟨rfl, rfl, fun _ _ => rfl, fun _ _ => rfl, fun _ _ => rfl, fun _ _ => rfl⟩

/-- The body's value at entry (p, j) of its block, from what its loaded blocks hold in row p. -/
theorem body2_entry (x0 x1 : Vec Ideal S2000x128 .f32) (x2 x4 : Vec Ideal S128x512 .f32) (x3 : Vec Ideal S1x512 .f32)
    (p : Fin 2000) (j : Fin 512) (ra rx : Fin 128 → EReal) (ha : ∀ k, x0 (ix2 p k) = ra k) (hx : ∀ k, x1 (ix2 p k) = rx k)
    (WL WR : S128x512.Idx → EReal) (hwl : ∀ k j', x2 (ix2 k j') = WL (ix2 k j')) (hwr : ∀ k j', x4 (ix2 k j') = WR (ix2 k j'))
    (bj : Fin 512 → EReal) (hbj : ∀ j', x3 (ix2 (0 : Fin 1) j') = bj j') :
    k2_pay1 (F := Ideal) x0 x1 x2 x4 x3 (ix2 p j) = unitReluRow 0x2B8CBCCC#32 (preRow ra rx WL WR bj) j := by
  unfold k2_pay1
  exact sage_block _ rowsCols2 none _ _ _ _ x3 _ _ 0x2B8CBCCC#32 _ _ _ _ _ p j ra rx
    (fun k => (cast_entry _ _ _ _).trans (ha k)) (fun k => (cast_entry _ _ _ _).trans (hx k))
    WL WR (fun k j' => (cast_entry _ _ _ _).trans (hwl k j')) (fun k j' => (cast_entry _ _ _ _).trans (hwr k j')) bj hbj

/-- How the windows' block indices move with the grid point: the two row-blocked inputs follow the output, the
    weights and the bias stay at block (0, 0). -/
theorem idx2 : ∀ t : Fin cfg2.N,
    win2_0.index t (0 : Fin 2) = win2_5.index t (0 : Fin 2) ∧ win2_0.index t (1 : Fin 2) = 0
    ∧ win2_1.index t (0 : Fin 2) = win2_5.index t (0 : Fin 2) ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (1 : Fin 2) = 0 ∧ win2_5.index t (0 : Fin 2) ≤ 49 :=
  (by decide +kernel : ∀ t : Fin grid2.N, _)

/-- Every block of rows is some grid point's. -/
theorem onto2 : ∀ q : Fin 50, ∃ t : Fin cfg2.N, win2_5.index t = ![q.val, 0] :=
  (by decide +kernel : ∀ q : Fin 50, ∃ t : Fin grid2.N, win2_5.index t = ![q.val, 0])

/-- The output array after the launch, as a function of the arrays the launch finds. -/
abbrev G2 (c : Dev nD) : S100000x512.Idx → EReal :=
  sage 0x2B8CBCCC#32 (V c main_v58) (V c main_v46) (V c main_v15) (V c main_v16) (fun j => V c main_v59 (ix2 (0 : Fin 1) j))

/-- What grid point t writes back is block t of that function. -/
theorem flushed2 (c : Dev nD) (t : Fin cfg2.N) :
    (dat2 V c).flushed 5 t = ((cfg2.win 5).blk t).view.read (Elt Ideal) (G2 V c) := by
  show (cfg2.win 5).cut (grid2.coords t) ((dat2 V c).after 5 t) = _
  rw [after2_5]
  unfold out2_5
  rw [View.canon_unit_zero hz]
  simp only [View.ld_unit_zero (S := S2000x128) hz, View.ld_unit_zero (S := S128x512) hz, View.ld_unit_zero (S := S1x512) hz]
  obtain ⟨e00, e01, e10, e11, e20, e21, e30, e31, e40, e41, e51, -⟩ := idx2 t
  funext y
  obtain ⟨p, j, rfl⟩ : ∃ (p : Fin 2000) (j : Fin 512), y = ix2 p j := ⟨y 0, y 1, eq_ix2 y⟩
  have hj : j = (((cfg2.win 5).blk t).view.emb (ix2 p j)) 1 := Fin.ext (by
    show j.val = win2_5.index t (1 : Fin 2) * 512 + 1 * j.val
    omega)
  refine (body2_entry (iblk2 V c 0 t) (iblk2 V c 1 t) (iblk2 V c 2 t) (iblk2 V c 4 t) (iblk2 V c 3 t) p j
    (fun k => V c main_v58 (ix2 ((((cfg2.win 5).blk t).view.emb (ix2 p j)) 0) k))
    (fun k => V c main_v46 (ix2 ((((cfg2.win 5).blk t).view.emb (ix2 p j)) 0) k))
    (fun k => ?_) (fun k => ?_) (V c main_v15) (V c main_v16) (fun k j' => ?_) (fun k j' => ?_)
    (fun j' => V c main_v59 (ix2 (0 : Fin 1) j')) (fun j' => ?_)).trans ?_
  · show V c main_v58 (((cfg2.win 0).blk t).view.emb (ix2 p k)) = _
    refine congrArg (V c main_v58) (funext fun a => Fin.ext ?_)
    match a with
    | ⟨0, _⟩ => show win2_0.index t (0 : Fin 2) * 2000 + 1 * p.val = win2_5.index t (0 : Fin 2) * 2000 + 1 * p.val; omega
    | ⟨1, _⟩ => show win2_0.index t (1 : Fin 2) * 128 + 1 * k.val = k.val; omega
  · show V c main_v46 (((cfg2.win 1).blk t).view.emb (ix2 p k)) = _
    refine congrArg (V c main_v46) (funext fun a => Fin.ext ?_)
    match a with
    | ⟨0, _⟩ => show win2_1.index t (0 : Fin 2) * 2000 + 1 * p.val = win2_5.index t (0 : Fin 2) * 2000 + 1 * p.val; omega
    | ⟨1, _⟩ => show win2_1.index t (1 : Fin 2) * 128 + 1 * k.val = k.val; omega
  · show V c main_v15 (((cfg2.win 2).blk t).view.emb (ix2 k j')) = _
    refine congrArg (V c main_v15) (funext fun a => Fin.ext ?_)
    match a with
    | ⟨0, _⟩ => show win2_2.index t (0 : Fin 2) * 128 + 1 * k.val = k.val; omega
    | ⟨1, _⟩ => show win2_2.index t (1 : Fin 2) * 512 + 1 * j'.val = j'.val; omega
  · show V c main_v16 (((cfg2.win 4).blk t).view.emb (ix2 k j')) = _
    refine congrArg (V c main_v16) (funext fun a => Fin.ext ?_)
    match a with
    | ⟨0, _⟩ => show win2_4.index t (0 : Fin 2) * 128 + 1 * k.val = k.val; omega
    | ⟨1, _⟩ => show win2_4.index t (1 : Fin 2) * 512 + 1 * j'.val = j'.val; omega
  · show V c main_v59 (((cfg2.win 3).blk t).view.emb (ix2 (0 : Fin 1) j')) = _
    refine congrArg (V c main_v59) (funext fun a => Fin.ext ?_)
    match a with
    | ⟨0, _⟩ => show win2_3.index t (0 : Fin 2) * 1 + 1 * 0 = 0; omega
    | ⟨1, _⟩ => show win2_3.index t (1 : Fin 2) * 512 + 1 * j'.val = j'.val; omega
  · exact congrArg (unitReluRow 0x2B8CBCCC#32 (preRow _ _ _ _ _)) hj

/-- An index lies in grid point t's output block iff each coordinate lies in the block's range. -/
theorem mem_blk2 (t : Fin cfg2.N) (i : S100000x512.Idx) :
    i ∈ ((cfg2.win 5).blk t).view.set ↔ ∀ a : Fin 2, win2_5.index t a * S2000x512.size a ≤ (i a).val ∧ (i a).val < win2_5.index t a * S2000x512.size a + S2000x512.size a := by
  show i ∈ ((View.whole main_v60).slice (win2_5.rect t)).set ↔ _
  rw [View.set_slice_whole, Rect.mem_set_unit]
  exact Iff.rfl

/-- The fifty blocks of 2000 rows cover the 100000 rows: row r lies in block r / 2000. -/
theorem cover2 (i : S100000x512.Idx) : ∃ t : Fin cfg2.N, (cfg2.win 5).flush t = true ∧ i ∈ ((cfg2.win 5).blk t).view.set := by
  have hi0 : (i 0).val < 100000 := (i 0).isLt
  have hi1 : (i 1).val < 512 := (i 1).isLt
  obtain ⟨t, ht⟩ := onto2 ⟨(i 0).val / 2000, by omega⟩
  have q0 : win2_5.index t (0 : Fin 2) = (i 0).val / 2000 := congrFun ht 0
  have q1 : win2_5.index t (1 : Fin 2) = 0 := congrFun ht 1
  refine ⟨t, flush2_5 t, ?_⟩
  rw [mem_blk2]
  intro a
  match a with
  | ⟨0, _⟩ => show win2_5.index t (0 : Fin 2) * 2000 ≤ (i 0).val ∧ (i 0).val < win2_5.index t (0 : Fin 2) * 2000 + 2000; omega
  | ⟨1, _⟩ => show win2_5.index t (1 : Fin 2) * 512 ≤ (i 1).val ∧ (i 1).val < win2_5.index t (1 : Fin 2) * 512 + 512; omega

/-- The whole output array after the launch. -/
theorem final2 (c : Dev nD) : (dat2 V c).arrAt 5 cfg2.N = G2 V c :=
  (dat2 V c).arrAt_eq_of_cover 5 (G2 V c) (fun t _ => flushed2 V c t) (cover2)

end Cert.KernelIdeal.Regions

end
-- ==== Proof.KernelRegion3.lean ====
/-
  Launch 3 (the linear layer with the rectifier, 512 features in and out) at any contents V of the buffers when it
  starts: what one grid point writes back is its block of 2000 rows of `linearRelu` of the arrays the launch reads, the
  fifty blocks cover the array, so the output array ends holding `linearRelu` of them (`final3`).
-/
import proofs.«102160_j85564338471312_1_alg».proof.Proof.Gen.KernelIdeal.Frame
import proofs.«102160_j85564338471312_1_alg».proof.Proof.LibSageLayers
import proofs.«102160_j85564338471312_1_alg».proof.Proof.KernelRegionCommon

set_option maxRecDepth 16384

noncomputable section

namespace Cert.KernelIdeal.Regions

open Cert.KernelIdeal Cert.KernelIdeal.Gen
open Idealize.ShloMosaic Idealize.ShloMosaic.TcCoe Idealize.ShloMosaic.ValueIdx Idealize.SL.Sem
open Idealize.ShloMosaic.Pipeline (Dat Cfg Window)
open Cert.SageLayers Cert.Dense

variable (V : (c : Dev nD) → (b : Ref sig .tc) → Buf (Elt Ideal) ((c : Thread nD τ).loc b))

/-! ## Launch 3: a linear layer with the rectifier on blocks of 2000 rows -/

theorem rowsCols3 : RowsCols dot_S2000x512_S512x512_S2000x512_1_0_0_1_n_n := ⟨rfl, rfl, fun _ _ => rfl, fun _ _ => rfl, fun _ _ => rfl, fun _ _ => rfl⟩

/-- The body's value at entry (p, j) of its block, from what its loaded blocks hold in row p. -/
theorem body3_entry (x0 : Vec Ideal S2000x512 .f32) (x1 : Vec Ideal S512x512 .f32) (x2 : Vec Ideal S1x512 .f32)
    (p : Fin 2000) (j : Fin 512) (rh : Fin 512 → EReal) (ha : ∀ k, x0 (ix2 p k) = rh k)
    (W : S512x512.Idx → EReal) (hw : ∀ k j', x1 (ix2 k j') = W (ix2 k j'))
    (bj : Fin 512 → EReal) (hbj : ∀ j', x2 (ix2 (0 : Fin 1) j') = bj j') :
    k3_pay1 (F := Ideal) x0 x1 x2 (ix2 p j) = max (linRow rh W bj j) (Ideal.ofBits .f32 0x00000000#32) := by
  unfold k3_pay1
  exact linearRelu_block _ rowsCols3 none _ _ x2 _ _ p j rh
    (fun k => (cast_entry _ _ _ _).trans (ha k)) W (fun k j' => (cast_entry _ _ _ _).trans (hw k j')) bj hbj

/-- How the windows' block indices move with the grid point: the row-blocked input follows the output, the weights
    and the bias stay at block (0, 0). -/
theorem idx3 : ∀ t : Fin cfg3.N,
    win3_0.index t (0 : Fin 2) = win3_3.index t (0 : Fin 2) ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (1 : Fin 2) = 0 ∧ win3_3.index t (0 : Fin 2) ≤ 49 :=
  (by decide +kernel : ∀ t : Fin grid3.N, _)

/-- Every block of rows is some grid point's. -/
theorem onto3 : ∀ q : Fin 50, ∃ t : Fin cfg3.N, win3_3.index t = ![q.val, 0] :=
  (by decide +kernel : ∀ q : Fin 50, ∃ t : Fin grid3.N, win3_3.index t = ![q.val, 0])

/-- The output array after the launch, as a function of the arrays the launch finds. -/
abbrev G3 (c : Dev nD) : S100000x512.Idx → EReal :=
  linearRelu (V c main_v60) (V c main_v17) (fun j => V c main_v61 (ix2 (0 : Fin 1) j))

/-- What grid point t writes back is block t of that function. -/
theorem flushed3 (c : Dev nD) (t : Fin cfg3.N) :
    (dat3 V c).flushed 3 t = ((cfg3.win 3).blk t).view.read (Elt Ideal) (G3 V c) := by
  show (cfg3.win 3).cut (grid3.coords t) ((dat3 V c).after 3 t) = _
  rw [after3_3]
  unfold out3_3
  rw [View.canon_unit_zero hz]
  simp only [View.ld_unit_zero (S := S2000x512) hz, View.ld_unit_zero (S := S512x512) hz, View.ld_unit_zero (S := S1x512) hz]
  obtain ⟨e00, e01, e10, e11, e20, e21, e31, -⟩ := idx3 t
  funext y
  obtain ⟨p, j, rfl⟩ : ∃ (p : Fin 2000) (j : Fin 512), y = ix2 p j := ⟨y 0, y 1, eq_ix2 y⟩
  have hj : j = (((cfg3.win 3).blk t).view.emb (ix2 p j)) 1 := Fin.ext (by
    show j.val = win3_3.index t (1 : Fin 2) * 512 + 1 * j.val
    omega)
  refine (body3_entry (iblk3 V c 0 t) (iblk3 V c 1 t) (iblk3 V c 2 t) p j
    (fun k => V c main_v60 (ix2 ((((cfg3.win 3).blk t).view.emb (ix2 p j)) 0) k))
    (fun k => ?_) (V c main_v17) (fun k j' => ?_)
    (fun j' => V c main_v61 (ix2 (0 : Fin 1) j')) (fun j' => ?_)).trans ?_
  · show V c main_v60 (((cfg3.win 0).blk t).view.emb (ix2 p k)) = _
    refine congrArg (V c main_v60) (funext fun a => Fin.ext ?_)
    match a with
    | ⟨0, _⟩ => show win3_0.index t (0 : Fin 2) * 2000 + 1 * p.val = win3_3.index t (0 : Fin 2) * 2000 + 1 * p.val; omega
    | ⟨1, _⟩ => show win3_0.index t (1 : Fin 2) * 512 + 1 * k.val = k.val; omega
  · show V c main_v17 (((cfg3.win 1).blk t).view.emb (ix2 k j')) = _
    refine congrArg (V c main_v17) (funext fun a => Fin.ext ?_)
    match a with
    | ⟨0, _⟩ => show win3_1.index t (0 : Fin 2) * 512 + 1 * k.val = k.val; omega
    | ⟨1, _⟩ => show win3_1.index t (1 : Fin 2) * 512 + 1 * j'.val = j'.val; omega
  · show V c main_v61 (((cfg3.win 2).blk t).view.emb (ix2 (0 : Fin 1) j')) = _
    refine congrArg (V c main_v61) (funext fun a => Fin.ext ?_)
    match a with
    | ⟨0, _⟩ => show win3_2.index t (0 : Fin 2) * 1 + 1 * 0 = 0; omega
    | ⟨1, _⟩ => show win3_2.index t (1 : Fin 2) * 512 + 1 * j'.val = j'.val; omega
  · exact congrArg (fun q => max (linRow _ _ _ q) (Ideal.ofBits .f32 0x00000000#32)) hj

/-- An index lies in grid point t's output block iff each coordinate lies in the block's range. -/
theorem mem_blk3 (t : Fin cfg3.N) (i : S100000x512.Idx) :
    i ∈ ((cfg3.win 3).blk t).view.set ↔ ∀ a : Fin 2, win3_3.index t a * S2000x512.size a ≤ (i a).val ∧ (i a).val < win3_3.index t a * S2000x512.size a + S2000x512.size a := by
  show i ∈ ((View.whole main_v62).slice (win3_3.rect t)).set ↔ _
  rw [View.set_slice_whole, Rect.mem_set_unit]
  exact Iff.rfl

/-- The fifty blocks of 2000 rows cover the 100000 rows: row r lies in block r / 2000. -/
theorem cover3 (i : S100000x512.Idx) : ∃ t : Fin cfg3.N, (cfg3.win 3).flush t = true ∧ i ∈ ((cfg3.win 3).blk t).view.set := by
  have hi0 : (i 0).val < 100000 := (i 0).isLt
  have hi1 : (i 1).val < 512 := (i 1).isLt
  obtain ⟨t, ht⟩ := onto3 ⟨(i 0).val / 2000, by omega⟩
  have q0 : win3_3.index t (0 : Fin 2) = (i 0).val / 2000 := congrFun ht 0
  have q1 : win3_3.index t (1 : Fin 2) = 0 := congrFun ht 1
  refine ⟨t, flush3_3 t, ?_⟩
  rw [mem_blk3]
  intro a
  match a with
  | ⟨0, _⟩ => show win3_3.index t (0 : Fin 2) * 2000 ≤ (i 0).val ∧ (i 0).val < win3_3.index t (0 : Fin 2) * 2000 + 2000; omega
  | ⟨1, _⟩ => show win3_3.index t (1 : Fin 2) * 512 ≤ (i 1).val ∧ (i 1).val < win3_3.index t (1 : Fin 2) * 512 + 512; omega

/-- The whole output array after the launch. -/
theorem final3 (c : Dev nD) : (dat3 V c).arrAt 3 cfg3.N = G3 V c :=
  (dat3 V c).arrAt_eq_of_cover 3 (G3 V c) (fun t _ => flushed3 V c t) (cover3)

end Cert.KernelIdeal.Regions

end
-- ==== Proof.KernelRegion4.lean ====
/-
  Launch 4 (the last linear layer, 512 features in, 3 out) at any contents V of the buffers when it starts: its output
  array ends holding `linear` of the arrays it reads (`final4`). The argument is launch 3's, without the rectifier.
-/
import proofs.«102160_j85564338471312_1_alg».proof.Proof.Gen.KernelIdeal.Frame
import proofs.«102160_j85564338471312_1_alg».proof.Proof.LibSageLayers
import proofs.«102160_j85564338471312_1_alg».proof.Proof.KernelRegionCommon

set_option maxRecDepth 16384

noncomputable section

namespace Cert.KernelIdeal.Regions

open Cert.KernelIdeal Cert.KernelIdeal.Gen
open Idealize.ShloMosaic Idealize.ShloMosaic.TcCoe Idealize.ShloMosaic.ValueIdx Idealize.SL.Sem
open Idealize.ShloMosaic.Pipeline (Dat Cfg Window)
open Cert.SageLayers Cert.Dense

variable (V : (c : Dev nD) → (b : Ref sig .tc) → Buf (Elt Ideal) ((c : Thread nD τ).loc b))

/-! ## Launch 4: a linear layer on blocks of 2000 rows -/

theorem rowsCols4 : RowsCols dot_S2000x512_S512x3_S2000x3_1_0_0_1_n_n := ⟨rfl, rfl, fun _ _ => rfl, fun _ _ => rfl, fun _ _ => rfl, fun _ _ => rfl⟩

/-- The body's value at entry (p, j) of its block, from what its loaded blocks hold in row p. -/
theorem body4_entry (x0 : Vec Ideal S2000x512 .f32) (x1 : Vec Ideal S512x3 .f32) (x2 : Vec Ideal S1x3 .f32)
    (p : Fin 2000) (j : Fin 3) (rh : Fin 512 → EReal) (ha : ∀ k, x0 (ix2 p k) = rh k)
    (W : S512x3.Idx → EReal) (hw : ∀ k j', x1 (ix2 k j') = W (ix2 k j'))
    (bj : Fin 3 → EReal) (hbj : ∀ j', x2 (ix2 (0 : Fin 1) j') = bj j') :
    k4_pay1 (F := Ideal) x0 x1 x2 (ix2 p j) = linRow rh W bj j := by
  unfold k4_pay1
  exact linear_block _ rowsCols4 none _ _ x2 _ _ p j rh
    (fun k => (cast_entry _ _ _ _).trans (ha k)) W (fun k j' => (cast_entry _ _ _ _).trans (hw k j')) bj hbj

/-- How the windows' block indices move with the grid point: the row-blocked input follows the output, the weights
    and the bias stay at block (0, 0). -/
theorem idx4 : ∀ t : Fin cfg4.N,
    win4_0.index t (0 : Fin 2) = win4_3.index t (0 : Fin 2) ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (1 : Fin 2) = 0 ∧ win4_3.index t (0 : Fin 2) ≤ 49 :=
  (by decide +kernel : ∀ t : Fin grid4.N, _)

/-- Every block of rows is some grid point's. -/
theorem onto4 : ∀ q : Fin 50, ∃ t : Fin cfg4.N, win4_3.index t = ![q.val, 0] :=
  (by decide +kernel : ∀ q : Fin 50, ∃ t : Fin grid4.N, win4_3.index t = ![q.val, 0])

/-- The output array after the launch, as a function of the arrays the launch finds. -/
abbrev G4 (c : Dev nD) : S100000x3.Idx → EReal :=
  linear (V c main_v62) (V c main_v18) (fun j => V c main_v63 (ix2 (0 : Fin 1) j))

/-- What grid point t writes back is block t of that function. -/
theorem flushed4 (c : Dev nD) (t : Fin cfg4.N) :
    (dat4 V c).flushed 3 t = ((cfg4.win 3).blk t).view.read (Elt Ideal) (G4 V c) := by
  show (cfg4.win 3).cut (grid4.coords t) ((dat4 V c).after 3 t) = _
  rw [after4_3]
  unfold out4_3
  rw [View.canon_unit_zero hz]
  simp only [View.ld_unit_zero (S := S2000x512) hz, View.ld_unit_zero (S := S512x3) hz, View.ld_unit_zero (S := S1x3) hz]
  obtain ⟨e00, e01, e10, e11, e20, e21, e31, -⟩ := idx4 t
  funext y
  obtain ⟨p, j, rfl⟩ : ∃ (p : Fin 2000) (j : Fin 3), y = ix2 p j := ⟨y 0, y 1, eq_ix2 y⟩
  have hj : j = (((cfg4.win 3).blk t).view.emb (ix2 p j)) 1 := Fin.ext (by
    show j.val = win4_3.index t (1 : Fin 2) * 3 + 1 * j.val
    omega)
  refine (body4_entry (iblk4 V c 0 t) (iblk4 V c 1 t) (iblk4 V c 2 t) p j
    (fun k => V c main_v62 (ix2 ((((cfg4.win 3).blk t).view.emb (ix2 p j)) 0) k))
    (fun k => ?_) (V c main_v18) (fun k j' => ?_)
    (fun j' => V c main_v63 (ix2 (0 : Fin 1) j')) (fun j' => ?_)).trans ?_
  · show V c main_v62 (((cfg4.win 0).blk t).view.emb (ix2 p k)) = _
    refine congrArg (V c main_v62) (funext fun a => Fin.ext ?_)
    match a with
    | ⟨0, _⟩ => show win4_0.index t (0 : Fin 2) * 2000 + 1 * p.val = win4_3.index t (0 : Fin 2) * 2000 + 1 * p.val; omega
    | ⟨1, _⟩ => show win4_0.index t (1 : Fin 2) * 512 + 1 * k.val = k.val; omega
  · show V c main_v18 (((cfg4.win 1).blk t).view.emb (ix2 k j')) = _
    refine congrArg (V c main_v18) (funext fun a => Fin.ext ?_)
    match a with
    | ⟨0, _⟩ => show win4_1.index t (0 : Fin 2) * 512 + 1 * k.val = k.val; omega
    | ⟨1, _⟩ => show win4_1.index t (1 : Fin 2) * 3 + 1 * j'.val = j'.val; omega
  · show V c main_v63 (((cfg4.win 2).blk t).view.emb (ix2 (0 : Fin 1) j')) = _
    refine congrArg (V c main_v63) (funext fun a => Fin.ext ?_)
    match a with
    | ⟨0, _⟩ => show win4_2.index t (0 : Fin 2) * 1 + 1 * 0 = 0; omega
    | ⟨1, _⟩ => show win4_2.index t (1 : Fin 2) * 3 + 1 * j'.val = j'.val; omega
  · exact congrArg (fun q => linRow _ _ _ q) hj

/-- An index lies in grid point t's output block iff each coordinate lies in the block's range. -/
theorem mem_blk4 (t : Fin cfg4.N) (i : S100000x3.Idx) :
    i ∈ ((cfg4.win 3).blk t).view.set ↔ ∀ a : Fin 2, win4_3.index t a * S2000x3.size a ≤ (i a).val ∧ (i a).val < win4_3.index t a * S2000x3.size a + S2000x3.size a := by
  show i ∈ ((View.whole main_v64).slice (win4_3.rect t)).set ↔ _
  rw [View.set_slice_whole, Rect.mem_set_unit]
  exact Iff.rfl

/-- The fifty blocks of 2000 rows cover the 100000 rows: row r lies in block r / 2000. -/
theorem cover4 (i : S100000x3.Idx) : ∃ t : Fin cfg4.N, (cfg4.win 3).flush t = true ∧ i ∈ ((cfg4.win 3).blk t).view.set := by
  have hi0 : (i 0).val < 100000 := (i 0).isLt
  have hi1 : (i 1).val < 3 := (i 1).isLt
  obtain ⟨t, ht⟩ := onto4 ⟨(i 0).val / 2000, by omega⟩
  have q0 : win4_3.index t (0 : Fin 2) = (i 0).val / 2000 := congrFun ht 0
  have q1 : win4_3.index t (1 : Fin 2) = 0 := congrFun ht 1
  refine ⟨t, flush4_3 t, ?_⟩
  rw [mem_blk4]
  intro a
  match a with
  | ⟨0, _⟩ => show win4_3.index t (0 : Fin 2) * 2000 ≤ (i 0).val ∧ (i 0).val < win4_3.index t (0 : Fin 2) * 2000 + 2000; omega
  | ⟨1, _⟩ => show win4_3.index t (1 : Fin 2) * 3 ≤ (i 1).val ∧ (i 1).val < win4_3.index t (1 : Fin 2) * 3 + 3; omega

/-- The whole output array after the launch. -/
theorem final4 (c : Dev nD) : (dat4 V c).arrAt 3 cfg4.N = G4 V c :=
  (dat4 V c).arrAt_eq_of_cover 3 (G4 V c) (fun t _ => flushed4 V c t) (cover4)

end Cert.KernelIdeal.Regions

end
-- ==== Proof.KernelChain.lean ====
/-
  The result buffer of the idealized kernel program, read back through the ten boundaries of its run.

  Between launches a stretch of host operations computes what the next launch reads — the mean aggregation of the
  previous layer's output, the bias kept as a one-row array — and leaves every other buffer as it was; a launch
  replaces its output array by its layer of the arrays it reads (the launches' modules) and leaves every other
  buffer. Buffer by buffer, boundary by boundary: the edge list's two rows, the degree column and the eight transposed
  weight arrays are computed in the first stretch and only carried afterwards; each layer's output is the layer of the
  previous one. At the last boundary the result buffer holds the network of the argument arrays (`result_eq`).
-/
import proofs.«102160_j85564338471312_1_alg».proof.Proof.Gen.KernelIdeal.Frame
import proofs.«102160_j85564338471312_1_alg».proof.Proof.Model
import proofs.«102160_j85564338471312_1_alg».proof.Proof.KernelRegion0
import proofs.«102160_j85564338471312_1_alg».proof.Proof.KernelRegion1
import proofs.«102160_j85564338471312_1_alg».proof.Proof.KernelRegion2
import proofs.«102160_j85564338471312_1_alg».proof.Proof.KernelRegion3
import proofs.«102160_j85564338471312_1_alg».proof.Proof.KernelRegion4

set_option maxRecDepth 16384

noncomputable section

namespace Cert.KernelIdeal.Chain

open Cert.KernelIdeal Cert.KernelIdeal.Gen Cert.Model
open Idealize.ShloMosaic Idealize.ShloMosaic.TcCoe Idealize.ShloMosaic.ValueIdx Idealize.ShloMosaic.StableHlo Idealize.SL.Sem
open Cert.SageLayers

variable (m : (ℓ : Loc nD τ sig) → Buf (Elt Ideal) ℓ) (ρ : Dev nD → PrngReg) (c : Dev nD)

/-- A stretch of host operations leaves a buffer that none of them writes. -/
local macro "host_keeps" ops:ident : tactic => `(tactic|
  exact StableHlo.after_of_forall_not_mem _ _ (List.forall_iff_forall_mem.mp (by
    simp only [$ops:ident, List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide))))

/-! ## The first stretch: what it computes from the arguments -/

theorem w1_v1 : W1 m ρ c (Proc.devRef .tc main_v1) = srcOf (m ((c : Thread nD τ).loc main_arg1)) := by
  show StableHlo.after hostOps0 (W0 m ρ c) (Proc.devRef .tc main_v1) = _
  after_results_simp <;> rfl
theorem w1_v3 : W1 m ρ c (Proc.devRef .tc main_v3) = dstOf (m ((c : Thread nD τ).loc main_arg1)) := by
  show StableHlo.after hostOps0 (W0 m ρ c) (Proc.devRef .tc main_v3) = _
  after_results_simp <;> rfl
theorem w1_v10 : W1 m ρ c (Proc.devRef .tc main_v10) = degCol (m ((c : Thread nD τ).loc main_arg1)) := by
  show StableHlo.after hostOps0 (W0 m ρ c) (Proc.devRef .tc main_v10) = _
  after_results_simp <;> rfl
theorem w1_v11 : W1 m ρ c (Proc.devRef .tc main_v11) = transpose S128x128 [1, 0] (m ((c : Thread nD τ).loc main_arg2)) transposes_S128x128_S128x128_1_0 := by
  show StableHlo.after hostOps0 (W0 m ρ c) (Proc.devRef .tc main_v11) = _
  after_results_simp <;> rfl
theorem w1_v12 : W1 m ρ c (Proc.devRef .tc main_v12) = transpose S128x128 [1, 0] (m ((c : Thread nD τ).loc main_arg4)) transposes_S128x128_S128x128_1_0 := by
  show StableHlo.after hostOps0 (W0 m ρ c) (Proc.devRef .tc main_v12) = _
  after_results_simp <;> rfl
theorem w1_v13 : W1 m ρ c (Proc.devRef .tc main_v13) = transpose S128x128 [1, 0] (m ((c : Thread nD τ).loc main_arg5)) transposes_S128x128_S128x128_1_0 := by
  show StableHlo.after hostOps0 (W0 m ρ c) (Proc.devRef .tc main_v13) = _
  after_results_simp <;> rfl
theorem w1_v14 : W1 m ρ c (Proc.devRef .tc main_v14) = transpose S128x128 [1, 0] (m ((c : Thread nD τ).loc main_arg7)) transposes_S128x128_S128x128_1_0 := by
  show StableHlo.after hostOps0 (W0 m ρ c) (Proc.devRef .tc main_v14) = _
  after_results_simp <;> rfl
theorem w1_v15 : W1 m ρ c (Proc.devRef .tc main_v15) = transpose S128x512 [1, 0] (m ((c : Thread nD τ).loc main_arg8)) transposes_S512x128_S128x512_1_0 := by
  show StableHlo.after hostOps0 (W0 m ρ c) (Proc.devRef .tc main_v15) = _
  after_results_simp <;> rfl
theorem w1_v16 : W1 m ρ c (Proc.devRef .tc main_v16) = transpose S128x512 [1, 0] (m ((c : Thread nD τ).loc main_arg10)) transposes_S512x128_S128x512_1_0 := by
  show StableHlo.after hostOps0 (W0 m ρ c) (Proc.devRef .tc main_v16) = _
  after_results_simp <;> rfl
theorem w1_v17 : W1 m ρ c (Proc.devRef .tc main_v17) = transpose S512x512 [1, 0] (m ((c : Thread nD τ).loc main_arg11)) transposes_S512x512_S512x512_1_0 := by
  show StableHlo.after hostOps0 (W0 m ρ c) (Proc.devRef .tc main_v17) = _
  after_results_simp <;> rfl
theorem w1_v18 : W1 m ρ c (Proc.devRef .tc main_v18) = transpose S512x3 [1, 0] (m ((c : Thread nD τ).loc main_arg13)) transposes_S3x512_S512x3_1_0 := by
  show StableHlo.after hostOps0 (W0 m ρ c) (Proc.devRef .tc main_v18) = _
  after_results_simp <;> rfl
theorem w1_v30 : W1 m ρ c (Proc.devRef .tc main_v30) = agg (m ((c : Thread nD τ).loc main_arg0)) (m ((c : Thread nD τ).loc main_arg1)) := by
  show StableHlo.after hostOps0 (W0 m ρ c) (Proc.devRef .tc main_v30) = _
  after_results_simp <;> rfl
theorem w1_v31 : W1 m ρ c (Proc.devRef .tc main_v31) = shapeCast S1x128 (m ((c : Thread nD τ).loc main_arg3)) shapeCasts_S128_S1x128 := by
  show StableHlo.after hostOps0 (W0 m ρ c) (Proc.devRef .tc main_v31) = _
  after_results_simp <;> rfl
theorem w1_arg0 : W1 m ρ c (Proc.devRef .tc main_arg0) = (m ((c : Thread nD τ).loc main_arg0)) :=
  (show W1 m ρ c (Proc.devRef .tc main_arg0) = W0 m ρ c (Proc.devRef .tc main_arg0) by host_keeps hostOps0).trans rfl

/-! ## Buffers carried across later boundaries unchanged -/

theorem w2_v1 : W2 m ρ c (Proc.devRef .tc main_v1) = srcOf (m ((c : Thread nD τ).loc main_arg1)) :=
  (W2_of_ne m ρ c main_v1 (by decide)).trans (w1_v1 m ρ c)
theorem w3_v1 : W3 m ρ c (Proc.devRef .tc main_v1) = srcOf (m ((c : Thread nD τ).loc main_arg1)) :=
  (show W3 m ρ c (Proc.devRef .tc main_v1) = W2 m ρ c (Proc.devRef .tc main_v1) by host_keeps hostOps1).trans (w2_v1 m ρ c)
theorem w4_v1 : W4 m ρ c (Proc.devRef .tc main_v1) = srcOf (m ((c : Thread nD τ).loc main_arg1)) :=
  (W4_of_ne m ρ c main_v1 (by decide)).trans (w3_v1 m ρ c)
theorem w2_v3 : W2 m ρ c (Proc.devRef .tc main_v3) = dstOf (m ((c : Thread nD τ).loc main_arg1)) :=
  (W2_of_ne m ρ c main_v3 (by decide)).trans (w1_v3 m ρ c)
theorem w3_v3 : W3 m ρ c (Proc.devRef .tc main_v3) = dstOf (m ((c : Thread nD τ).loc main_arg1)) :=
  (show W3 m ρ c (Proc.devRef .tc main_v3) = W2 m ρ c (Proc.devRef .tc main_v3) by host_keeps hostOps1).trans (w2_v3 m ρ c)
theorem w4_v3 : W4 m ρ c (Proc.devRef .tc main_v3) = dstOf (m ((c : Thread nD τ).loc main_arg1)) :=
  (W4_of_ne m ρ c main_v3 (by decide)).trans (w3_v3 m ρ c)
theorem w2_v10 : W2 m ρ c (Proc.devRef .tc main_v10) = degCol (m ((c : Thread nD τ).loc main_arg1)) :=
  (W2_of_ne m ρ c main_v10 (by decide)).trans (w1_v10 m ρ c)
theorem w3_v10 : W3 m ρ c (Proc.devRef .tc main_v10) = degCol (m ((c : Thread nD τ).loc main_arg1)) :=
  (show W3 m ρ c (Proc.devRef .tc main_v10) = W2 m ρ c (Proc.devRef .tc main_v10) by host_keeps hostOps1).trans (w2_v10 m ρ c)
theorem w4_v10 : W4 m ρ c (Proc.devRef .tc main_v10) = degCol (m ((c : Thread nD τ).loc main_arg1)) :=
  (W4_of_ne m ρ c main_v10 (by decide)).trans (w3_v10 m ρ c)
theorem w2_v13 : W2 m ρ c (Proc.devRef .tc main_v13) = transpose S128x128 [1, 0] (m ((c : Thread nD τ).loc main_arg5)) transposes_S128x128_S128x128_1_0 :=
  (W2_of_ne m ρ c main_v13 (by decide)).trans (w1_v13 m ρ c)
theorem w3_v13 : W3 m ρ c (Proc.devRef .tc main_v13) = transpose S128x128 [1, 0] (m ((c : Thread nD τ).loc main_arg5)) transposes_S128x128_S128x128_1_0 :=
  (show W3 m ρ c (Proc.devRef .tc main_v13) = W2 m ρ c (Proc.devRef .tc main_v13) by host_keeps hostOps1).trans (w2_v13 m ρ c)
theorem w2_v14 : W2 m ρ c (Proc.devRef .tc main_v14) = transpose S128x128 [1, 0] (m ((c : Thread nD τ).loc main_arg7)) transposes_S128x128_S128x128_1_0 :=
  (W2_of_ne m ρ c main_v14 (by decide)).trans (w1_v14 m ρ c)
theorem w3_v14 : W3 m ρ c (Proc.devRef .tc main_v14) = transpose S128x128 [1, 0] (m ((c : Thread nD τ).loc main_arg7)) transposes_S128x128_S128x128_1_0 :=
  (show W3 m ρ c (Proc.devRef .tc main_v14) = W2 m ρ c (Proc.devRef .tc main_v14) by host_keeps hostOps1).trans (w2_v14 m ρ c)
theorem w2_v15 : W2 m ρ c (Proc.devRef .tc main_v15) = transpose S128x512 [1, 0] (m ((c : Thread nD τ).loc main_arg8)) transposes_S512x128_S128x512_1_0 :=
  (W2_of_ne m ρ c main_v15 (by decide)).trans (w1_v15 m ρ c)
theorem w3_v15 : W3 m ρ c (Proc.devRef .tc main_v15) = transpose S128x512 [1, 0] (m ((c : Thread nD τ).loc main_arg8)) transposes_S512x128_S128x512_1_0 :=
  (show W3 m ρ c (Proc.devRef .tc main_v15) = W2 m ρ c (Proc.devRef .tc main_v15) by host_keeps hostOps1).trans (w2_v15 m ρ c)
theorem w4_v15 : W4 m ρ c (Proc.devRef .tc main_v15) = transpose S128x512 [1, 0] (m ((c : Thread nD τ).loc main_arg8)) transposes_S512x128_S128x512_1_0 :=
  (W4_of_ne m ρ c main_v15 (by decide)).trans (w3_v15 m ρ c)
theorem w5_v15 : W5 m ρ c (Proc.devRef .tc main_v15) = transpose S128x512 [1, 0] (m ((c : Thread nD τ).loc main_arg8)) transposes_S512x128_S128x512_1_0 :=
  (show W5 m ρ c (Proc.devRef .tc main_v15) = W4 m ρ c (Proc.devRef .tc main_v15) by host_keeps hostOps2).trans (w4_v15 m ρ c)
theorem w2_v16 : W2 m ρ c (Proc.devRef .tc main_v16) = transpose S128x512 [1, 0] (m ((c : Thread nD τ).loc main_arg10)) transposes_S512x128_S128x512_1_0 :=
  (W2_of_ne m ρ c main_v16 (by decide)).trans (w1_v16 m ρ c)
theorem w3_v16 : W3 m ρ c (Proc.devRef .tc main_v16) = transpose S128x512 [1, 0] (m ((c : Thread nD τ).loc main_arg10)) transposes_S512x128_S128x512_1_0 :=
  (show W3 m ρ c (Proc.devRef .tc main_v16) = W2 m ρ c (Proc.devRef .tc main_v16) by host_keeps hostOps1).trans (w2_v16 m ρ c)
theorem w4_v16 : W4 m ρ c (Proc.devRef .tc main_v16) = transpose S128x512 [1, 0] (m ((c : Thread nD τ).loc main_arg10)) transposes_S512x128_S128x512_1_0 :=
  (W4_of_ne m ρ c main_v16 (by decide)).trans (w3_v16 m ρ c)
theorem w5_v16 : W5 m ρ c (Proc.devRef .tc main_v16) = transpose S128x512 [1, 0] (m ((c : Thread nD τ).loc main_arg10)) transposes_S512x128_S128x512_1_0 :=
  (show W5 m ρ c (Proc.devRef .tc main_v16) = W4 m ρ c (Proc.devRef .tc main_v16) by host_keeps hostOps2).trans (w4_v16 m ρ c)
theorem w2_v17 : W2 m ρ c (Proc.devRef .tc main_v17) = transpose S512x512 [1, 0] (m ((c : Thread nD τ).loc main_arg11)) transposes_S512x512_S512x512_1_0 :=
  (W2_of_ne m ρ c main_v17 (by decide)).trans (w1_v17 m ρ c)
theorem w3_v17 : W3 m ρ c (Proc.devRef .tc main_v17) = transpose S512x512 [1, 0] (m ((c : Thread nD τ).loc main_arg11)) transposes_S512x512_S512x512_1_0 :=
  (show W3 m ρ c (Proc.devRef .tc main_v17) = W2 m ρ c (Proc.devRef .tc main_v17) by host_keeps hostOps1).trans (w2_v17 m ρ c)
theorem w4_v17 : W4 m ρ c (Proc.devRef .tc main_v17) = transpose S512x512 [1, 0] (m ((c : Thread nD τ).loc main_arg11)) transposes_S512x512_S512x512_1_0 :=
  (W4_of_ne m ρ c main_v17 (by decide)).trans (w3_v17 m ρ c)
theorem w5_v17 : W5 m ρ c (Proc.devRef .tc main_v17) = transpose S512x512 [1, 0] (m ((c : Thread nD τ).loc main_arg11)) transposes_S512x512_S512x512_1_0 :=
  (show W5 m ρ c (Proc.devRef .tc main_v17) = W4 m ρ c (Proc.devRef .tc main_v17) by host_keeps hostOps2).trans (w4_v17 m ρ c)
theorem w6_v17 : W6 m ρ c (Proc.devRef .tc main_v17) = transpose S512x512 [1, 0] (m ((c : Thread nD τ).loc main_arg11)) transposes_S512x512_S512x512_1_0 :=
  (W6_of_ne m ρ c main_v17 (by decide)).trans (w5_v17 m ρ c)
theorem w7_v17 : W7 m ρ c (Proc.devRef .tc main_v17) = transpose S512x512 [1, 0] (m ((c : Thread nD τ).loc main_arg11)) transposes_S512x512_S512x512_1_0 :=
  (show W7 m ρ c (Proc.devRef .tc main_v17) = W6 m ρ c (Proc.devRef .tc main_v17) by host_keeps hostOps3).trans (w6_v17 m ρ c)
theorem w2_v18 : W2 m ρ c (Proc.devRef .tc main_v18) = transpose S512x3 [1, 0] (m ((c : Thread nD τ).loc main_arg13)) transposes_S3x512_S512x3_1_0 :=
  (W2_of_ne m ρ c main_v18 (by decide)).trans (w1_v18 m ρ c)
theorem w3_v18 : W3 m ρ c (Proc.devRef .tc main_v18) = transpose S512x3 [1, 0] (m ((c : Thread nD τ).loc main_arg13)) transposes_S3x512_S512x3_1_0 :=
  (show W3 m ρ c (Proc.devRef .tc main_v18) = W2 m ρ c (Proc.devRef .tc main_v18) by host_keeps hostOps1).trans (w2_v18 m ρ c)
theorem w4_v18 : W4 m ρ c (Proc.devRef .tc main_v18) = transpose S512x3 [1, 0] (m ((c : Thread nD τ).loc main_arg13)) transposes_S3x512_S512x3_1_0 :=
  (W4_of_ne m ρ c main_v18 (by decide)).trans (w3_v18 m ρ c)
theorem w5_v18 : W5 m ρ c (Proc.devRef .tc main_v18) = transpose S512x3 [1, 0] (m ((c : Thread nD τ).loc main_arg13)) transposes_S3x512_S512x3_1_0 :=
  (show W5 m ρ c (Proc.devRef .tc main_v18) = W4 m ρ c (Proc.devRef .tc main_v18) by host_keeps hostOps2).trans (w4_v18 m ρ c)
theorem w6_v18 : W6 m ρ c (Proc.devRef .tc main_v18) = transpose S512x3 [1, 0] (m ((c : Thread nD τ).loc main_arg13)) transposes_S3x512_S512x3_1_0 :=
  (W6_of_ne m ρ c main_v18 (by decide)).trans (w5_v18 m ρ c)
theorem w7_v18 : W7 m ρ c (Proc.devRef .tc main_v18) = transpose S512x3 [1, 0] (m ((c : Thread nD τ).loc main_arg13)) transposes_S3x512_S512x3_1_0 :=
  (show W7 m ρ c (Proc.devRef .tc main_v18) = W6 m ρ c (Proc.devRef .tc main_v18) by host_keeps hostOps3).trans (w6_v18 m ρ c)
theorem w8_v18 : W8 m ρ c (Proc.devRef .tc main_v18) = transpose S512x3 [1, 0] (m ((c : Thread nD τ).loc main_arg13)) transposes_S3x512_S512x3_1_0 :=
  (W8_of_ne m ρ c main_v18 (by decide)).trans (w7_v18 m ρ c)
theorem w9_v18 : W9 m ρ c (Proc.devRef .tc main_v18) = transpose S512x3 [1, 0] (m ((c : Thread nD τ).loc main_arg13)) transposes_S3x512_S512x3_1_0 :=
  (show W9 m ρ c (Proc.devRef .tc main_v18) = W8 m ρ c (Proc.devRef .tc main_v18) by host_keeps hostOps4).trans (w8_v18 m ρ c)

/-! ## Layer by layer -/

/-- A vector kept as a one-row array, read along the row. -/
theorem bias_row {n : Nat} (b : (⟨1, ![n]⟩ : Shape).Idx → EReal) (h : (⟨1, ![n]⟩ : Shape).ShapeCasts ⟨2, ![1, n]⟩) :
    (fun j : Fin n => shapeCast ⟨2, ![1, n]⟩ b h (ix2 (0 : Fin 1) j)) = fun j => b (ix1 j) :=
  funext fun j => shapeCast_a_1a_apply b h 0 j

/-- After launch 0: the first layer's output. -/
theorem w2_v32 : W2 m ρ c (Proc.devRef .tc main_v32) = (layer1 (m ((c : Thread nD τ).loc main_arg0)) (m ((c : Thread nD τ).loc main_arg1)) (m ((c : Thread nD τ).loc main_arg2)) (m ((c : Thread nD τ).loc main_arg4)) (m ((c : Thread nD τ).loc main_arg3))) := by
  refine (W2_arr m ρ c 5).trans ((Regions.final0 (V1 m ρ) c).trans ?_)
  show sage floorWord (W1 m ρ c (Proc.devRef .tc main_v30)) (W1 m ρ c (Proc.devRef .tc main_arg0)) (W1 m ρ c (Proc.devRef .tc main_v11)) (W1 m ρ c (Proc.devRef .tc main_v12))
    (fun j => W1 m ρ c (Proc.devRef .tc main_v31) (ix2 (0 : Fin 1) j)) = _
  rw [w1_v30, w1_arg0, w1_v11, w1_v12, w1_v31]
  exact congrArg (sage floorWord _ _ _ _) (bias_row _ _)

theorem w3_v32 : W3 m ρ c (Proc.devRef .tc main_v32) = (layer1 (m ((c : Thread nD τ).loc main_arg0)) (m ((c : Thread nD τ).loc main_arg1)) (m ((c : Thread nD τ).loc main_arg2)) (m ((c : Thread nD τ).loc main_arg4)) (m ((c : Thread nD τ).loc main_arg3))) :=
  (show W3 m ρ c (Proc.devRef .tc main_v32) = W2 m ρ c (Proc.devRef .tc main_v32) by host_keeps hostOps1).trans (w2_v32 m ρ c)

/-- The second stretch: the aggregation of the first layer's output, and the second bias as a row. -/
theorem w3_v44 : W3 m ρ c (Proc.devRef .tc main_v44) = agg (layer1 (m ((c : Thread nD τ).loc main_arg0)) (m ((c : Thread nD τ).loc main_arg1)) (m ((c : Thread nD τ).loc main_arg2)) (m ((c : Thread nD τ).loc main_arg4)) (m ((c : Thread nD τ).loc main_arg3))) (m ((c : Thread nD τ).loc main_arg1)) := by
  show StableHlo.after hostOps1 (W2 m ρ c) (Proc.devRef .tc main_v44) = _
  after_results_simp
  rw [w2_v1, w2_v3, w2_v10, w2_v32]
  rfl
theorem w3_v45 : W3 m ρ c (Proc.devRef .tc main_v45) = shapeCast S1x128 (m ((c : Thread nD τ).loc main_arg6)) shapeCasts_S128_S1x128 := by
  show StableHlo.after hostOps1 (W2 m ρ c) (Proc.devRef .tc main_v45) = _
  after_results_simp <;> rfl

/-- After launch 1: the second layer's output. -/
theorem w4_v46 : W4 m ρ c (Proc.devRef .tc main_v46) = (layer1 (layer1 (m ((c : Thread nD τ).loc main_arg0)) (m ((c : Thread nD τ).loc main_arg1)) (m ((c : Thread nD τ).loc main_arg2)) (m ((c : Thread nD τ).loc main_arg4)) (m ((c : Thread nD τ).loc main_arg3))) (m ((c : Thread nD τ).loc main_arg1)) (m ((c : Thread nD τ).loc main_arg5)) (m ((c : Thread nD τ).loc main_arg7)) (m ((c : Thread nD τ).loc main_arg6))) := by
  refine (W4_arr m ρ c 5).trans ((Regions.final1 (V3 m ρ) c).trans ?_)
  show sage floorWord (W3 m ρ c (Proc.devRef .tc main_v44)) (W3 m ρ c (Proc.devRef .tc main_v32)) (W3 m ρ c (Proc.devRef .tc main_v13)) (W3 m ρ c (Proc.devRef .tc main_v14))
    (fun j => W3 m ρ c (Proc.devRef .tc main_v45) (ix2 (0 : Fin 1) j)) = _
  rw [w3_v44, w3_v32, w3_v13, w3_v14, w3_v45]
  exact congrArg (sage floorWord _ _ _ _) (bias_row _ _)

theorem w5_v46 : W5 m ρ c (Proc.devRef .tc main_v46) = (layer1 (layer1 (m ((c : Thread nD τ).loc main_arg0)) (m ((c : Thread nD τ).loc main_arg1)) (m ((c : Thread nD τ).loc main_arg2)) (m ((c : Thread nD τ).loc main_arg4)) (m ((c : Thread nD τ).loc main_arg3))) (m ((c : Thread nD τ).loc main_arg1)) (m ((c : Thread nD τ).loc main_arg5)) (m ((c : Thread nD τ).loc main_arg7)) (m ((c : Thread nD τ).loc main_arg6))) :=
  (show W5 m ρ c (Proc.devRef .tc main_v46) = W4 m ρ c (Proc.devRef .tc main_v46) by host_keeps hostOps2).trans (w4_v46 m ρ c)

/-- The third stretch: the aggregation of the second layer's output, and the third bias as a row. -/
theorem w5_v58 : W5 m ρ c (Proc.devRef .tc main_v58) = agg (layer1 (layer1 (m ((c : Thread nD τ).loc main_arg0)) (m ((c : Thread nD τ).loc main_arg1)) (m ((c : Thread nD τ).loc main_arg2)) (m ((c : Thread nD τ).loc main_arg4)) (m ((c : Thread nD τ).loc main_arg3))) (m ((c : Thread nD τ).loc main_arg1)) (m ((c : Thread nD τ).loc main_arg5)) (m ((c : Thread nD τ).loc main_arg7)) (m ((c : Thread nD τ).loc main_arg6))) (m ((c : Thread nD τ).loc main_arg1)) := by
  show StableHlo.after hostOps2 (W4 m ρ c) (Proc.devRef .tc main_v58) = _
  after_results_simp
  rw [w4_v1, w4_v3, w4_v10, w4_v46]
  rfl
theorem w5_v59 : W5 m ρ c (Proc.devRef .tc main_v59) = shapeCast S1x512 (m ((c : Thread nD τ).loc main_arg9)) shapeCasts_S512_S1x512 := by
  show StableHlo.after hostOps2 (W4 m ρ c) (Proc.devRef .tc main_v59) = _
  after_results_simp <;> rfl

/-- After launch 2: the third layer's output. -/
theorem w6_v60 : W6 m ρ c (Proc.devRef .tc main_v60) = (layer3 (layer1 (layer1 (m ((c : Thread nD τ).loc main_arg0)) (m ((c : Thread nD τ).loc main_arg1)) (m ((c : Thread nD τ).loc main_arg2)) (m ((c : Thread nD τ).loc main_arg4)) (m ((c : Thread nD τ).loc main_arg3))) (m ((c : Thread nD τ).loc main_arg1)) (m ((c : Thread nD τ).loc main_arg5)) (m ((c : Thread nD τ).loc main_arg7)) (m ((c : Thread nD τ).loc main_arg6))) (m ((c : Thread nD τ).loc main_arg1)) (m ((c : Thread nD τ).loc main_arg8)) (m ((c : Thread nD τ).loc main_arg10)) (m ((c : Thread nD τ).loc main_arg9))) := by
  refine (W6_arr m ρ c 5).trans ((Regions.final2 (V5 m ρ) c).trans ?_)
  show sage floorWord (W5 m ρ c (Proc.devRef .tc main_v58)) (W5 m ρ c (Proc.devRef .tc main_v46)) (W5 m ρ c (Proc.devRef .tc main_v15)) (W5 m ρ c (Proc.devRef .tc main_v16))
    (fun j => W5 m ρ c (Proc.devRef .tc main_v59) (ix2 (0 : Fin 1) j)) = _
  rw [w5_v58, w5_v46, w5_v15, w5_v16, w5_v59]
  exact congrArg (sage floorWord _ _ _ _) (bias_row _ _)

theorem w7_v60 : W7 m ρ c (Proc.devRef .tc main_v60) = (layer3 (layer1 (layer1 (m ((c : Thread nD τ).loc main_arg0)) (m ((c : Thread nD τ).loc main_arg1)) (m ((c : Thread nD τ).loc main_arg2)) (m ((c : Thread nD τ).loc main_arg4)) (m ((c : Thread nD τ).loc main_arg3))) (m ((c : Thread nD τ).loc main_arg1)) (m ((c : Thread nD τ).loc main_arg5)) (m ((c : Thread nD τ).loc main_arg7)) (m ((c : Thread nD τ).loc main_arg6))) (m ((c : Thread nD τ).loc main_arg1)) (m ((c : Thread nD τ).loc main_arg8)) (m ((c : Thread nD τ).loc main_arg10)) (m ((c : Thread nD τ).loc main_arg9))) :=
  (show W7 m ρ c (Proc.devRef .tc main_v60) = W6 m ρ c (Proc.devRef .tc main_v60) by host_keeps hostOps3).trans (w6_v60 m ρ c)
theorem w7_v61 : W7 m ρ c (Proc.devRef .tc main_v61) = shapeCast S1x512 (m ((c : Thread nD τ).loc main_arg12)) shapeCasts_S512_S1x512 := by
  show StableHlo.after hostOps3 (W6 m ρ c) (Proc.devRef .tc main_v61) = _
  after_results_simp <;> rfl

/-- After launch 3: the linear layer with the rectifier. -/
theorem w8_v62 : W8 m ρ c (Proc.devRef .tc main_v62) = (linearRelu (layer3 (layer1 (layer1 (m ((c : Thread nD τ).loc main_arg0)) (m ((c : Thread nD τ).loc main_arg1)) (m ((c : Thread nD τ).loc main_arg2)) (m ((c : Thread nD τ).loc main_arg4)) (m ((c : Thread nD τ).loc main_arg3))) (m ((c : Thread nD τ).loc main_arg1)) (m ((c : Thread nD τ).loc main_arg5)) (m ((c : Thread nD τ).loc main_arg7)) (m ((c : Thread nD τ).loc main_arg6))) (m ((c : Thread nD τ).loc main_arg1)) (m ((c : Thread nD τ).loc main_arg8)) (m ((c : Thread nD τ).loc main_arg10)) (m ((c : Thread nD τ).loc main_arg9))) (transpose S512x512 [1, 0] (m ((c : Thread nD τ).loc main_arg11)) transposes_S512x512_S512x512_1_0) (fun j => (m ((c : Thread nD τ).loc main_arg12)) (ix1 j))) := by
  refine (W8_arr m ρ c 3).trans ((Regions.final3 (V7 m ρ) c).trans ?_)
  show linearRelu (W7 m ρ c (Proc.devRef .tc main_v60)) (W7 m ρ c (Proc.devRef .tc main_v17)) (fun j => W7 m ρ c (Proc.devRef .tc main_v61) (ix2 (0 : Fin 1) j)) = _
  rw [w7_v60, w7_v17, w7_v61]
  exact congrArg (linearRelu _ _) (bias_row _ _)

theorem w9_v62 : W9 m ρ c (Proc.devRef .tc main_v62) = (linearRelu (layer3 (layer1 (layer1 (m ((c : Thread nD τ).loc main_arg0)) (m ((c : Thread nD τ).loc main_arg1)) (m ((c : Thread nD τ).loc main_arg2)) (m ((c : Thread nD τ).loc main_arg4)) (m ((c : Thread nD τ).loc main_arg3))) (m ((c : Thread nD τ).loc main_arg1)) (m ((c : Thread nD τ).loc main_arg5)) (m ((c : Thread nD τ).loc main_arg7)) (m ((c : Thread nD τ).loc main_arg6))) (m ((c : Thread nD τ).loc main_arg1)) (m ((c : Thread nD τ).loc main_arg8)) (m ((c : Thread nD τ).loc main_arg10)) (m ((c : Thread nD τ).loc main_arg9))) (transpose S512x512 [1, 0] (m ((c : Thread nD τ).loc main_arg11)) transposes_S512x512_S512x512_1_0) (fun j => (m ((c : Thread nD τ).loc main_arg12)) (ix1 j))) :=
  (show W9 m ρ c (Proc.devRef .tc main_v62) = W8 m ρ c (Proc.devRef .tc main_v62) by host_keeps hostOps4).trans (w8_v62 m ρ c)
theorem w9_v63 : W9 m ρ c (Proc.devRef .tc main_v63) = shapeCast S1x3 (m ((c : Thread nD τ).loc main_arg14)) shapeCasts_S3_S1x3 := by
  show StableHlo.after hostOps4 (W8 m ρ c) (Proc.devRef .tc main_v63) = _
  after_results_simp <;> rfl

/-- After launch 4, the last boundary: the result buffer holds the network of the argument arrays. -/
theorem result_eq : W10 m ρ c (Proc.devRef .tc main_v64)
    = net (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) := by
  refine (W10_arr m ρ c 3).trans ((Regions.final4 (V9 m ρ) c).trans ?_)
  show linear (W9 m ρ c (Proc.devRef .tc main_v62)) (W9 m ρ c (Proc.devRef .tc main_v18)) (fun j => W9 m ρ c (Proc.devRef .tc main_v63) (ix2 (0 : Fin 1) j)) = _
  rw [w9_v62, w9_v18, w9_v63]
  exact congrArg (linear _ _) (bias_row _ _)

end Cert.KernelIdeal.Chain

end
-- ==== Proof.ReferenceValue.lean ====
/-
  The reference program's result as the network of its argument arrays.

  The reference computes every layer on the whole arrays with the host's operations: the mean aggregation (the very
  operations of `Model.agg`, one for one), the two products by `dot_general` against the transposed weights with the
  bias added BETWEEN them, the sum of squares by the host's reduction, square root, floor, quotient, and the rectifier
  as a maximum with a zero array; then the two linear layers. Its run's result term is first matched, operation for
  operation, against these host forms applied in turn (`result_host`: the same term, by unfolding names), and each
  host form is the layer of the general file (`hostSage_eq`, `hostLinearRelu_eq`, `hostLinear_eq`) — the one place where
  (A + b) + B = (A + B) + b is used.
-/
import proofs.«102160_j85564338471312_1_alg».proof.Proof.Gen.ReferenceIdeal.Run
import proofs.«102160_j85564338471312_1_alg».proof.Proof.Model

set_option maxRecDepth 16384

noncomputable section

namespace Cert.ReferenceIdeal.RefValue

open Cert.ReferenceIdeal Cert.ReferenceIdeal.Gen Cert.ReferenceIdeal.Value
open Idealize.ShloMosaic Idealize.ShloMosaic.TcCoe Idealize.ShloMosaic.ValueIdx Idealize.SL.Sem
open Cert.SageLayers Cert.Dense

/-! ## The four contractions are rows times columns -/

theorem rc_128_128 : RowsCols dot_S100000x128_S128x128_S100000x128_1_0_0_1_n_n := ⟨rfl, rfl, fun _ _ => rfl, fun _ _ => rfl, fun _ _ => rfl, fun _ _ => rfl⟩
theorem rc_128_512 : RowsCols dot_S100000x128_S128x512_S100000x512_1_0_0_1_n_n := ⟨rfl, rfl, fun _ _ => rfl, fun _ _ => rfl, fun _ _ => rfl, fun _ _ => rfl⟩
theorem rc_512_512 : RowsCols dot_S100000x512_S512x512_S100000x512_1_0_0_1_n_n := ⟨rfl, rfl, fun _ _ => rfl, fun _ _ => rfl, fun _ _ => rfl, fun _ _ => rfl⟩
theorem rc_512_3 : RowsCols dot_S100000x512_S512x3_S100000x3_1_0_0_1_n_n := ⟨rfl, rfl, fun _ _ => rfl, fun _ _ => rfl, fun _ _ => rfl, fun _ _ => rfl⟩

/-- The shape facts of a sum along the rows, in the form that names the put-back index. -/
theorem red128 : S100000x128.Reduces [1] S100000 := by decide
theorem red512 : S100000x512.Reduces [1] S100000 := by decide

/-! ## The layers in the host's operations -/

/-- A graph layer with 128 output features, in the reference's operations. -/
def hostLayer128 (x : Model.Feat) (e : Model.Edges) (Wl Wr : FVec Ideal S128x128 .f32) (b : FVec Ideal S128 .f32) : Model.Feat :=
  hostSage dot_S100000x128_S128x128_S100000x128_1_0_0_1_n_n none bcast_S128_S1x128_1 bcast_S1x128_S100000x128_0_1
    (Model.agg x e) x (transpose S128x128 [1, 0] Wl transposes_S128x128_S128x128_1_0) (transpose S128x128 [1, 0] Wr transposes_S128x128_S128x128_1_0) b
    reducesTo_S100000x128_S100000_d1 h_S_ bcast_S100000_S100000x1_0 bcast_S100000x1_S100000x128_0_1 bcast_S_S100000x1 bcast_S_S100000x128 0x2B8CBCCC#32

/-- The graph layer with 512 output features, in the reference's operations. -/
def hostLayer512 (x : Model.Feat) (e : Model.Edges) (Wl Wr : FVec Ideal S512x128 .f32) (b : FVec Ideal S512 .f32) :
    FVec Ideal S100000x512 .f32 :=
  hostSage dot_S100000x128_S128x512_S100000x512_1_0_0_1_n_n none bcast_S512_S1x512_1 bcast_S1x512_S100000x512_0_1
    (Model.agg x e) x (transpose S128x512 [1, 0] Wl transposes_S512x128_S128x512_1_0) (transpose S128x512 [1, 0] Wr transposes_S512x128_S128x512_1_0) b
    reducesTo_S100000x512_S100000_d1 h_S_ bcast_S100000_S100000x1_0 bcast_S100000x1_S100000x512_0_1 bcast_S_S100000x1 bcast_S_S100000x512 0x2B8CBCCC#32

theorem hostLayer128_eq (x : Model.Feat) (e : Model.Edges) (Wl Wr : FVec Ideal S128x128 .f32) (b : FVec Ideal S128 .f32) :
    hostLayer128 x e Wl Wr b = Model.layer1 x e Wl Wr b :=
  hostSage_eq _ rc_128_128 none _ _ _ _ _ _ _ _ red128 _ _ _ _ _ _

theorem hostLayer512_eq (x : Model.Feat) (e : Model.Edges) (Wl Wr : FVec Ideal S512x128 .f32) (b : FVec Ideal S512 .f32) :
    hostLayer512 x e Wl Wr b = Model.layer3 x e Wl Wr b :=
  hostSage_eq _ rc_128_512 none _ _ _ _ _ _ _ _ red512 _ _ _ _ _ _

/-! ## The run's result -/

variable (m : (ℓ : Loc nD τ sig) → Buf (Elt Ideal) ℓ) (c : Dev nD)

/-- The result term of the reference's run IS the host forms applied in turn: the same operations, by unfolding names. -/
theorem result_host : res_main_v122 m c
    = hostLinear dot_S100000x512_S512x3_S100000x3_1_0_0_1_n_n none bcast_S3_S1x3_1 bcast_S1x3_S100000x3_0_1
        (hostLinearRelu dot_S100000x512_S512x512_S100000x512_1_0_0_1_n_n none bcast_S512_S1x512_1 bcast_S1x512_S100000x512_0_1 bcast_S_S100000x512
          (hostLayer512
            (hostLayer128 (hostLayer128 (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg3))) (m ((c.tc : Thread nD τ).loc main_arg1)) (m ((c.tc : Thread nD τ).loc main_arg5)) (m ((c.tc : Thread nD τ).loc main_arg7)) (m ((c.tc : Thread nD τ).loc main_arg6)))
            (m ((c.tc : Thread nD τ).loc main_arg1)) (m ((c.tc : Thread nD τ).loc main_arg8)) (m ((c.tc : Thread nD τ).loc main_arg10)) (m ((c.tc : Thread nD τ).loc main_arg9)))
          (transpose S512x512 [1, 0] (m ((c.tc : Thread nD τ).loc main_arg11)) transposes_S512x512_S512x512_1_0) (m ((c.tc : Thread nD τ).loc main_arg12)))
        (transpose S512x3 [1, 0] (m ((c.tc : Thread nD τ).loc main_arg13)) transposes_S3x512_S512x3_1_0) (m ((c.tc : Thread nD τ).loc main_arg14)) := by
  unfold res_main_v122
  rfl

/-- The reference's result is the network of its argument arrays. -/
theorem result_eq : res_main_v122 m c
    = Model.net (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) := by
  rw [result_host, hostLayer128_eq, hostLayer128_eq, hostLayer512_eq,
    hostLinearRelu_eq _ rc_512_512, hostLinear_eq _ rc_512_3]
  rfl

end Cert.ReferenceIdeal.RefValue

end
-- ==== Proof.lean ====
/-
  A three-layer graph network with a two-layer head — mean aggregation over 1.6 million edges into 100000 nodes, three
  normalised and rectified graph layers, a rectified linear layer and a linear layer — computed by five grid launches
  over blocks of 2000 nodes, against the same network written with whole-array host operations.

  On the extended reals both programs compute `Model.net` of the fifteen argument arrays:

  * the aggregation (gather of rows, scatter-add, division by the degree) is the same chain of host operations in
    both programs and is carried as one function, never opened;
  * a launch's output array is its layer of the arrays it reads: each grid point writes back the layer's rows of its
    block, and the fifty blocks cover the array (the launches' modules); the buffers between launches are followed
    boundary by boundary (the chain module);
  * the reference's run ends at the host forms of the same layers (the reference's module), and a host form is the
    layer: the two differ only in where the bias is added, (A + B) + b against (A + b) + B, equal for all extended
    reals — so the precondition (finite inputs) is never used, and a change of float format inside a launch is the
    identity on the extended reals.

  The three frame claims are the generated frames (the reference's is its generated run with the result dropped), and
  the idealisation rewrote no operation, so its claim is `True`.
-/
import proofs.«102160_j85564338471312_1_alg».proof.Defs
import proofs.«102160_j85564338471312_1_alg».proof.Proof.Gen.Kernel
import proofs.«102160_j85564338471312_1_alg».proof.Proof.Gen.Kernel.Skeleton
import proofs.«102160_j85564338471312_1_alg».proof.Proof.Gen.Kernel.Launch
import proofs.«102160_j85564338471312_1_alg».proof.Proof.Gen.Kernel.Points
import proofs.«102160_j85564338471312_1_alg».proof.Proof.Gen.Kernel.Frame
import proofs.«102160_j85564338471312_1_alg».proof.Proof.Gen.KernelIdeal
import proofs.«102160_j85564338471312_1_alg».proof.Proof.Gen.KernelIdeal.Skeleton
import proofs.«102160_j85564338471312_1_alg».proof.Proof.Gen.KernelIdeal.Launch
import proofs.«102160_j85564338471312_1_alg».proof.Proof.Gen.KernelIdeal.Points
import proofs.«102160_j85564338471312_1_alg».proof.Proof.Gen.KernelIdeal.Frame
import proofs.«102160_j85564338471312_1_alg».proof.Proof.Gen.ReferenceIdeal
import proofs.«102160_j85564338471312_1_alg».proof.Proof.Gen.Pre_finite_inputs
import proofs.«102160_j85564338471312_1_alg».proof.Proof.Gen.ReferenceIdeal.Run
import proofs.«102160_j85564338471312_1_alg».proof.Proof.KernelRun
import proofs.«102160_j85564338471312_1_alg».proof.Proof.KernelChain
import proofs.«102160_j85564338471312_1_alg».proof.Proof.ReferenceValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Both runs end with the result buffer at `Model.net` of the argument arrays, which agree. -/
theorem algebraic : Cert.algebraic_KernelIdeal_ReferenceIdeal := by
  intro m ρ m' ρ' _ hagree
  refine ⟨fun c => Cert.Model.net (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))
      (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)), ?_, ?_⟩
  · exact (θ_run Cert.KernelIdeal.defs _ _).mono
      (fun r h c => ⟨(h c).1.trans (Cert.KernelIdeal.Chain.result_eq m ρ c), (h c).2⟩)
      (Cert.KernelIdeal.ValueRun.run (F := Ideal) m ρ)
  · refine (θ_run Cert.ReferenceIdeal.defs _ _).mono (fun r h c => ⟨(h c).1.trans ?_, (h c).2⟩)
      (Cert.ReferenceIdeal.Value.run (F := Ideal) m' ρ')
    obtain ⟨e0, e1, e2, e3, e4, e5, e6, e7, e8, e9, e10, e11, e12, e13, e14⟩ := hagree c
    rw [Cert.ReferenceIdeal.RefValue.result_eq m' c, e0, e1, e2, e3, e4, e5, e6, e7, e8, e9, e10, e11, e12, e13, e14]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
